-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x4096x1024 .f32) (main_arg1 : FVec F S1024x128 .f32) (main_arg2 : FVec F S1024x128 .f32) (main_arg3 : FVec F S1024x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x4096x1024 : Shape := ⟨3, ![4, 4096, 1024]⟩
abbrev S1024x128 : Shape := ⟨2, ![1024, 128]⟩
abbrev S10 : Shape := ⟨1, ![10]⟩
abbrev S1024x384 : Shape := ⟨2, ![1024, 384]⟩
abbrev S4x4096x128 : Shape := ⟨3, ![4, 4096, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1 : Shape := ⟨1, ![1]⟩
abbrev S1024x1 : Shape := ⟨2, ![1024, 1]⟩
abbrev S128x1024 : Shape := ⟨2, ![128, 1024]⟩
abbrev S1024 : Shape := ⟨1, ![1024]⟩

abbrev nBuf : Space → Nat
  | .hbm => 10
  | .vmem => 20
  | .smem => 2
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S1024x384, .bf16⟩
  | .hbm, ⟨6, _⟩ => ⟨S4x4096x128, .bf16⟩
  | .hbm, ⟨7, _⟩ => ⟨S4x4096x128, .bf16⟩
  | .hbm, ⟨8, _⟩ => ⟨S4x4096x128, .bf16⟩
  | .hbm, ⟨9, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x384, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .f32⟩
  | .local _ .vmem, ⟨16, _⟩ => ⟨S1x1024x128, .f32⟩
  | .local _ .vmem, ⟨17, _⟩ => ⟨S1024x1, .f32⟩
  | .local _ .vmem, ⟨18, _⟩ => ⟨S1024x1, .f32⟩
  | .local _ .vmem, ⟨19, _⟩ => ⟨S1024x128, .f32⟩
  | .local _ .smem, ⟨0, _⟩ => ⟨S10, .i32⟩
  | .local _ .smem, ⟨1, _⟩ => ⟨S10, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v7 : BitVec 1 := Scalar.cmpi .eq v3 v1
  let v8 : BitVec 32 := Scalar.extui v7
  let c0_i32_1 : BitVec 32 := 0#32
  let v9 : BitVec 1 := Scalar.cmpi .ne v8 c0_i32_1
  v9

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x128_S1024x128_S1024x128_S1024x384_d1 : Shape.Concatenates [S1024x128, S1024x128, S1024x128] S1024x384 1
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  slices_S1024x384_o0_0_S1024x128 : S1024x384.Slices ![0, 0] S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  slices_S1024x384_o0_128_S1024x128 : S1024x384.Slices ![0, 128] S1024x128
  slices_S1024x384_o0_256_S1024x128 : S1024x384.Slices ![0, 256] S1024x128
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S1024x1024_S1024x384_S1024x384_1_0_0_1_n_n_wf : DotDims.WF S1024x1024 S1024x384 S1024x384 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .bf16 = 32 ∨ (Rect.block (s := S4x4096x128) S1x1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x4096x128.size a
  hwx0_3 : ∀ i : grid0.Coords, EltTy.bits .bf16 = 32 ∨ (Rect.block (s := S4x4096x128) S1x1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S4x4096x128.size a
  hwx0_4 : ∀ i : grid0.Coords, EltTy.bits .bf16 = 32 ∨ (Rect.block (s := S4x4096x128) S1x1024x128.size (cc0_transform_4 i) (hinb0_4 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v2_0) S1x1024x128.size reads1_0 false false 2 stage1_0 sem1_0 nbuf1_0 hstage1_0

abbrev spec1_1 : Pipeline.WinSpec sig grid1.rank :=
  Pipeline.WinSpec.ofSpec (Memref.whole main_v2_1) S1x1024x128.size reads1_1 false false 2 stage1_1 sem1_1 nbuf1_1 hstage1_1

abbrev spec1_2 : Pipeline.WinSpec sig grid1.rank :=
  Pipeline.WinSpec.ofSpec (Memref.whole main_v2_2) S1x1024x128.size reads1_2 false false 2 stage1_2 sem1_2 nbuf1_2 hstage1_2

abbrev spec1_3 : Pipeline.WinSpec sig grid1.rank :=
  Pipeline.WinSpec.ofSpec (Memref.whole main_v3) S1x1024x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x128.size a ≤ S4x4096x128.size a), EltTy.bits .bf16 = 32 ∨ (Rect.block (s := S4x4096x128) S1x1024x128.size (cc1_transform_0 k1_off1_inb numel1_S1 pf i) h).WholeWords (EltTy.packing .bf16)) ∧
  (∀ i : grid1.Coords, ∃ h : (∀ a, (cc1_transform_1 k1_off1_inb numel1_S1 pf i a + 1) * S1x1024x128.size a ≤ S4x4096x128.size a), EltTy.bits .bf16 = 32 ∨ (Rect.block (s := S4x4096x128) S1x1024x128.size (cc1_transform_1 k1_off1_inb numel1_S1 pf i) h).WholeWords (EltTy.packing .bf16)) ∧
  (∀ i : grid1.Coords, ∃ h : (∀ a, (cc1_transform_2 k1_off1_inb numel1_S1 pf i a + 1) * S1x1024x128.size a ≤ S4x4096x128.size a), EltTy.bits .bf16 = 32 ∨ (Rect.block (s := S4x4096x128) S1x1024x128.size (cc1_transform_2 k1_off1_inb numel1_S1 pf i) h).WholeWords (EltTy.packing .bf16)) ∧
  (∀ i : grid1.Coords, ∃ h : (∀ a, (cc1_transform_3 k1_off1_inb numel1_S1 pf i a + 1) * S1x1024x128.size a ≤ S4x4096x128.size a), EltTy.bits .f32 = 32 ∨ (Rect.block (s := S4x4096x128) S1x1024x128.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x128 : Shape := ⟨2, ![1024, 128]⟩
abbrev S4x4096x128 : Shape := ⟨3, ![4, 4096, 128]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .i1⟩
  | .hbm, ⟨13, _⟩ => ⟨S4096x4096, .i1⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i1⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Reg0Data.lean ====
/-
  The projection region (the first pallas_call) as data, at the buffer contents `V` the region is entered
  with: the block of each window at a grid point, what the body leaves in each of its three output buffers —
  the one store of a 128-column slice of the block product — and the pipeline's proof data: inputs left as
  fetched, outputs at those stores, nothing carried between points, nothing owed.
-/
import proofs.«155321_j4011499454905_2_alg».proof.Proof.Gen.KernelIdeal.Launch
import proofs.«155321_j4011499454905_2_alg».proof.Proof.Gen.KernelIdeal.Skeleton
import proofs.«155321_j4011499454905_2_alg».proof.Proof.Gen.KernelIdeal.Points
import Idealize.ShloMosaic.Lib.Pipeline.FrameBody
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F] [Named F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole input block, the whole weight block, a whole output block. -/
abbrev rX0 : Rect S1x1024x1024 := Rect.unit (s := S1x1024x1024) ![0, 0, 0] S1x1024x1024.size Facts₀.inb_S1x1024x1024_S1x1024x1024_0_0_0
abbrev rW0 : Rect S1024x384 := Rect.unit (s := S1024x384) ![0, 0] S1024x384.size Facts₀.inb_S1024x384_S1024x384_0_0
abbrev rO0 : Rect S1x1024x128 := Rect.unit (s := S1x1024x128) ![0, 0, 0] S1x1024x128.size Facts₀.inb_S1x1024x128_S1x1024x128_0_0_0

/-- What the body leaves in the query, key and value output buffers: columns 0–127, 128–255, 256–383 of the
    block product, stored whole. -/
def out0_2 (x0 : Vec F S1x1024x1024 .f32) (x1 : Vec F S1024x384 .bf16) : Vec F S1x1024x128 .bf16 :=
  View.canon [⟨rO0, k0_pay2 (View.ld x0 rX0) (View.ld x1 rW0)⟩]
def out0_3 (x0 : Vec F S1x1024x1024 .f32) (x1 : Vec F S1024x384 .bf16) : Vec F S1x1024x128 .bf16 :=
  View.canon [⟨rO0, k0_pay3 (View.ld x0 rX0) (View.ld x1 rW0)⟩]
def out0_4 (x0 : Vec F S1x1024x1024 .f32) (x1 : Vec F S1024x384 .bf16) : Vec F S1x1024x128 .bf16 :=
  View.canon [⟨rO0, k0_pay4 (View.ld x0 rX0) (View.ld x1 rW0)⟩]

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Cert.KernelIdeal.Hand

end
-- ==== Proof.FrameRun.lean ====
/-
  The whole run of @main at any float instance: the host prefix (the two literal tables, the joined and
  narrowed weights), the projection region, the attention region. Between two items every buffer that
  outlives a region is held at named contents: the launch memory, then the host prefix's results, then the
  projection region's three arrays at what its write-backs leave, then the attention region's array likewise.
  Each region is entered by splitting its windows' arrays (and, for the attention region, its two tables)
  out of those buffers and left by putting them back; the attention region's three carried buffers and its
  tables travel inside its own invariant. The run's post names every such buffer's final contents, so the
  result array and the unchanged arguments are both read off it.
  The attention region's proof data enter as parameters (`dat1` and the facts about it), so that this
  module does not depend on how they are proved.
-/
import proofs.«155321_j4011499454905_2_alg».proof.Proof.Reg0Data
import proofs.«155321_j4011499454905_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at the first two boundaries -/

/-- Core `c`'s buffers after the host prefix, read at the TensorCore's references: what the projection
    region is entered with. -/
abbrev E1 : (c : Dev nD) → (b : Ref sig .tc) → Buf (Elt F) ((c : Thread nD τ).loc b) := fun c b => Gen.V1 m c b

/-- After the projection region: its arrays at what the pipeline leaves, every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- What the attention region is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

section Run

/-! ## The attention region's proof data, as parameters -/

variable (a1 : (pcfg1 (F := F)).Adm)
variable (dat1 : (c : Dev nD) → Dat τ (Elt F) Unit ℕ (UR sig nD τ) ℕ (cfg1 a1) c)
variable (hA1 : ∀ c w, (dat1 c).A w = E2 m c (Pipeline.arrRef spec1 w))
variable (hq1 : ∀ c w, (dat1 c).q w = fullShare)
variable (howed1 : ∀ c t, (dat1 c).owed t = 0)
variable (hbody0 : ∀ c, BodyObligation (dat0 (F := F) (E1 m) c) (defs₀ (F := F)) Variants.none () Set.univ)
variable (hbody1 : ∀ c, BodyObligation (dat1 c) (defs₀ (F := F)) Variants.none () Set.univ)
/-- What the attention region's invariant is entered from and must give back: the class's scoped rest with the
    generator register, and the two tables whole. -/
abbrev PhiEnds (c : Dev nD) : sProp 𝕄 :=
  iprop(Pipeline.ΦA spec1 c ∗ Pipeline.prefHeld pre1 c (fun _ => fullShare) a1.1)
variable (hin1 : ∀ c, PhiEnds a1 c ⊢ (dat1 c).Φ (0 : Fin ((cfg1 a1).N + 1)))
variable (hout1 : ∀ c, (dat1 c).Φ (Fin.last (cfg1 a1).N) ⊢ PhiEnds a1 c)
-- the tables the attention region is entered with are the admissible contents it is pinned at
variable (hrec1 : ∀ c t, (dat1 c).recorded t = Set.univ)
variable (hpf : ∀ c k, E2 m c (pre1.ref k) = a1.1 k)

/-- After the attention region. -/
def W3 (c : Dev nD) : Valuation τ sig (Elt F) :=
  Pipeline.withArrays spec1 c (W2 m c) fun w => (dat1 c).arrAt w (cfg1 a1).N
theorem W3_arr (c : Dev nD) (w : Fin (cfg1 a1).W) :
    W3 m a1 dat1 c (Proc.devRef .tc (Pipeline.arrRef spec1 w)) = (dat1 c).arrAt w (cfg1 a1).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m a1 dat1 c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m a1 dat1 c b
theorem hF1 (c : Dev nD) (w : Fin (cfg1 a1).W) : (dat1 c).arrAt w (cfg1 a1).N = E3 m a1 dat1 c (Pipeline.arrRef spec1 w) :=
  (W3_arr m a1 dat1 c w).symm
theorem hrest1 (c : Dev nD) : ∀ b, b ∉ Finset.univ.image (Pipeline.arrRef spec1) → E3 m a1 dat1 c b = E2 m c b :=
  fun b hb => W3_of_ne m a1 dat1 c b fun w e => hb (Finset.mem_image.mpr ⟨w, Finset.mem_univ _, e⟩)

/-! ## The proof data family and the thread state -/

/-- The tables' admissible contents per pipeline: none for the projection, `a1` for the attention. -/
def adm : (p : Fin 2) → (pcfgs (F := F) p).Adm
  | ⟨0, _⟩ => (cfg0).toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (E1 m) c
  | ⟨1, _⟩ => fun c => dat1 c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) R

abbrev Tₙ (c : Dev nD) : sProp 𝕄 := iprop(StableHlo.held (c : Thread nD τ) (Pipeline.ucRefs τ sig) (W3 m a1 dat1 c) ∗ ∃ r, prngReg c r)

/-! ## The regions as segments -/

set_option backward.isDefEq.respectTransparency.types false in
/-- The projection region over the thread state. -/
def reg0 : Pipeline.RegionSeg (pcfgs (F := F)) (adm a1) (pdats m a1 dat1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm a1) (pdats m a1 dat1) (launch0 (F := F)).win (launch0 (F := F)).arr_whole c
      ((pdats m a1 dat1 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 dat1) ((pdats m a1 dat1 0 c).share_full fun _ => rfl)
      (E1 m c) (E2 m c) ((pdats m a1 dat1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: beside its arrays, its two tables are split out of the
    buffers at entry, held whole inside the region's invariant, and put back at exit. -/
def reg1 : Pipeline.RegionSeg (pcfgs (F := F)) (adm a1) (pdats m a1 dat1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hbody1 c).loose
  hwaits := Pipeline.hwaits_of_owed_zero _ _ _ _ L lv 1 fun c t => howed1 c t
  pre c := iprop(StableHlo.held (c : Thread nD τ) (Pipeline.ucRefs τ sig) (W2 m c) ∗ R c)
  post c := iprop(Tₙ m a1 dat1 c ∗ ∃ W, owes (c : Thread nD τ) (0 : CellTallies nD τ sig Unit) W)
  X c := iprop(∃ r, prngReg c r)
  Y c := iprop((∃ r, prngReg c r) ∗ Pipeline.prefHeld pre1 c (fun _ => fullShare) a1.1)
  Z c := Pipeline.unscopedRestP (Ix := Unit) (Name := ℕ) (U := UR sig nD τ) (Lvl := ℕ) pre1 spec1 c (E2 m c)
  hentry c := by
    rw [Pipeline.ownSems0_none]
    have hsplit := Pipeline.arrays_of_unscopedBufs (p := 1) (pcfgs (F := F)) (adm a1) (pdats m a1 dat1) (launch1 (F := F)).win (launch1 (F := F)).arr_whole c
      ((pdats m a1 dat1 1 c).share_full fun w => hq1 c w) (E2 m c) fun w => hA1 c w
    rw [Pipeline.unscopedBufs_held, Pipeline.unscopedRest_split (launch1 (F := F)).pre c (E2 m c),
      show (fun k => E2 m c ((pcfgs (F := F) 1).pre.ref k)) = a1.1 from funext fun k => hpf c k] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr
      · ipureintro; exact fun _ _ => Or.inl (by rw [show (pdats m a1 dat1 1 c).recorded 0 = Set.univ from hrec1 c 0]; trivial)
      rw [show (pdats m a1 dat1 1 c).owed 0 = 0 from howed1 c 0]
      iexact HO
    isplitl [Hp]; · iexact Hp
    iexact Hrest
  hin c := by
    refine (?_ : _ ⊢ PhiEnds a1 c).trans (hin1 c)
    unfold PhiEnds Pipeline.ΦA
    iintro ⟨Hp, Ht, Hr⟩
    isplitr [Ht]
    · isplitl [Hr] <;> iassumption
    · iexact Ht
  hout c := by
    refine (hout1 c).trans ?_
    rw [Pipeline.ownSems0_none]; unfold PhiEnds Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m a1 dat1) ((pdats m a1 dat1 1 c).share_full fun w => hq1 c w)
      (E2 m c) (E3 m a1 dat1 c) ((pdats m a1 dat1 1 c).arrAt · (cfg1 a1).N) (hF1 m a1 dat1 c) (hrest1 m a1 dat1 c)
    rw [Pipeline.unscopedBufs_held, Pipeline.unscopedRest_split (launch1 (F := F)).pre c (E2 m c),
      show (fun k => E2 m c ((pcfgs (F := F) 1).pre.ref k)) = a1.1 from funext fun k => hpf c k] at hjoin
    iintro ⟨Ha, HO, ⟨HY, Ht⟩, Hrest⟩
    imodintro
    isplitl [Ha Hrest HY Ht]
    · isplitl [Ha Hrest Ht]
      · iapply hjoin; isplitl [Ha]; · iexact Ha
        isplitl [Ht]; · iexact Ht
        iexact Hrest
      iexact HY
    unfold Pipeline.Dat.owesAt Pipeline.owesWithin
    icases HO with ⟨%W, -, HO⟩; iexists W
    rw [show (pdats m a1 dat1 1 c).owed (Fin.last _) = 0 from howed1 c _]
    iexact HO

/-! ## @main as segments, and the launch -/

abbrev segs : List (Pipeline.Seg (pcfgs (F := F)) (adm a1) (pdats m a1 dat1) () defs₀ 𝒱₀ L lv) :=
  [ .host (hseg0 m),
    .region (reg0 m a1 dat1 hbody0),
    .region (reg1 m a1 dat1 hA1 hq1 howed1 hbody1 hin1 hout1 hrec1 hpf) ]

theorem main_run (c : Dev nD) : main (F := F) c = Pipeline.Seg.run (segs m a1 dat1 hA1 hq1 howed1 hbody0 hbody1 hin1 hout1 hrec1 hpf) :=
  (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hA1 hq1 howed1 hbody0 hbody1 hin1 hout1 hrec1 hpf in
set_option backward.isDefEq.respectTransparency.types false in
/-- THE RUN: from any memory with zero counters every weakly fair execution of @main terminates, nothing
    faulting, and the final memory holds every buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m a1 dat1 c b) :=
  Pipeline.θ_run_regions_kit (pcfgs (F := F)) (adm a1) (pdats m a1 dat1) () (cellOf_inj (adm a1)) emb₁ defs₀ 𝒱₀ L lv m ρ main
    (segs m a1 dat1 hA1 hq1 howed1 hbody0 hbody1 hin1 hout1 hrec1 hpf)
    (fun c Q => by rw [main_run m a1 dat1 hA1 hq1 howed1 hbody0 hbody1 hin1 hout1 hrec1 hpf c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m a1 dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m a1 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m a1 dat1 c) s')
      isplitl [Hh] <;> iassumption)
    (hQ := fun s h c => h c)

end Run

end Cert.KernelIdeal.Hand

end
-- ==== Proof.FrameReg0.lean ====
/-
  The projection region's body at every grid point. The body reads its two input staging buffers whole — the
  activation block and the concatenated weights —, forms one block product, and writes its three 128-column
  slices whole over the three output staging buffers (each of which it reads once beforehand without using what
  it read). So the inputs are left as found and each output holds exactly one whole-buffer store; an input
  buffer holds its window's block at a point whether the pipeline fetched it there or kept it from before.
-/
import proofs.«155321_j4011499454905_2_alg».proof.Proof.Reg0Data
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- The activation window's buffer holds its block at every point, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weights at every point: fetched at the first point, and never moved
    after it, since its block index is constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## One whole-buffer store covers an output buffer -/

theorem cover0 (p0 : Vec F S1x1024x128 .bf16) (y : S1x1024x128.Idx) :
    ∃ pc ∈ ([⟨rO0, p0⟩] : List (View.Piece (Elt F) S1x1024x128 .bf16)), y ∈ pc.1.set :=
  View.cover_of_tiled [⟨rO0, p0⟩] S1x1024x128.size (by rfl) y

/-! ## The body's triple -/

set_option maxHeartbeats 1000000 in
/-- The body on whole staging memrefs — the inputs' reading `x0`, `x1`, the outputs' holding anything — runs to
    the inputs' unchanged and each output's holding its slice of the product of `x0` and `x1`. -/
theorem sound_kernel0 (c : Dev nD) (E : Set ℕ) (i : grid0.Coords)
    (arg2 : Memref sig .tc .vmem S1x1024x1024 .f32) (harg2 : arg2.IsWhole)
    (arg3 : Memref sig .tc .vmem S1024x384 .bf16) (harg3 : arg3.IsWhole)
    (arg4 : Memref sig .tc .vmem S1x1024x128 .bf16) (harg4 : arg4.IsWhole)
    (arg5 : Memref sig .tc .vmem S1x1024x128 .bf16) (harg5 : arg5.IsWhole)
    (arg6 : Memref sig .tc .vmem S1x1024x128 .bf16) (harg6 : arg6.IsWhole)
    (x0 : Vec F S1x1024x1024 .f32) (x1 : Vec F S1024x384 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at a generic point -/

/-- What the body is called with at point `t`: the invariant, what the core owes, and each window's current
    staging buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnStep.lean ====
/-
  The attention kernel's three carried buffers — the running row maximum, the running row sum of
  exponentials and the running weighted sum of value rows — as ONE state, and what one grid point does to it,
  written over the kernel's own payload terms: a point whose key-block word is zero first resets the state,
  a diagonal point (key block = query block) applies the masked update, a point below the diagonal the
  unmasked update, and the block written back at a diagonal point is the weighted sum divided by the row sum.
  Generic in the float instance; no memory, no separation logic.
-/
import proofs.«155321_j4011499454905_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- The three carried buffers: row maximum `m`, row sum `l`, weighted value sum `acc`. -/
structure Scr (F : FTy → Type) [FloatOps F] where
  m : Vec F S1024x1 .f32
  l : Vec F S1024x1 .f32
  acc : Vec F S1024x128 .f32

/-- The reset: the maximum at the named lower bound, both sums at zero. -/
def Scr.init : Scr F := ⟨k1_pay1 (F := F), k1_pay2 (F := F), k1_pay3 (F := F)⟩

/-- The key-block word is zero: the state is reset first. -/
def condReset (v3 : BitVec 32) : BitVec 1 := Scalar.cmpi .ne (Scalar.extui (Scalar.cmpi .eq v3 0#32)) 0#32
/-- The key block lies strictly below the query block. -/
def condInner (v1 v3 : BitVec 32) : BitVec 1 := Scalar.cmpi .ne (Scalar.extui (Scalar.cmpi .slt v3 v1)) 0#32

/-- The masked update of a diagonal point, from the query, key and value blocks `q`, `k`, `v`. -/
def Scr.diag (v1 v3 : Elt F .i32) (q k v : Vec F S1x1024x128 .bf16) (s : Scr F) : Scr F :=
  ⟨k1_pay5 (k1_pay11 v1 v3 q k s.m), k1_pay14 v1 v3 q k s.m s.l,
   k1_pay4 (k1_pay9 v) (k1_pay12 v1 v3 q k s.m) (k1_pay13 v1 v3 q k s.m) s.acc⟩

/-- The unmasked update of a point below the diagonal. -/
def Scr.inner (q k v : Vec F S1x1024x128 .bf16) (s : Scr F) : Scr F :=
  ⟨k1_pay8 (k1_pay16 q k s.m), k1_pay19 q k s.m s.l, k1_pay7 (k1_pay20 q k v s.m s.acc)⟩

/-- The block a diagonal point writes back: the weighted sum over the row sum. -/
def Scr.out (s : Scr F) : Vec F S1x1024x128 .f32 := k1_pay6 s.acc s.l

/-- One grid point: reset if the key-block word `v3` is zero, then the diagonal update if `v3 = v1`, the
    inner update if `v3 < v1`, nothing otherwise. -/
def Scr.step (v1 v3 : Elt F .i32) (q k v : Vec F S1x1024x128 .bf16) (s : Scr F) : Scr F :=
  let s0 : Scr F := if condReset v3 = 1#1 then Scr.init else s
  if k1_cond2 v1 v3 = 1#1 then s0.diag v1 v3 q k v
  else if condInner v1 v3 = 1#1 then s0.inner q k v
  else s0

/-- The state after the first `n` grid points, from the table words and the blocks at each point. -/
def scrAt (W0 W1 : ℕ → Elt F .i32) (Q K V : ℕ → Vec F S1x1024x128 .bf16) : ℕ → Scr F
  | 0 => Scr.init
  | n + 1 => Scr.step (W0 n) (W1 n) (Q n) (K n) (V n) (scrAt W0 W1 Q K V n)

end Cert.KernelIdeal.Hand

end
-- ==== Proof.Reg1Data.lean ====
/-
  The attention region (the second pallas_call) as data, at the buffer contents `V` the region is entered with
  and at admissible contents `a1` of its two prefetched tables: the two table words a grid point reads, the
  block of each window at a point, the three carried buffers (row maximum, row sum, weighted value sum) after
  any number of points as one recursion over the points, the invariant between points, and the pipeline's
  proof data: the three inputs left as fetched, the output block at the weighted sum over the row sum of the
  state after the point, nothing owed.
-/
import proofs.«155321_j4011499454905_2_alg».proof.Proof.Gen.KernelIdeal.Launch
import proofs.«155321_j4011499454905_2_alg».proof.Proof.Gen.KernelIdeal.Skeleton
import proofs.«155321_j4011499454905_2_alg».proof.Proof.Gen.KernelIdeal.Points
import proofs.«155321_j4011499454905_2_alg».proof.Proof.AttnStep
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- The word of the first table (the query-block table) a grid point reads: its element at the point's second
    coordinate. -/
def tw0 (t : Fin (cfg1 a1).N) : Elt F .i32 :=
  a1.1.at 0 (Rect.unit (s := S10) (k1_off1 (grid1.coords t)) S1.size (Facts₀.k1_off1_inb (grid1.coords t))) Facts₀.numel1_S1

/-- The word of the second table (the key-block table) a grid point reads. -/
def tw1 (t : Fin (cfg1 a1).N) : Elt F .i32 :=
  a1.1.at 1 (Rect.unit (s := S10) (k1_off1 (grid1.coords t)) S1.size (Facts₀.k1_off1_inb (grid1.coords t))) Facts₀.numel1_S1

/-- Window `w`'s block at point `t`, read off its array as the region finds it: for each window a function of
    the table word its index map reads. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The table words and the three input blocks by position, as total functions of the position (past the grid:
    a fixed value nothing reads). -/
def tw0N (n : ℕ) : Elt F .i32 := if h : n < (cfg1 a1).N then tw0 a1 ⟨n, h⟩ else 0#32
def tw1N (n : ℕ) : Elt F .i32 := if h : n < (cfg1 a1).N then tw1 a1 ⟨n, h⟩ else 0#32
def qN (c : Dev nD) (n : ℕ) : Vec F S1x1024x128 .bf16 :=
  if h : n < (cfg1 a1).N then iblk1 V a1 c 0 ⟨n, h⟩ else fun _ => (Elt.inhabited F _).default
def kN (c : Dev nD) (n : ℕ) : Vec F S1x1024x128 .bf16 :=
  if h : n < (cfg1 a1).N then iblk1 V a1 c 1 ⟨n, h⟩ else fun _ => (Elt.inhabited F _).default
def vN (c : Dev nD) (n : ℕ) : Vec F S1x1024x128 .bf16 :=
  if h : n < (cfg1 a1).N then iblk1 V a1 c 2 ⟨n, h⟩ else fun _ => (Elt.inhabited F _).default

/-- THE CARRIED STATE after the first `n` grid points: the reset state stepped through the points in order. -/
def st1 (c : Dev nD) (n : ℕ) : Scr F :=
  scrAt (tw0N a1) (tw1N a1) (qN V a1 c) (kN V a1 c) (vN V a1 c) n

/-- The three scratch operands as memrefs: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The core's scoped buffers that are neither a staging buffer of this region nor one of its three scratch
    operands (the first region's staging buffers), each whole at some contents. -/
def restNoScr1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The tables as the region holds them between points: both buffers whole, at the admissible contents. -/
abbrev tabs1 (c : Dev nD) : sProp 𝕄 :=
  Pipeline.prefHeld (Ix := Unit) (Name := ℕ) (U := UR sig nD τ) (Lvl := ℕ) pre1 c (fun _ => fullShare) a1.1

/-- The region invariant before position `n`: before the first point every scoped buffer that is no staging
    buffer at anything and the generator register at some state; afterwards the three carried buffers at the
    state the points so far leave, the other scoped buffers at anything, the generator register at some state;
    the tables whole throughout. -/
def Phi1 (c : Dev nD) : ℕ → sProp 𝕄
  | 0 => iprop(Pipeline.ΦA spec1 c ∗ tabs1 a1 c)
  | n + 1 => iprop((restNoScr1 c
      ∗ owns (c : Thread nD τ) scM1_0 fullShare (st1 V a1 c (n + 1)).m
      ∗ owns (c : Thread nD τ) scM1_1 fullShare (st1 V a1 c (n + 1)).l
      ∗ owns (c : Thread nD τ) scM1_2 fullShare (st1 V a1 c (n + 1)).acc
      ∗ (∃ r, prngReg c r)) ∗ tabs1 a1 c)

/-- The proof data of the attention pipeline on core `c`. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => Scr.out (st1 V a1 c (t.val + 1))
  Φ t := Phi1 V a1 c t.val
  q _ := fullShare
  owed _ := 0

theorem A_eq1 (c : Dev nD) (w : Fin (cfg1 a1).W) : (dat1 V a1 c).A w = V c (Pipeline.arrRef spec1 w) := by
  dsimp only [dat1]

theorem after1_0 (c : Dev nD) (t : Fin (cfg1 a1).N) : (dat1 V a1 c).after 0 t = iblk1 V a1 c 0 t := by dsimp only [dat1]; rfl
theorem after1_1 (c : Dev nD) (t : Fin (cfg1 a1).N) : (dat1 V a1 c).after 1 t = iblk1 V a1 c 1 t := by dsimp only [dat1]; rfl
theorem after1_2 (c : Dev nD) (t : Fin (cfg1 a1).N) : (dat1 V a1 c).after 2 t = iblk1 V a1 c 2 t := by dsimp only [dat1]; rfl
theorem after1_3 (c : Dev nD) (t : Fin (cfg1 a1).N) : (dat1 V a1 c).after 3 t = Scr.out (st1 V a1 c (t.val + 1)) := by dsimp only [dat1]; rfl

theorem Phi1_zero (c : Dev nD) : Phi1 V a1 c 0 = iprop(Pipeline.ΦA spec1 c ∗ tabs1 a1 c) := rfl

theorem Phi1_succ (c : Dev nD) (n : ℕ) : Phi1 V a1 c (n + 1) = iprop((restNoScr1 c
      ∗ owns (c : Thread nD τ) scM1_0 fullShare (st1 V a1 c (n + 1)).m
      ∗ owns (c : Thread nD τ) scM1_1 fullShare (st1 V a1 c (n + 1)).l
      ∗ owns (c : Thread nD τ) scM1_2 fullShare (st1 V a1 c (n + 1)).acc
      ∗ (∃ r, prngReg c r)) ∗ tabs1 a1 c) := rfl

/-- The state after one more point. -/
theorem st1_succ (c : Dev nD) (n : ℕ) :
    st1 V a1 c (n + 1) = Scr.step (tw0N a1 n) (tw1N a1 n) (qN V a1 c n) (kN V a1 c n) (vN V a1 c n) (st1 V a1 c n) := rfl

end Cert.KernelIdeal.Hand

end
-- ==== Proof.Reg1Runs.lean ====
/-
  What the four runs of the attention kernel's body share: the two tables as memrefs and as points-to, the
  word a scalar load of a table reads, the whole-buffer rectangles, and the read-back equations — a load of a
  whole buffer held at named contents reads them; a load after a whole store reads the stored vector; a
  buffer whose newest store is whole holds that store.
-/
import proofs.«155321_j4011499454905_2_alg».proof.Proof.Reg1Data
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The two tables as the body is handed them, and a table's buffer held whole at contents `f`. -/
abbrev tbM1_0 : Memref sig .tc .smem S10 .i32 := Memref.whole main_c
abbrev tbM1_1 : Memref sig .tc .smem S10 .i32 := Memref.whole main_c_0
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word the body's scalar load reads off a table held at contents `T`, at grid coordinates `i`. -/
abbrev rdW (c : Dev nD) (M : Memref sig .tc .smem S10 .i32) (T : TbBuf1 (F := F) c M) (i : grid1.Coords) : Elt F .i32 :=
  M.view.readAt (Elt F) (Rect.unit (s := S10) (k1_off1 i) S1.size (Facts₀.k1_off1_inb i)).toLoadRect T (Shape.Idx.first (Facts₀.numel1_S1.symm ▸ Nat.one_pos))

section ReadBack

variable {sig' : RefSig} {κ : Kind} {sp : Space} {S : Shape} {e : EltTy} {Val : EltTy → Type} [∀ e, Nonempty (Val e)]

/-- A buffer whose newest store went through the whole-shape rectangle holds that store's payload. -/
theorem read_writes_head_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle after such a store reads the payload. -/
theorem readCov_head_whole (v : View sig' κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

end ReadBack

theorem z2 : (![0, 0] : Fin 2 → ℕ) = fun _ => 0 := by funext a; fin_cases a <;> rfl
theorem z3 : (![0, 0, 0] : Fin 3 → ℕ) = fun _ => 0 := by funext a; fin_cases a <;> rfl

/-- A load of a whole buffer held at the contents `x` reads `x`. -/
theorem ld_whole {S : Shape} {e : EltTy} {sp : Space} (M : Memref sig .tc sp S e) (h : M.IsWhole) {off : Fin S.rank → Nat}
    (h0 : off = fun _ => 0) (inb : ∀ a, off a + S.size a ≤ S.size a) (x : S.Idx → Elt F e) :
    M.view.readAt (Elt F) (Rect.unit off S.size inb).toLoadRect (h.unread x) = x := by
  rw [View.readAt_eq_ld, h.read_unread, View.ld_unit_zero h0]

/-! The read-back equations at the three shapes the body's buffers have. -/

section Shapes
variable {sig' : RefSig} {κ : Kind} {sp : Space} {Val : EltTy → Type} [∀ e, Nonempty (Val e)]

theorem rw2 {e : EltTy} (v : View sig' κ sp S1024x1 e) (f : v.ty.Contents Val) (inb : ∀ a, (![0, 0] : Fin 2 → ℕ) a + S1024x1.size a ≤ S1024x1.size a)
    (w : S1024x1.Idx → Val e) (L : List (View.Piece Val S1024x1 e)) :
    v.read Val (v.writes Val f ((⟨Rect.unit ![0, 0] S1024x1.size inb, w⟩ : View.Piece Val S1024x1 e) :: L)) = w :=
  read_writes_head_whole v f z2 inb w L
theorem rw2b {e : EltTy} (v : View sig' κ sp S1024x128 e) (f : v.ty.Contents Val) (inb : ∀ a, (![0, 0] : Fin 2 → ℕ) a + S1024x128.size a ≤ S1024x128.size a)
    (w : S1024x128.Idx → Val e) (L : List (View.Piece Val S1024x128 e)) :
    v.read Val (v.writes Val f ((⟨Rect.unit ![0, 0] S1024x128.size inb, w⟩ : View.Piece Val S1024x128 e) :: L)) = w :=
  read_writes_head_whole v f z2 inb w L
theorem rw3 {e : EltTy} (v : View sig' κ sp S1x1024x128 e) (f : v.ty.Contents Val) (inb : ∀ a, (![0, 0, 0] : Fin 3 → ℕ) a + S1x1024x128.size a ≤ S1x1024x128.size a)
    (w : S1x1024x128.Idx → Val e) (L : List (View.Piece Val S1x1024x128 e)) :
    v.read Val (v.writes Val f ((⟨Rect.unit ![0, 0, 0] S1x1024x128.size inb, w⟩ : View.Piece Val S1x1024x128 e) :: L)) = w :=
  read_writes_head_whole v f z3 inb w L
theorem cov2 {e : EltTy} (v : View sig' κ sp S1024x1 e) (inb inb' : ∀ a, (![0, 0] : Fin 2 → ℕ) a + S1024x1.size a ≤ S1024x1.size a)
    (w : S1024x1.Idx → Val e) (L : List (View.Piece Val S1024x1 e)) :
    v.readCov ((⟨Rect.unit ![0, 0] S1024x1.size inb, w⟩ : View.Piece Val S1024x1 e) :: L) (Rect.unit ![0, 0] S1024x1.size inb').toLoadRect = w :=
  readCov_head_whole v z2 z2 inb inb' w L
theorem cov2b {e : EltTy} (v : View sig' κ sp S1024x128 e) (inb inb' : ∀ a, (![0, 0] : Fin 2 → ℕ) a + S1024x128.size a ≤ S1024x128.size a)
    (w : S1024x128.Idx → Val e) (L : List (View.Piece Val S1024x128 e)) :
    v.readCov ((⟨Rect.unit ![0, 0] S1024x128.size inb, w⟩ : View.Piece Val S1024x128 e) :: L) (Rect.unit ![0, 0] S1024x128.size inb').toLoadRect = w :=
  readCov_head_whole v z2 z2 inb inb' w L

end Shapes

theorem ld2 {e : EltTy} {sp : Space} (M : Memref sig .tc sp S1024x1 e) (h : M.IsWhole) (inb : ∀ a, (![0, 0] : Fin 2 → ℕ) a + S1024x1.size a ≤ S1024x1.size a)
    (x : S1024x1.Idx → Elt F e) : M.view.readAt (Elt F) (Rect.unit ![0, 0] S1024x1.size inb).toLoadRect (h.unread x) = x := ld_whole M h z2 inb x
theorem ld2b {e : EltTy} {sp : Space} (M : Memref sig .tc sp S1024x128 e) (h : M.IsWhole) (inb : ∀ a, (![0, 0] : Fin 2 → ℕ) a + S1024x128.size a ≤ S1024x128.size a)
    (x : S1024x128.Idx → Elt F e) : M.view.readAt (Elt F) (Rect.unit ![0, 0] S1024x128.size inb).toLoadRect (h.unread x) = x := ld_whole M h z2 inb x
theorem ld3 {e : EltTy} {sp : Space} (M : Memref sig .tc sp S1x1024x128 e) (h : M.IsWhole) (inb : ∀ a, (![0, 0, 0] : Fin 3 → ℕ) a + S1x1024x128.size a ≤ S1x1024x128.size a)
    (x : S1x1024x128.Idx → Elt F e) : M.view.readAt (Elt F) (Rect.unit ![0, 0, 0] S1x1024x128.size inb).toLoadRect (h.unread x) = x := ld_whole M h z3 inb x

open Lean Elab Tactic Meta in
/-- Every abbreviation standing for an intermediate value of the body is replaced, throughout the goal, by the value
    it stands for. -/
elab "unfold_run_names" : tactic => do
  let g ← getMainGoal
  let t ← instantiateMVars (← g.getType)
  let t' ← Core.transform t (pre := fun e => do
    if let .const n _ := e.getAppFn then
      if n.components.contains `sl then
        if let some e' ← delta? e then return .visit e'.headBeta
    return .continue)
  replaceMainGoal [← g.replaceTargetDefEq t']

end Cert.KernelIdeal.Hand

end
-- ==== Proof.Reg1RunA.lean ====
/-
  The body at a point that resets and lies on the diagonal (the first point of a batch row's first query block):
  whatever the three carried buffers held, they end at the masked update of the reset state, and the output buffer
  at the weighted sum over the row sum.
-/
import proofs.«155321_j4011499454905_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem runA (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16)
    (hr : condReset (rdW c tbM1_1 T1 i) = 1#1)
    (hd : k1_cond2 (rdW c tbM1_0 T0 i) (rdW c tbM1_1 T1 i) = 1#1)
    (hi : ¬ condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare (Scr.out (Scr.diag (rdW c tbM1_0 T0 i) (rdW c tbM1_1 T1 i) q k v Scr.init))
            ∗ owns (c : Thread nD τ) arg8 fullShare (Scr.diag (rdW c tbM1_0 T0 i) (rdW c tbM1_1 T1 i) q k v Scr.init).m ∗ owns (c : Thread nD τ) arg9 fullShare (Scr.diag (rdW c tbM1_0 T0 i) (rdW c tbM1_1 T1 i) q k v Scr.init).l ∗ owns (c : Thread nD τ) arg10 fullShare (Scr.diag (rdW c tbM1_0 T0 i) (rdW c tbM1_1 T1 i) q k v Scr.init).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, HT0, HT1, Hk⟩
  obtain rfl := harg4.eq_unread hf4; obtain rfl := harg5.eq_unread hf5; obtain rfl := harg6.eq_unread hf6
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; unfold_run_names
    refine (read_writes_head_whole _ _ z3 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.KernelIdeal.Hand

end
-- ==== Proof.Reg1RunB.lean ====
/-
  The body at a point that resets and lies below the diagonal (the first key block of a later query block):
  whatever the three carried buffers held, they end at the unmasked update of the reset state; the output buffer is
  left as found.
-/
import proofs.«155321_j4011499454905_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem runB (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (d7 : Vec F S1x1024x128 .f32)
    (hr : condReset (rdW c tbM1_1 T1 i) = 1#1)
    (hd : ¬ k1_cond2 (rdW c tbM1_0 T0 i) (rdW c tbM1_1 T1 i) = 1#1)
    (hi : condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d)
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare d7
            ∗ owns (c : Thread nD τ) arg8 fullShare (Scr.inner q k v (Scr.init : Scr F)).m ∗ owns (c : Thread nD τ) arg9 fullShare (Scr.inner q k v (Scr.init : Scr F)).l ∗ owns (c : Thread nD τ) arg10 fullShare (Scr.inner q k v (Scr.init : Scr F)).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
  obtain rfl := harg4.eq_unread hf4; obtain rfl := harg5.eq_unread hf5; obtain rfl := harg6.eq_unread hf6
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.KernelIdeal.Hand

end
-- ==== Proof.Reg1RunC.lean ====
/-
  The body at a diagonal point that does not reset: the three carried buffers go from a state to its masked
  update, and the output buffer ends at the weighted sum over the row sum.
-/
import proofs.«155321_j4011499454905_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem runC (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (s : Scr F)
    (hr : ¬ condReset (rdW c tbM1_1 T1 i) = 1#1)
    (hd : k1_cond2 (rdW c tbM1_0 T0 i) (rdW c tbM1_1 T1 i) = 1#1)
    (hi : ¬ condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s.m ∗ owns (c : Thread nD τ) arg9 fullShare s.l ∗ owns (c : Thread nD τ) arg10 fullShare s.acc
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare (Scr.out (Scr.diag (rdW c tbM1_0 T0 i) (rdW c tbM1_1 T1 i) q k v s))
            ∗ owns (c : Thread nD τ) arg8 fullShare (Scr.diag (rdW c tbM1_0 T0 i) (rdW c tbM1_1 T1 i) q k v s).m ∗ owns (c : Thread nD τ) arg9 fullShare (Scr.diag (rdW c tbM1_0 T0 i) (rdW c tbM1_1 T1 i) q k v s).l ∗ owns (c : Thread nD τ) arg10 fullShare (Scr.diag (rdW c tbM1_0 T0 i) (rdW c tbM1_1 T1 i) q k v s).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, HT0, HT1, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; unfold_run_names
    refine (read_writes_head_whole _ _ z3 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.KernelIdeal.Hand

end
-- ==== Proof.Reg1RunD.lean ====
/-
  The body at a point below the diagonal that does not reset: the three carried buffers go from a state to its
  unmasked update; the output buffer is left as found.
-/
import proofs.«155321_j4011499454905_2_alg».proof.Proof.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem runD (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (d7 : Vec F S1x1024x128 .f32) (s : Scr F)
    (hr : ¬ condReset (rdW c tbM1_1 T1 i) = 1#1)
    (hd : ¬ k1_cond2 (rdW c tbM1_0 T0 i) (rdW c tbM1_1 T1 i) = 1#1)
    (hi : condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare s.m ∗ owns (c : Thread nD τ) arg9 fullShare s.l ∗ owns (c : Thread nD τ) arg10 fullShare s.acc
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare d7
            ∗ owns (c : Thread nD τ) arg8 fullShare (Scr.inner q k v s).m ∗ owns (c : Thread nD τ) arg9 fullShare (Scr.inner q k v s).l ∗ owns (c : Thread nD τ) arg10 fullShare (Scr.inner q k v s).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  isplitl [H8]
  · iexists _; isplitr; swap; · iexact H8
    ipureintro; unfold_run_names
    refine (read_writes_head_whole _ _ z2 _ _ _).trans ?_
    rw [ld3 arg4 harg4, ld3 arg5 harg5, ld2 arg8 harg8]; rfl
  isplitl [H9]
  · iexists _; isplitr; swap; · iexact H9
    ipureintro; unfold_run_names
    refine (read_writes_head_whole _ _ z2 _ _ _).trans ?_
    rw [ld3 arg4 harg4, ld3 arg5 harg5, ld2 arg8 harg8, ld2 arg9 harg9]; rfl
  isplitl [H10]
  · iexists _; isplitr; swap; · iexact H10
    ipureintro; unfold_run_names
    refine (read_writes_head_whole _ _ z2 _ _ _).trans ?_
    rw [ld3 arg4 harg4, ld3 arg5 harg5, ld3 arg6 harg6, ld2 arg8 harg8, ld2b arg10 harg10]; rfl
  isplitl [HT0]; · iexact HT0
  iexact HT1

end Cert.KernelIdeal.Hand

end
-- ==== Proof.TableWords.lean ====
/-
  The lower-triangular tile schedule as two ten-entry lists of words: for each of the ten tiles, in the order
  the grid visits them, the number of its query block (0, 1, 1, 2, 2, 2, 3, 3, 3, 3) and of its key block
  (0, 0, 1, 0, 1, 2, 0, 1, 2, 3). Past the tenth entry both lists read zero.
-/

namespace Cert.KernelIdeal.Hand

/-- The query-block number of tile `n`. -/
def qiW : Nat → BitVec 32
  | 0 => 0#32 | 1 => 1#32 | 2 => 1#32 | 3 => 2#32 | 4 => 2#32 | 5 => 2#32 | 6 => 3#32 | 7 => 3#32
  | 8 => 3#32 | 9 => 3#32
  | _ => 0#32

/-- The key-block number of tile `n`. -/
def kiW : Nat → BitVec 32
  | 0 => 0#32 | 1 => 0#32 | 2 => 1#32 | 3 => 0#32 | 4 => 1#32 | 5 => 2#32 | 6 => 0#32 | 7 => 1#32
  | 8 => 2#32 | 9 => 3#32
  | _ => 0#32

/-- No entry of either list exceeds three: there are four blocks. -/
theorem qiW_le (n : Nat) : (qiW n).toNat ≤ 3 := by
  unfold qiW; split <;> decide

theorem kiW_le (n : Nat) : (kiW n).toNat ≤ 3 := by
  unfold kiW; split <;> decide

end Cert.KernelIdeal.Hand
-- ==== Proof.Reg1Facts.lean ====
/-
  The schedule of the attention region, with the two tables' contents a variable constrained by one hypothesis:
  that over each row of ten grid points the tables hold the triangular enumeration of the pairs (query block,
  key block) with key block ≤ query block. Decided over the ten positions of a row: which of the body's three
  conditions hold at a point; that the point after a point off the diagonal has the same query block. From
  these: where the output window is idle, and that it is not written back at a point off the diagonal.
-/
import proofs.«155321_j4011499454905_2_alg».proof.Proof.Reg1Data
import proofs.«155321_j4011499454905_2_alg».proof.Proof.TableWords

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a1 : (pcfg1 (F := F)).Adm)

/-- THE HYPOTHESIS on the tables' contents: at every grid point the two words read are the enumeration's at the
    point's position in its row (`qiW`, `kiW`: the triangular enumeration of the pairs). -/
def Tab1 : Prop := ∀ t : Fin (cfg1 a1).N, tw0 a1 t = qiW (t.val % 10) ∧ tw1 a1 t = kiW (t.val % 10)

/-- At each position of a row exactly one of four cases of the body's three conditions holds: reset and diagonal,
    reset and below the diagonal, diagonal alone, below the diagonal alone. -/
theorem cls10 : ∀ j : Fin 10,
    (condReset (kiW j.val) = 1#1 ∧ k1_cond2 (qiW j.val) (kiW j.val) = 1#1 ∧ ¬ condInner (qiW j.val) (kiW j.val) = 1#1) ∨
    (condReset (kiW j.val) = 1#1 ∧ ¬ k1_cond2 (qiW j.val) (kiW j.val) = 1#1 ∧ condInner (qiW j.val) (kiW j.val) = 1#1) ∨
    (¬ condReset (kiW j.val) = 1#1 ∧ k1_cond2 (qiW j.val) (kiW j.val) = 1#1 ∧ ¬ condInner (qiW j.val) (kiW j.val) = 1#1) ∨
    (¬ condReset (kiW j.val) = 1#1 ∧ ¬ k1_cond2 (qiW j.val) (kiW j.val) = 1#1 ∧ condInner (qiW j.val) (kiW j.val) = 1#1) := by
  decide +kernel

/-- The first position of a row resets. -/
theorem reset0 : condReset (kiW 0) = 1#1 := by decide +kernel

/-- A position off the diagonal is not a row's last, and the next position has the same query block. -/
theorem nf10 : ∀ j : Fin 10, ¬ k1_cond2 (qiW j.val) (kiW j.val) = 1#1 → j.val ≠ 9 ∧ qiW (j.val + 1) = qiW j.val := by
  decide +kernel

/-- The grid's two coordinates of a point: the batch index and the position in the row. -/
theorem coords1_0 : ∀ t : Fin grid1.N, (grid1.coords t 0).val = t.val / 10 := by decide +kernel
theorem coords1_1 : ∀ t : Fin grid1.N, (grid1.coords t 1).val = t.val % 10 := by decide +kernel

theorem N1' : (cfg1 a1).N = 40 := N_1

/-- The table word as the idle table spells it (the element at the offsets when they are inside the table) is the
    word the index maps read. -/
theorem atD0_eq (i : grid1.Coords) :
    a1.1.atD 0 (k1_off1 i) = a1.1.at 0 (Rect.unit (s := S10) (k1_off1 i) S1.size (Facts₀.k1_off1_inb i)) Facts₀.numel1_S1 := by
  unfold Pipeline.Prefetch.Contents.atD
  split
  · refine congrArg (a1.1 0) (funext fun a => Fin.ext ?_)
    fin_cases a
    rfl
  · next h => exact absurd (fun a => by fin_cases a; exact Facts₀.k1_off1_inb i 0) h
theorem atD1_eq (i : grid1.Coords) :
    a1.1.atD 1 (k1_off1 i) = a1.1.at 1 (Rect.unit (s := S10) (k1_off1 i) S1.size (Facts₀.k1_off1_inb i)) Facts₀.numel1_S1 := by
  unfold Pipeline.Prefetch.Contents.atD
  split
  · refine congrArg (a1.1 1) (funext fun a => Fin.ext ?_)
    fin_cases a
    rfl
  · next h => exact absurd (fun a => by fin_cases a; exact Facts₀.k1_off1_inb i 0) h

/-- Where the output window is idle: exactly off the diagonal. -/
theorem idle3_eq (t : Fin (cfg1 a1).N) :
    (cfg1 a1).idle 3 ((cfg1 a1).grid.coords t) = !(k1_cond2 (tw0 a1 t) (tw1 a1 t) == 1#1) := by
  show (!(k1_cond2 (a1.1.atD 0 (k1_off1 (grid1.coords t))) (a1.1.atD 1 (k1_off1 (grid1.coords t))) == 1#1)) = _
  rw [atD0_eq, atD1_eq]; rfl

theorem idle3_true (t : Fin (cfg1 a1).N) (hd : ¬ k1_cond2 (tw0 a1 t) (tw1 a1 t) = 1#1) :
    (cfg1 a1).idle 3 ((cfg1 a1).grid.coords t) = true := by
  rw [idle3_eq]; simp only [Bool.not_eq_true', beq_eq_false_iff_ne, ne_eq]; exact hd

theorem idle3_false (t : Fin (cfg1 a1).N) (hd : k1_cond2 (tw0 a1 t) (tw1 a1 t) = 1#1) :
    (cfg1 a1).idle 3 ((cfg1 a1).grid.coords t) = false := by
  rw [idle3_eq, hd]; rfl

/-- The three input windows are never idle. -/
theorem live1_0 (t : Fin (cfg1 a1).N) : (cfg1 a1).idle 0 ((cfg1 a1).grid.coords t) = false := rfl
theorem live1_1 (t : Fin (cfg1 a1).N) : (cfg1 a1).idle 1 ((cfg1 a1).grid.coords t) = false := rfl
theorem live1_2 (t : Fin (cfg1 a1).N) : (cfg1 a1).idle 2 ((cfg1 a1).grid.coords t) = false := rfl

/-- The output window's block index at a point: the batch index, the query-block word, zero. -/
theorem index3_eq (t : Fin (cfg1 a1).N) :
    ((cfg1 a1).win 3).index t = ![(BitVec.ofNat 32 (grid1.coords t 0).val).toNat, (tw0 a1 t).toNat, (0#32).toNat] := rfl

/-- Off the diagonal the output block is not written back: the next point is in the same row with the same query block. -/
theorem noFlush3 (hT : Tab1 a1) (t : Fin (cfg1 a1).N) (hd : ¬ k1_cond2 (tw0 a1 t) (tw1 a1 t) = 1#1) :
    ((cfg1 a1).win 3).flush t = false := by
  have hN : t.val < 40 := lt_of_lt_of_eq t.isLt (N1' a1)
  obtain ⟨h0, h1⟩ := hT t
  rw [h0, h1] at hd
  obtain ⟨hj9, hq⟩ := nf10 ⟨t.val % 10, Nat.mod_lt _ (by decide)⟩ hd
  have hj9' : t.val % 10 ≠ 9 := hj9
  have hq' : qiW (t.val % 10 + 1) = qiW (t.val % 10) := hq
  have hidx : ∀ h : t.val + 1 < (cfg1 a1).N, ((cfg1 a1).win 3).index ⟨t.val + 1, h⟩ = ((cfg1 a1).win 3).index t := by
    intro h
    have c0 : grid1.coords (⟨t.val + 1, h⟩ : Fin grid1.N) 0 = grid1.coords (t : Fin grid1.N) 0 :=
      Fin.ext (by rw [coords1_0, coords1_0]; show (t.val + 1) / 10 = t.val / 10; omega)
    have w : tw0 a1 ⟨t.val + 1, h⟩ = tw0 a1 t := by
      rw [(hT _).1, h0]
      show qiW ((t.val + 1) % 10) = qiW (t.val % 10)
      rw [show (t.val + 1) % 10 = t.val % 10 + 1 from by omega]; exact hq'
    rw [index3_eq, index3_eq, c0, w]
  have hne : ¬ t.val + 1 = (cfg1 a1).grid.N := by
    show ¬ t.val + 1 = (cfg1 a1).N
    intro h
    have h40 : (cfg1 a1).N = 40 := N1' a1
    omega
  unfold Pipeline.Window.flush
  rw [decide_eq_false hne, decide_eq_false (fun ⟨h, hx⟩ => hx (hidx h))]
  simp only [Bool.or_self, Bool.and_false]

/-- Under the hypothesis, at every grid point exactly one of the four cases holds of the two words read there. -/
theorem cls1 (hT : Tab1 a1) (t : Fin (cfg1 a1).N) :
    (condReset (tw1 a1 t) = 1#1 ∧ k1_cond2 (tw0 a1 t) (tw1 a1 t) = 1#1 ∧ ¬ condInner (tw0 a1 t) (tw1 a1 t) = 1#1) ∨
    (condReset (tw1 a1 t) = 1#1 ∧ ¬ k1_cond2 (tw0 a1 t) (tw1 a1 t) = 1#1 ∧ condInner (tw0 a1 t) (tw1 a1 t) = 1#1) ∨
    (¬ condReset (tw1 a1 t) = 1#1 ∧ k1_cond2 (tw0 a1 t) (tw1 a1 t) = 1#1 ∧ ¬ condInner (tw0 a1 t) (tw1 a1 t) = 1#1) ∨
    (¬ condReset (tw1 a1 t) = 1#1 ∧ ¬ k1_cond2 (tw0 a1 t) (tw1 a1 t) = 1#1 ∧ condInner (tw0 a1 t) (tw1 a1 t) = 1#1) := by
  obtain ⟨h0, h1⟩ := hT t
  rw [h0, h1]
  exact cls10 ⟨t.val % 10, Nat.mod_lt _ (by decide)⟩

/-- The grid's first point resets. -/
theorem reset_first (hT : Tab1 a1) (t : Fin (cfg1 a1).N) (hz : t.val = 0) : condReset (tw1 a1 t) = 1#1 := by
  rw [(hT t).2, hz]; exact reset0

/-- The table words and input blocks by position, at a position inside the grid. -/
theorem tw0N_eq (t : Fin (cfg1 a1).N) : tw0N a1 t.val = tw0 a1 t := dif_pos t.isLt
theorem tw1N_eq (t : Fin (cfg1 a1).N) : tw1N a1 t.val = tw1 a1 t := dif_pos t.isLt

section Blocks
variable (V : (c : Dev nD) → (b : Ref sig .tc) → Buf (Elt F) ((c : Thread nD τ).loc b))
theorem qN_eq (c : Dev nD) (t : Fin (cfg1 a1).N) : qN V a1 c t.val = iblk1 V a1 c 0 t := dif_pos t.isLt
theorem kN_eq (c : Dev nD) (t : Fin (cfg1 a1).N) : kN V a1 c t.val = iblk1 V a1 c 1 t := dif_pos t.isLt
theorem vN_eq (c : Dev nD) (t : Fin (cfg1 a1).N) : vN V a1 c t.val = iblk1 V a1 c 2 t := dif_pos t.isLt
end Blocks

/-- One grid point's effect on the carried state, in each of the four cases. -/
theorem step_A (v1 v3 : Elt F .i32) (q k v : Vec F S1x1024x128 .bf16) (s : Scr F)
    (hr : condReset v3 = 1#1) (hd : k1_cond2 v1 v3 = 1#1) : Scr.step v1 v3 q k v s = Scr.diag v1 v3 q k v Scr.init := by
  unfold Scr.step; simp only [hr, hd, if_true]
theorem step_B (v1 v3 : Elt F .i32) (q k v : Vec F S1x1024x128 .bf16) (s : Scr F)
    (hr : condReset v3 = 1#1) (hd : ¬ k1_cond2 v1 v3 = 1#1) (hi : condInner v1 v3 = 1#1) :
    Scr.step v1 v3 q k v s = Scr.inner q k v (Scr.init : Scr F) := by
  unfold Scr.step; simp only [hr, hd, hi, if_true, if_false]
theorem step_C (v1 v3 : Elt F .i32) (q k v : Vec F S1x1024x128 .bf16) (s : Scr F)
    (hr : ¬ condReset v3 = 1#1) (hd : k1_cond2 v1 v3 = 1#1) : Scr.step v1 v3 q k v s = Scr.diag v1 v3 q k v s := by
  unfold Scr.step; simp only [hr, hd, if_true, if_false]
theorem step_D (v1 v3 : Elt F .i32) (q k v : Vec F S1x1024x128 .bf16) (s : Scr F)
    (hr : ¬ condReset v3 = 1#1) (hd : ¬ k1_cond2 v1 v3 = 1#1) (hi : condInner v1 v3 = 1#1) :
    Scr.step v1 v3 q k v s = Scr.inner q k v s := by
  unfold Scr.step; simp only [hr, hd, hi, if_true, if_false]

end Cert.KernelIdeal.Hand

end
-- ==== Proof.Reg1Ends.lean ====
/-
  The two ends of the attention region's invariant, and its parts. The class's scoped rest opens into the
  first region's nine staging buffers and this region's three carried buffers, each at anything, beside the
  generator register, and closes back. The tables held whole are the two tables' points-to. Before the first
  point the invariant is what the region is entered with; after a point the three carried buffers are held at
  the state the points so far leave; after the last point, forgetting that state gives back what the region
  was entered with.
-/
import proofs.«155321_j4011499454905_2_alg».proof.Proof.Reg1Data
import proofs.«155321_j4011499454905_2_alg».proof.Proof.Reg1Runs
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-! ## The scoped rest, opened and closed -/

/-- The class's scoped rest with the generator register opens into the first region's staging buffers, the
    three carried buffers at anything, and the register. -/
theorem PhiA1_open (c : Dev nD) :
    (Pipeline.ΦA spec1 c : sProp 𝕄) ⊢ iprop(restNoScr1 c ∗ (∃ d, owns (c : Thread nD τ) scM1_0 fullShare d)
      ∗ (∃ d, owns (c : Thread nD τ) scM1_1 fullShare d) ∗ (∃ d, owns (c : Thread nD τ) scM1_2 fullShare d) ∗ ∃ r, prngReg c r) := by
  unfold Pipeline.ΦA restNoScr1
  rw [scopedRest1_eq]
  simp only [owns_whole]
  iintro ⟨⟨H0, H1, H2, H3, H4, H5, H6, H7, H8, Hm, Hl, Ha⟩, Hr⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hm]; · iexact Hm
  isplitl [Hl]; · iexact Hl
  isplitl [Ha]; · iexact Ha
  iexact Hr

/-- And back. -/
theorem PhiA1_close (c : Dev nD) :
    iprop(restNoScr1 c ∗ (∃ d, owns (c : Thread nD τ) scM1_0 fullShare d)
      ∗ (∃ d, owns (c : Thread nD τ) scM1_1 fullShare d) ∗ (∃ d, owns (c : Thread nD τ) scM1_2 fullShare d) ∗ ∃ r, prngReg c r)
      ⊢ (Pipeline.ΦA spec1 c : sProp 𝕄) := by
  unfold Pipeline.ΦA restNoScr1
  rw [scopedRest1_eq]
  simp only [owns_whole]
  iintro ⟨⟨H0, H1, H2, H3, H4, H5, H6, H7, H8⟩, Hm, Hl, Ha, Hr⟩
  isplitr [Hr]; swap; · iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hm]; · iexact Hm
  isplitl [Hl]; · iexact Hl
  iexact Ha

/-! ## The tables -/

/-- The tables held whole at the admissible contents, table by table. -/
theorem tabs1_eq (c : Dev nD) : (tabs1 a1 c : sProp 𝕄) = iprop(tbPt1 c tbM1_0 (a1.1 0) ∗ tbPt1 c tbM1_1 (a1.1 1)) := by
  unfold tabs1 Pipeline.prefHeld
  rw [show (Finset.univ : Finset (Fin 2)) = insert (0 : Fin 2) {(1 : Fin 2)} from by decide,
    bigSep_insert (by decide), bigSep_singleton]
  rfl

/-! ## The invariant by position -/

/-- After at least one point the carried buffers are held at the state the points so far leave. -/
theorem Phi1_pos (c : Dev nD) (n : ℕ) (hz : n ≠ 0) : Phi1 V a1 c n = iprop((restNoScr1 c
      ∗ owns (c : Thread nD τ) scM1_0 fullShare (st1 V a1 c n).m
      ∗ owns (c : Thread nD τ) scM1_1 fullShare (st1 V a1 c n).l
      ∗ owns (c : Thread nD τ) scM1_2 fullShare (st1 V a1 c n).acc
      ∗ (∃ r, prngReg c r)) ∗ tabs1 a1 c) := by
  cases n with
  | zero => exact absurd rfl hz
  | succ k => exact Phi1_succ V a1 c k

/-- Entering: what the region holds when it starts is the invariant before the first point. -/
theorem hin1 (c : Dev nD) :
    (iprop(Pipeline.ΦA spec1 c ∗ Pipeline.prefHeld pre1 c (fun _ => fullShare) a1.1) : sProp 𝕄)
      ⊢ (dat1 V a1 c).Φ (0 : Fin ((cfg1 a1).N + 1)) := by
  show _ ⊢ Phi1 V a1 c 0
  rw [Phi1_zero]

/-- Leaving: the invariant after the last of the forty points gives back what the region was entered with. -/
theorem hout1 (c : Dev nD) :
    (dat1 V a1 c).Φ (Fin.last (cfg1 a1).N)
      ⊢ (iprop(Pipeline.ΦA spec1 c ∗ Pipeline.prefHeld pre1 c (fun _ => fullShare) a1.1) : sProp 𝕄) := by
  have hN : (Fin.last (cfg1 a1).N).val = 39 + 1 := N_1
  show Phi1 V a1 c (Fin.last (cfg1 a1).N).val ⊢ _
  rw [hN, Phi1_succ]
  iintro ⟨⟨Hrest, Hm, Hl, Ha, Hr⟩, Ht⟩
  isplitr [Ht]; swap; · iexact Ht
  iapply (PhiA1_close c)
  isplitl [Hrest]; · iexact Hrest
  isplitl [Hm]; · iexists _; iexact Hm
  isplitl [Hl]; · iexists _; iexact Hl
  isplitl [Ha]; · iexists _; iexact Ha
  iexact Hr

end Cert.KernelIdeal.Hand

end
-- ==== Proof.Reg1Before.lean ====
/-
  What the attention body finds in its three input buffers: at every grid point each holds its window's block
  there — the query block or the key / value block the point's table word selects —, whether the pipeline
  fetched it at that point or kept it from the point before (unfetched, the block index did not move).
-/
import proofs.«155321_j4011499454905_2_alg».proof.Proof.Reg1Data
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F] [Named F]

variable (V : (c : Dev nD) → (b : Ref sig .tc) → Buf (Elt F) ((c : Thread nD τ).loc b))
variable (a1 : (pcfg1 (F := F)).Adm)

/-- The query window's buffer holds the query block of the point. -/
theorem before1_0 (c : Dev nD) (t : Fin (cfg1 a1).N) (d) : (dat1 V a1 c).before 0 t d = iblk1 V a1 c 0 t :=
  ((dat1 V a1 c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key window's buffer holds the key block of the point. -/
theorem before1_1 (c : Dev nD) (t : Fin (cfg1 a1).N) (d) : (dat1 V a1 c).before 1 t d = iblk1 V a1 c 1 t :=
  ((dat1 V a1 c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value window's buffer holds the value block of the point. -/
theorem before1_2 (c : Dev nD) (t : Fin (cfg1 a1).N) (d) : (dat1 V a1 c).before 2 t d = iblk1 V a1 c 2 t :=
  ((dat1 V a1 c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.KernelIdeal.Hand

end
-- ==== Proof.FrameReg1.lean ====
/-
  THE BODY OBLIGATION of the attention region: at every grid point, from the invariant before the point, the three
  input buffers at their blocks and the output buffer at whatever it holds, the kernel body runs to the invariant
  after the point — the three carried buffers at the state one step further — with the input buffers unchanged and
  the output buffer either at the weighted sum over the row sum (a diagonal point) or as it was found (elsewhere,
  where the block is not written back). By cases on which of the body's three conditions hold of the two table words
  read at the point, under the hypothesis that the tables hold the triangular enumeration.
-/
import proofs.«155321_j4011499454905_2_alg».proof.Proof.Reg1RunA
import proofs.«155321_j4011499454905_2_alg».proof.Proof.Reg1RunB
import proofs.«155321_j4011499454905_2_alg».proof.Proof.Reg1RunC
import proofs.«155321_j4011499454905_2_alg».proof.Proof.Reg1RunD
import proofs.«155321_j4011499454905_2_alg».proof.Proof.Reg1Facts
import proofs.«155321_j4011499454905_2_alg».proof.Proof.Reg1Ends
import proofs.«155321_j4011499454905_2_alg».proof.Proof.Reg1Before

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- Each window's current staging memref at point `t`, as the pipeline passes it to the body, and its wholeness. -/
abbrev ms1_0 (t : Fin (cfg1 a1).N) : Memref sig .tc .vmem S1x1024x128 .bf16 := spec1_0.stage ((cfg1 a1).slots t 0)
abbrev hs1_0 (t : Fin (cfg1 a1).N) : (ms1_0 a1 t).IsWhole := Facts₀.hstage1_0 (((cfg1 a1).slots t 0).cast Facts₀.nbuf1_0)
abbrev ms1_1 (t : Fin (cfg1 a1).N) : Memref sig .tc .vmem S1x1024x128 .bf16 := spec1_1.stage ((cfg1 a1).slots t 1)
abbrev hs1_1 (t : Fin (cfg1 a1).N) : (ms1_1 a1 t).IsWhole := Facts₀.hstage1_1 (((cfg1 a1).slots t 1).cast Facts₀.nbuf1_1)
abbrev ms1_2 (t : Fin (cfg1 a1).N) : Memref sig .tc .vmem S1x1024x128 .bf16 := spec1_2.stage ((cfg1 a1).slots t 2)
abbrev hs1_2 (t : Fin (cfg1 a1).N) : (ms1_2 a1 t).IsWhole := Facts₀.hstage1_2 (((cfg1 a1).slots t 2).cast Facts₀.nbuf1_2)
abbrev ms1_3 (t : Fin (cfg1 a1).N) : Memref sig .tc .vmem S1x1024x128 .f32 := spec1_3.stage ((cfg1 a1).slots t 3)
abbrev hs1_3 (t : Fin (cfg1 a1).N) : (ms1_3 a1 t).IsWhole := Facts₀.hstage1_3 (((cfg1 a1).slots t 3).cast Facts₀.nbuf1_3)

/-- The kernel body at point `t`, on what the pipeline calls it with. -/
abbrev bodyAt1 (t : Fin (cfg1 a1).N) : Prog (TpuEff nD τ sig (Elt F) Λ₀ .tc) PUnit :=
  cc1__attn_kernel (grid1.coords t) tbM1_0 (Memref.isWhole_whole _) tbM1_1 (Memref.isWhole_whole _)
    (ms1_0 a1 t) (hs1_0 a1 t) (ms1_1 a1 t) (hs1_1 a1 t) (ms1_2 a1 t) (hs1_2 a1 t) (ms1_3 a1 t) (hs1_3 a1 t)
    scM1_0 (Memref.isWhole_whole _) scM1_1 (Memref.isWhole_whole _) scM1_2 (Memref.isWhole_whole _)

/-- What the body is called with at point `t`, the windows one by one, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (ms1_0 a1 t) fullShare ((dat1 V a1 c).before 0 t d))
    ∗ (∃ d, owns (c : Thread nD τ) (ms1_1 a1 t) fullShare ((dat1 V a1 c).before 1 t d))
    ∗ (∃ d, owns (c : Thread nD τ) (ms1_2 a1 t) fullShare ((dat1 V a1 c).before 2 t d))
    ∗ (∃ d, owns (c : Thread nD τ) (ms1_3 a1 t) fullShare ((dat1 V a1 c).before 3 t d)))

/-- and what it returns. -/
def bodyPost1 (c : Dev nD) (t : Fin (cfg1 a1).N) : sProp 𝕄 :=
  iprop((dat1 V a1 c).Φ t.succ ∗ (dat1 V a1 c).owesAt () t.succ
    ∗ (dat1 V a1 c).leavesExact 0 t
    ∗ (dat1 V a1 c).leavesExact 1 t
    ∗ (dat1 V a1 c).leavesExact 2 t
    ∗ (dat1 V a1 c).leavesExact 3 t)

/-- An input window's buffer is left at its block. -/
theorem lv1_0 (c : Dev nD) (t : Fin (cfg1 a1).N) :
    (dat1 V a1 c).leavesExact 0 t = owns (c : Thread nD τ) (ms1_0 a1 t) fullShare (iblk1 V a1 c 0 t) := by
  rw [← after1_0 V a1 c t]; unfold Dat.leavesExact; rw [live1_0 a1 t]; rfl
theorem lv1_1 (c : Dev nD) (t : Fin (cfg1 a1).N) :
    (dat1 V a1 c).leavesExact 1 t = owns (c : Thread nD τ) (ms1_1 a1 t) fullShare (iblk1 V a1 c 1 t) := by
  rw [← after1_1 V a1 c t]; unfold Dat.leavesExact; rw [live1_1 a1 t]; rfl
theorem lv1_2 (c : Dev nD) (t : Fin (cfg1 a1).N) :
    (dat1 V a1 c).leavesExact 2 t = owns (c : Thread nD τ) (ms1_2 a1 t) fullShare (iblk1 V a1 c 2 t) := by
  rw [← after1_2 V a1 c t]; unfold Dat.leavesExact; rw [live1_2 a1 t]; rfl
/-- On the diagonal the output buffer is left at the weighted sum over the row sum of the state after the point. -/
theorem lv1_3_live (c : Dev nD) (t : Fin (cfg1 a1).N) (hd : k1_cond2 (tw0 a1 t) (tw1 a1 t) = 1#1) :
    (dat1 V a1 c).leavesExact 3 t = owns (c : Thread nD τ) (ms1_3 a1 t) fullShare (Scr.out (st1 V a1 c (t.val + 1))) := by
  rw [← after1_3 V a1 c t]; unfold Dat.leavesExact; rw [idle3_false a1 t hd]; rfl

/-- The state after a point, in each of the four cases of the two words read there. -/
theorem st1_next_A (c : Dev nD) (t : Fin (cfg1 a1).N) (hr : condReset (tw1 a1 t) = 1#1) (hd : k1_cond2 (tw0 a1 t) (tw1 a1 t) = 1#1) :
    st1 V a1 c (t.val + 1) = Scr.diag (tw0 a1 t) (tw1 a1 t) (iblk1 V a1 c 0 t) (iblk1 V a1 c 1 t) (iblk1 V a1 c 2 t) Scr.init := by
  rw [st1_succ, tw0N_eq, tw1N_eq, qN_eq, kN_eq, vN_eq]; exact step_A _ _ _ _ _ _ hr hd
theorem st1_next_B (c : Dev nD) (t : Fin (cfg1 a1).N) (hr : condReset (tw1 a1 t) = 1#1) (hd : ¬ k1_cond2 (tw0 a1 t) (tw1 a1 t) = 1#1)
    (hi : condInner (tw0 a1 t) (tw1 a1 t) = 1#1) :
    st1 V a1 c (t.val + 1) = Scr.inner (iblk1 V a1 c 0 t) (iblk1 V a1 c 1 t) (iblk1 V a1 c 2 t) (Scr.init : Scr F) := by
  rw [st1_succ, tw0N_eq, tw1N_eq, qN_eq, kN_eq, vN_eq]; exact step_B _ _ _ _ _ _ hr hd hi
theorem st1_next_C (c : Dev nD) (t : Fin (cfg1 a1).N) (hr : ¬ condReset (tw1 a1 t) = 1#1) (hd : k1_cond2 (tw0 a1 t) (tw1 a1 t) = 1#1) :
    st1 V a1 c (t.val + 1) = Scr.diag (tw0 a1 t) (tw1 a1 t) (iblk1 V a1 c 0 t) (iblk1 V a1 c 1 t) (iblk1 V a1 c 2 t) (st1 V a1 c t.val) := by
  rw [st1_succ, tw0N_eq, tw1N_eq, qN_eq, kN_eq, vN_eq]; exact step_C _ _ _ _ _ _ hr hd
theorem st1_next_D (c : Dev nD) (t : Fin (cfg1 a1).N) (hr : ¬ condReset (tw1 a1 t) = 1#1) (hd : ¬ k1_cond2 (tw0 a1 t) (tw1 a1 t) = 1#1)
    (hi : condInner (tw0 a1 t) (tw1 a1 t) = 1#1) :
    st1 V a1 c (t.val + 1) = Scr.inner (iblk1 V a1 c 0 t) (iblk1 V a1 c 1 t) (iblk1 V a1 c 2 t) (st1 V a1 c t.val) := by
  rw [st1_succ, tw0N_eq, tw1N_eq, qN_eq, kN_eq, vN_eq]; exact step_D _ _ _ _ _ _ hr hd hi

set_option maxHeartbeats 4000000 in
/-- The body at any point. -/
theorem sound_body1 (hT : Tab1 a1) (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  rewrite [lv1_0 V a1 c t, lv1_1 V a1 c t, lv1_2 V a1 c t]
  simp only [before1_0, before1_1, before1_2]
  rewrite [show (dat1 V a1 c).owesAt () t.succ = (dat1 V a1 c).owesAt () t.castSucc from rfl]
  rcases cls1 a1 hT t with ⟨hr, hd, hi⟩ | ⟨hr, hd, hi⟩ | ⟨hr, hd, hi⟩ | ⟨hr, hd, hi⟩
  · -- case A
    rewrite [lv1_3_live V a1 c t hd]
    rewrite [show (dat1 V a1 c).Φ t.succ = Phi1 V a1 c (t.val + 1) from rfl, Phi1_succ, st1_next_A V a1 c t hr hd]
    rewrite [show (dat1 V a1 c).Φ t.castSucc = Phi1 V a1 c t.val from rfl]
    by_cases hz : t.val = 0
    · rewrite [show Phi1 V a1 c t.val = iprop(Pipeline.ΦA spec1 c ∗ tabs1 a1 c) from by rw [hz]; rfl, tabs1_eq]
      iintro ⟨⟨HΦ, HT0, HT1⟩, Ho, ⟨%d0, H0⟩, ⟨%d1, H1⟩, ⟨%d2, H2⟩, ⟨%d3, H3⟩⟩
      ihave HΦ' := (PhiA1_open c) $$ HΦ
      icases HΦ' with ⟨Hrest, HS0, HS1, HS2, Hg⟩
      iapply (runA c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) hr hd hi Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runA c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) hr hd hi Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
  · -- case B
    rewrite [Dat.leavesExact_idle (dat1 V a1 c) 3 t (idle3_true a1 t hd) (noFlush3 a1 hT t hd)]
    rewrite [show (dat1 V a1 c).Φ t.succ = Phi1 V a1 c (t.val + 1) from rfl, Phi1_succ, st1_next_B V a1 c t hr hd hi]
    rewrite [show (dat1 V a1 c).Φ t.castSucc = Phi1 V a1 c t.val from rfl]
    by_cases hz : t.val = 0
    · rewrite [show Phi1 V a1 c t.val = iprop(Pipeline.ΦA spec1 c ∗ tabs1 a1 c) from by rw [hz]; rfl, tabs1_eq]
      iintro ⟨⟨HΦ, HT0, HT1⟩, Ho, ⟨%d0, H0⟩, ⟨%d1, H1⟩, ⟨%d2, H2⟩, ⟨%d3, H3⟩⟩
      ihave HΦ' := (PhiA1_open c) $$ HΦ
      icases HΦ' with ⟨Hrest, HS0, HS1, HS2, Hg⟩
      iapply (runB c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ hr hd hi Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runB c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ hr hd hi Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3
  · -- case C
    rewrite [lv1_3_live V a1 c t hd]
    rewrite [show (dat1 V a1 c).Φ t.succ = Phi1 V a1 c (t.val + 1) from rfl, Phi1_succ, st1_next_C V a1 c t hr hd]
    rewrite [show (dat1 V a1 c).Φ t.castSucc = Phi1 V a1 c t.val from rfl]
    have hz : t.val ≠ 0 := fun hz => hr (reset_first a1 hT t hz)
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runC c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) (st1 V a1 c t.val) hr hd hi Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
  · -- case D
    rewrite [Dat.leavesExact_idle (dat1 V a1 c) 3 t (idle3_true a1 t hd) (noFlush3 a1 hT t hd)]
    rewrite [show (dat1 V a1 c).Φ t.succ = Phi1 V a1 c (t.val + 1) from rfl, Phi1_succ, st1_next_D V a1 c t hr hd hi]
    rewrite [show (dat1 V a1 c).Φ t.castSucc = Phi1 V a1 c t.val from rfl]
    have hz : t.val ≠ 0 := fun hz => hr (reset_first a1 hT t hz)
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runD c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ (st1 V a1 c t.val) hr hd hi Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3

/-- THE BODY OBLIGATION of the attention pipeline on core `c`, under the hypothesis on the tables. -/
theorem body_obligation1 (hT : Tab1 a1) (c : Dev nD) :
    BodyObligation (dat1 (F := F) V a1 c) (defs₀ (F := F)) Variants.none () Set.univ := fun t => by
  rw [bigSep_W1, bigSep_W1]
  exact sound_body1 V a1 hT c t

end Cert.KernelIdeal.Hand

end
-- ==== Proof.TableAdm.lean ====
/-
  The attention region's two prefetched tables at the contents the host prefix writes into them — the
  query-block and key-block numbers of the ten tiles of the lower-triangular schedule — are admissible contents
  of the region's pipeline: every block a table word selects lies inside its array (a word is at most three,
  and the arrays have four row blocks) and moves whole words. The word a grid point reads is the list's entry
  at the point's second coordinate, which over the forty points is the point's number modulo ten.
-/
import Mathlib.Tactic.IntervalCases
import proofs.«155321_j4011499454905_2_alg».proof.Proof.Reg1Data
import proofs.«155321_j4011499454905_2_alg».proof.Proof.Gen.KernelIdeal.Regions
import proofs.«155321_j4011499454905_2_alg».proof.Proof.TableWords
import Idealize.ShloMosaic.Lib.StableHlo.Run
import Idealize.ShloMosaic.Lib.Affine

noncomputable section

namespace Cert.KernelIdeal.Hand

open Idealize.ShloMosaic Idealize.ShloMosaic.TcCoe
open Idealize.SL Idealize.SL.RA Idealize.SL.BI
open Idealize.SL.Sem
open Cert.KernelIdeal Cert.KernelIdeal.Gen

variable {F : FTy → Type} [FloatOps F] [Named F]

/-- The two tables at their literal contents. -/
def tblC : pre1.Contents (Elt F) := fun
  | ⟨0, _⟩ => ((fun i => lit0 (S10.rowMajor i)) : S10.Idx → BitVec 32)
  | ⟨1, _⟩ => ((fun i => lit1 (S10.rowMajor i)) : S10.Idx → BitVec 32)
  | ⟨_ + 2, h⟩ => absurd h (Nat.not_lt.2 (Nat.le_add_left _ _))

/-! ## The word a tile reads -/

theorem tblC_at0_aux (x1 : ℕ) (hx : x1 < 10)
    (hin : ∀ a, (![(Scalar.indexCast (BitVec.ofNat 32 x1)).toNat] : Fin 1 → ℕ) a + S1.size a ≤ S10.size a) (h1 : S1.numel = 1) :
    (tblC (F := F)).at 0 (Rect.unit (s := S10) ![(Scalar.indexCast (BitVec.ofNat 32 x1)).toNat] S1.size hin) h1 = qiW x1 := by
  interval_cases x1 <;> rfl

theorem tblC_at1_aux (x1 : ℕ) (hx : x1 < 10)
    (hin : ∀ a, (![(Scalar.indexCast (BitVec.ofNat 32 x1)).toNat] : Fin 1 → ℕ) a + S1.size a ≤ S10.size a) (h1 : S1.numel = 1) :
    (tblC (F := F)).at 1 (Rect.unit (s := S10) ![(Scalar.indexCast (BitVec.ofNat 32 x1)).toNat] S1.size hin) h1 = kiW x1 := by
  interval_cases x1 <;> rfl

/-- The first table's word at tile coordinate `i 1` is that tile's query-block number, -/
theorem tblC_at0 (i : grid1.Coords) :
    (tblC (F := F)).at 0 (Rect.unit (s := S10) (k1_off1 i) S1.size (Facts₀.k1_off1_inb i)) Facts₀.numel1_S1 = qiW (i 1).val :=
  tblC_at0_aux (i 1).val (i 1).isLt _ _

/-- and the second table's is its key-block number. -/
theorem tblC_at1 (i : grid1.Coords) :
    (tblC (F := F)).at 1 (Rect.unit (s := S10) (k1_off1 i) S1.size (Facts₀.k1_off1_inb i)) Facts₀.numel1_S1 = kiW (i 1).val :=
  tblC_at1_aux (i 1).val (i 1).isLt _ _

/-! ## Every block a table word selects lies inside its array -/

/-- A block index made of a batch coordinate below four, a word at most three and a zero is inside the
    4×4096×128 arrays in 1×1024×128 blocks. -/
theorem blk_inb (x0 : ℕ) (hx0 : x0 < 4) (v : BitVec 32) (hv : v.toNat ≤ 3) :
    ∀ a : Fin 3, ((![(BitVec.ofNat 32 x0).toNat, v.toNat, (0#32).toNat] : Fin 3 → ℕ) a + 1) * S1x1024x128.size a ≤ S4x4096x128.size a := by
  intro a
  fin_cases a
  · show ((BitVec.ofNat 32 x0).toNat + 1) * 1 ≤ 4
    rw [BitVec.toNat_ofNat, Nat.mod_eq_of_lt (by omega)]; omega
  · show (v.toNat + 1) * 1024 ≤ 4096
    omega
  · show ((0#32).toNat + 1) * 128 ≤ 128
    decide

theorem inb1_0 (i : grid1.Coords) : ∀ a, (cc1_transform_0 Facts₀.k1_off1_inb Facts₀.numel1_S1 (tblC (F := F)) i a + 1) * S1x1024x128.size a ≤ S4x4096x128.size a := by
  have h := blk_inb (i 0).val (i 0).isLt _ (qiW_le (i 1).val)
  rw [← tblC_at0 (F := F) i] at h
  exact h

theorem inb1_1 (i : grid1.Coords) : ∀ a, (cc1_transform_1 Facts₀.k1_off1_inb Facts₀.numel1_S1 (tblC (F := F)) i a + 1) * S1x1024x128.size a ≤ S4x4096x128.size a := by
  have h := blk_inb (i 0).val (i 0).isLt _ (kiW_le (i 1).val)
  rw [← tblC_at1 (F := F) i] at h
  exact h

theorem inb1_2 (i : grid1.Coords) : ∀ a, (cc1_transform_2 Facts₀.k1_off1_inb Facts₀.numel1_S1 (tblC (F := F)) i a + 1) * S1x1024x128.size a ≤ S4x4096x128.size a := by
  have h := blk_inb (i 0).val (i 0).isLt _ (kiW_le (i 1).val)
  rw [← tblC_at1 (F := F) i] at h
  exact h

theorem inb1_3 (i : grid1.Coords) : ∀ a, (cc1_transform_3 Facts₀.k1_off1_inb Facts₀.numel1_S1 (tblC (F := F)) i a + 1) * S1x1024x128.size a ≤ S4x4096x128.size a := by
  have h := blk_inb (i 0).val (i 0).isLt _ (qiW_le (i 1).val)
  rw [← tblC_at0 (F := F) i] at h
  exact h

/-- The literal tables satisfy the pipeline's side condition: the blocks are inside their arrays, and a block of
    1024 rows of 128 sixteen-bit elements is whole words (the output's elements are words themselves). -/
theorem ok_tblC : ok1 (F := F) tblC := by
  unfold ok1
  exact ⟨fun i => ⟨inb1_0 i, .inr (Affine.block_words_dvd (of_decide_eq_true rfl) (by decide))⟩,
    fun i => ⟨inb1_1 i, .inr (Affine.block_words_dvd (of_decide_eq_true rfl) (by decide))⟩,
    fun i => ⟨inb1_2 i, .inr (Affine.block_words_dvd (of_decide_eq_true rfl) (by decide))⟩,
    fun i => ⟨inb1_3 i, .inl rfl⟩⟩

/-- The literal tables as admissible contents of the attention pipeline. -/
def a1C : (pcfg1 (F := F)).Adm := ⟨tblC, ok_tblC⟩

/-! ## The words over the forty grid points -/

/-- The second coordinate of grid point `t` is `t` modulo ten. -/
theorem coords1_snd : ∀ t : Fin grid1.N, ((grid1.coords t) 1).val = t.val % 10 := by decide +kernel

/-- The two table words point `t` reads are the query-block and key-block numbers of tile `t` modulo ten. -/
theorem htab_a1C (t : Fin (cfg1 (a1C (F := F))).N) : tw0 a1C t = qiW (t.val % 10) ∧ tw1 a1C t = kiW (t.val % 10) := by
  rw [← coords1_snd t]
  exact ⟨tblC_at0 (grid1.coords t), tblC_at1 (grid1.coords t)⟩

/-! ## The host prefix writes these contents -/

variable (m : (ℓ : Loc nD τ sig) → Buf (Elt F) ℓ)

/-- After the host operations that precede the regions, each table's buffer holds its literal list: the first
    two operations write them and the later ones write elsewhere. -/
theorem V1_tables (c : Dev nD) (k : Fin pre1.K) : (Gen.V1 m c (pre1.ref k) : (pre1.ref k).ty.Contents (Elt F)) = tblC k := by
  match k with
  | ⟨0, _⟩ =>
    show (Gen.V1 m c main_c : S10.Idx → BitVec 32) = fun i => lit0 (S10.rowMajor i)
    dsimp only [Gen.V1, Gen.hostOps0]; after_results; rfl
  | ⟨1, _⟩ =>
    show (Gen.V1 m c main_c_0 : S10.Idx → BitVec 32) = fun i => lit1 (S10.rowMajor i)
    dsimp only [Gen.V1, Gen.hostOps0]; after_results; rfl
  | ⟨_ + 2, h⟩ => exact absurd h (Nat.not_lt.2 (Nat.le_add_left _ _))

end Cert.KernelIdeal.Hand

end
-- ==== Proof.KernelRun.lean ====
/-
  The run of @main with the attention region's proof data put in: the tables at their literal contents, the
  region entered with what the projection region leaves. What the run's post says is then read back: each
  argument array ends as launched — no host operation writes one, the projection region only reads the input
  rows, the attention region reads none — and the result array ends at what the attention pipeline's
  write-backs leave.
-/
import proofs.«155321_j4011499454905_2_alg».proof.Proof.FrameRun
import proofs.«155321_j4011499454905_2_alg».proof.Proof.FrameReg0
import proofs.«155321_j4011499454905_2_alg».proof.Proof.FrameReg1
import proofs.«155321_j4011499454905_2_alg».proof.Proof.TableAdm

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- The attention region's proof data at the contents it is entered with and the literal tables. -/
abbrev datA (c : Dev nD) : Dat τ (Elt F) Unit ℕ (UR sig nD τ) ℕ (cfg1 (a1C (F := F))) c := dat1 (E2 m) a1C c

/-- The tables the attention region is entered with are the literal ones: the projection region does not
    touch them, and the host prefix wrote them. -/
theorem tables_at_entry (c : Dev nD) (k : Fin pre1.K) : E2 m c (pre1.ref k) = (a1C (F := F)).1 k :=
  (W2_of_ne m c (pre1.ref k) (by intro w; revert k; revert w; decide)).trans (V1_tables m c k)

/-- THE RUN, with everything put in. -/
theorem run_kernel : θ_run defs (onTc (τ := τ) (main (F := F))) ⟨m, fun _ => 0, ρ⟩ (fun r => ∀ c : Dev nD,
      ∀ b ∈ Pipeline.ucRefs τ sig, r.2.mem (((c : Thread nD τ)).1, b) = W3 m a1C (datA m) c b) :=
  run_all m ρ a1C (datA m) (fun c w => A_eq1 (E2 m) a1C c w) (fun _ _ => rfl) (fun _ _ => rfl)
    (fun c => body_obligation0 (E1 m) c) (fun c => body_obligation1 (E2 m) a1C htab_a1C c)
    (fun c => hin1 (E2 m) a1C c) (fun c => hout1 (E2 m) a1C c) (fun _ _ => rfl) (tables_at_entry m)

/-! ## Reading the post -/

theorem kept_arg0 (c : Dev nD) : W3 m a1C (datA m) c (Proc.devRef .tc main_arg0) = m ((c : Thread nD τ).loc main_arg0) :=
  calc W3 m a1C (datA m) c (Proc.devRef .tc main_arg0)
    _ = W2 m c (Proc.devRef .tc main_arg0) := W3_of_ne m a1C (datA m) c main_arg0 (by decide)
    _ = Gen.V1 m c (Proc.devRef .tc main_arg0) := (W2_arr m c 0).trans (((dat0 (E1 m) c).arrAt_in 0 rfl _).trans (A_eq0 (E1 m) c 0))
    _ = m ((c : Thread nD τ).loc main_arg0) := (Gen.V1_of m c main_arg0 (by decide)).trans rfl
theorem kept_arg1 (c : Dev nD) : W3 m a1C (datA m) c (Proc.devRef .tc main_arg1) = m ((c : Thread nD τ).loc main_arg1) :=
  calc W3 m a1C (datA m) c (Proc.devRef .tc main_arg1)
    _ = W2 m c (Proc.devRef .tc main_arg1) := W3_of_ne m a1C (datA m) c main_arg1 (by decide)
    _ = Gen.V1 m c (Proc.devRef .tc main_arg1) := W2_of_ne m c main_arg1 (by decide)
    _ = m ((c : Thread nD τ).loc main_arg1) := (Gen.V1_of m c main_arg1 (by decide)).trans rfl
theorem kept_arg2 (c : Dev nD) : W3 m a1C (datA m) c (Proc.devRef .tc main_arg2) = m ((c : Thread nD τ).loc main_arg2) :=
  calc W3 m a1C (datA m) c (Proc.devRef .tc main_arg2)
    _ = W2 m c (Proc.devRef .tc main_arg2) := W3_of_ne m a1C (datA m) c main_arg2 (by decide)
    _ = Gen.V1 m c (Proc.devRef .tc main_arg2) := W2_of_ne m c main_arg2 (by decide)
    _ = m ((c : Thread nD τ).loc main_arg2) := (Gen.V1_of m c main_arg2 (by decide)).trans rfl
theorem kept_arg3 (c : Dev nD) : W3 m a1C (datA m) c (Proc.devRef .tc main_arg3) = m ((c : Thread nD τ).loc main_arg3) :=
  calc W3 m a1C (datA m) c (Proc.devRef .tc main_arg3)
    _ = W2 m c (Proc.devRef .tc main_arg3) := W3_of_ne m a1C (datA m) c main_arg3 (by decide)
    _ = Gen.V1 m c (Proc.devRef .tc main_arg3) := W2_of_ne m c main_arg3 (by decide)
    _ = m ((c : Thread nD τ).loc main_arg3) := (Gen.V1_of m c main_arg3 (by decide)).trans rfl

/-- The result array ends at what the attention pipeline's write-backs leave. -/
theorem result_arr (c : Dev nD) : W3 m a1C (datA m) c (Proc.devRef .tc main_v3) = (datA m c).arrAt 3 (cfg1 (a1C (F := F))).N :=
  W3_arr m a1C (datA m) c 3

/-- The frame and the result in one statement: every weakly fair execution terminates, nothing faulting, with
    the result array at the pipeline's final contents and the four arguments as launched. -/
theorem run_result : θ_run defs (onTc (τ := τ) (main (F := F))) ⟨m, fun _ => 0, ρ⟩ (fun r => ∀ c : Dev nD,
      r.2.mem ((c.tc : Thread nD τ).loc main_v3) = (datA m c).arrAt 3 (cfg1 (a1C (F := F))).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (result_arr m c),
     (h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c)⟩) (run_kernel m ρ)

end Cert.KernelIdeal.Hand

end
-- ==== Proof.Reg0DataBits.lean ====
/-
  The projection region (the first pallas_call) as data, at the buffer contents `V` the region is entered
  with: the block of each window at a grid point, what the body leaves in each of its three output buffers —
  the one store of a 128-column slice of the block product — and the pipeline's proof data: inputs left as
  fetched, outputs at those stores, nothing carried between points, nothing owed.
-/
import proofs.«155321_j4011499454905_2_alg».proof.Proof.Gen.Kernel.Launch
import proofs.«155321_j4011499454905_2_alg».proof.Proof.Gen.Kernel.Skeleton
import proofs.«155321_j4011499454905_2_alg».proof.Proof.Gen.Kernel.Points
import Idealize.ShloMosaic.Lib.Pipeline.FrameBody
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole input block, the whole weight block, a whole output block. -/
abbrev rX0 : Rect S1x1024x1024 := Rect.unit (s := S1x1024x1024) ![0, 0, 0] S1x1024x1024.size Facts₀.inb_S1x1024x1024_S1x1024x1024_0_0_0
abbrev rW0 : Rect S1024x384 := Rect.unit (s := S1024x384) ![0, 0] S1024x384.size Facts₀.inb_S1024x384_S1024x384_0_0
abbrev rO0 : Rect S1x1024x128 := Rect.unit (s := S1x1024x128) ![0, 0, 0] S1x1024x128.size Facts₀.inb_S1x1024x128_S1x1024x128_0_0_0

/-- What the body leaves in the query, key and value output buffers: columns 0–127, 128–255, 256–383 of the
    block product, stored whole. -/
def out0_2 (x0 : Vec F S1x1024x1024 .f32) (x1 : Vec F S1024x384 .bf16) : Vec F S1x1024x128 .bf16 :=
  View.canon [⟨rO0, k0_pay2 (View.ld x0 rX0) (View.ld x1 rW0)⟩]
def out0_3 (x0 : Vec F S1x1024x1024 .f32) (x1 : Vec F S1024x384 .bf16) : Vec F S1x1024x128 .bf16 :=
  View.canon [⟨rO0, k0_pay3 (View.ld x0 rX0) (View.ld x1 rW0)⟩]
def out0_4 (x0 : Vec F S1x1024x1024 .f32) (x1 : Vec F S1024x384 .bf16) : Vec F S1x1024x128 .bf16 :=
  View.canon [⟨rO0, k0_pay4 (View.ld x0 rX0) (View.ld x1 rW0)⟩]

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

end Cert.Kernel.Hand

end
-- ==== Proof.FrameRunBits.lean ====
/-
  The whole run of @main at any float instance: the host prefix (the two literal tables, the joined and
  narrowed weights), the projection region, the attention region. Between two items every buffer that
  outlives a region is held at named contents: the launch memory, then the host prefix's results, then the
  projection region's three arrays at what its write-backs leave, then the attention region's array likewise.
  Each region is entered by splitting its windows' arrays (and, for the attention region, its two tables)
  out of those buffers and left by putting them back; the attention region's three carried buffers and its
  tables travel inside its own invariant. The run's post names every such buffer's final contents, so the
  result array and the unchanged arguments are both read off it.
  The attention region's proof data enter as parameters (`dat1` and the facts about it), so that this
  module does not depend on how they are proved.
-/
import proofs.«155321_j4011499454905_2_alg».proof.Proof.Reg0DataBits
import proofs.«155321_j4011499454905_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the first two boundaries -/

/-- Core `c`'s buffers after the host prefix, read at the TensorCore's references: what the projection
    region is entered with. -/
abbrev E1 : (c : Dev nD) → (b : Ref sig .tc) → Buf (Elt F) ((c : Thread nD τ).loc b) := fun c b => Gen.V1 m c b

/-- After the projection region: its arrays at what the pipeline leaves, every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- What the attention region is entered with. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

section Run

/-! ## The attention region's proof data, as parameters -/

variable (a1 : (pcfg1 (F := F)).Adm)
variable (dat1 : (c : Dev nD) → Dat τ (Elt F) Unit ℕ (UR sig nD τ) ℕ (cfg1 a1) c)
variable (hA1 : ∀ c w, (dat1 c).A w = E2 m c (Pipeline.arrRef spec1 w))
variable (hq1 : ∀ c w, (dat1 c).q w = fullShare)
variable (howed1 : ∀ c t, (dat1 c).owed t = 0)
variable (hbody0 : ∀ c, BodyObligation (dat0 (F := F) (E1 m) c) (defs₀ (F := F)) Variants.none () Set.univ)
variable (hbody1 : ∀ c, BodyObligation (dat1 c) (defs₀ (F := F)) Variants.none () Set.univ)
/-- What the attention region's invariant is entered from and must give back: the class's scoped rest with the
    generator register, and the two tables whole. -/
abbrev PhiEnds (c : Dev nD) : sProp 𝕄 :=
  iprop(Pipeline.ΦA spec1 c ∗ Pipeline.prefHeld pre1 c (fun _ => fullShare) a1.1)
variable (hin1 : ∀ c, PhiEnds a1 c ⊢ (dat1 c).Φ (0 : Fin ((cfg1 a1).N + 1)))
variable (hout1 : ∀ c, (dat1 c).Φ (Fin.last (cfg1 a1).N) ⊢ PhiEnds a1 c)
-- the tables the attention region is entered with are the admissible contents it is pinned at
variable (hrec1 : ∀ c t, (dat1 c).recorded t = Set.univ)
variable (hpf : ∀ c k, E2 m c (pre1.ref k) = a1.1 k)

/-- After the attention region. -/
def W3 (c : Dev nD) : Valuation τ sig (Elt F) :=
  Pipeline.withArrays spec1 c (W2 m c) fun w => (dat1 c).arrAt w (cfg1 a1).N
theorem W3_arr (c : Dev nD) (w : Fin (cfg1 a1).W) :
    W3 m a1 dat1 c (Proc.devRef .tc (Pipeline.arrRef spec1 w)) = (dat1 c).arrAt w (cfg1 a1).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m a1 dat1 c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m a1 dat1 c b
theorem hF1 (c : Dev nD) (w : Fin (cfg1 a1).W) : (dat1 c).arrAt w (cfg1 a1).N = E3 m a1 dat1 c (Pipeline.arrRef spec1 w) :=
  (W3_arr m a1 dat1 c w).symm
theorem hrest1 (c : Dev nD) : ∀ b, b ∉ Finset.univ.image (Pipeline.arrRef spec1) → E3 m a1 dat1 c b = E2 m c b :=
  fun b hb => W3_of_ne m a1 dat1 c b fun w e => hb (Finset.mem_image.mpr ⟨w, Finset.mem_univ _, e⟩)

/-! ## The proof data family and the thread state -/

/-- The tables' admissible contents per pipeline: none for the projection, `a1` for the attention. -/
def adm : (p : Fin 2) → (pcfgs (F := F) p).Adm
  | ⟨0, _⟩ => (cfg0).toPCfg_adm
  | ⟨1, _⟩ => a1

/-- Every pipeline's proof data, each at its region's entry contents. -/
def pdats : (p : Fin 2) → (c : Dev nD) → Dat τ (Elt F) Unit ℕ (UR sig nD τ) ℕ (Pipeline.pin (pcfgs (F := F)) (adm a1) p) c
  | ⟨0, _⟩ => fun c => dat0 (E1 m) c
  | ⟨1, _⟩ => fun c => dat1 c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) R

abbrev Tₙ (c : Dev nD) : sProp 𝕄 := iprop(StableHlo.held (c : Thread nD τ) (Pipeline.ucRefs τ sig) (W3 m a1 dat1 c) ∗ ∃ r, prngReg c r)

/-! ## The regions as segments -/

set_option backward.isDefEq.respectTransparency.types false in
/-- The projection region over the thread state. -/
def reg0 : Pipeline.RegionSeg (pcfgs (F := F)) (adm a1) (pdats m a1 dat1) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm a1) (pdats m a1 dat1) (launch0 (F := F)).win (launch0 (F := F)).arr_whole c
      ((pdats m a1 dat1 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 dat1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 dat1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 dat1) ((pdats m a1 dat1 0 c).share_full fun _ => rfl)
      (E1 m c) (E2 m c) ((pdats m a1 dat1 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: beside its arrays, its two tables are split out of the
    buffers at entry, held whole inside the region's invariant, and put back at exit. -/
def reg1 : Pipeline.RegionSeg (pcfgs (F := F)) (adm a1) (pdats m a1 dat1) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hbody1 c).loose
  hwaits := Pipeline.hwaits_of_owed_zero _ _ _ _ L lv 1 fun c t => howed1 c t
  pre c := iprop(StableHlo.held (c : Thread nD τ) (Pipeline.ucRefs τ sig) (W2 m c) ∗ R c)
  post c := iprop(Tₙ m a1 dat1 c ∗ ∃ W, owes (c : Thread nD τ) (0 : CellTallies nD τ sig Unit) W)
  X c := iprop(∃ r, prngReg c r)
  Y c := iprop((∃ r, prngReg c r) ∗ Pipeline.prefHeld pre1 c (fun _ => fullShare) a1.1)
  Z c := Pipeline.unscopedRestP (Ix := Unit) (Name := ℕ) (U := UR sig nD τ) (Lvl := ℕ) pre1 spec1 c (E2 m c)
  hentry c := by
    rw [Pipeline.ownSems0_none]
    have hsplit := Pipeline.arrays_of_unscopedBufs (p := 1) (pcfgs (F := F)) (adm a1) (pdats m a1 dat1) (launch1 (F := F)).win (launch1 (F := F)).arr_whole c
      ((pdats m a1 dat1 1 c).share_full fun w => hq1 c w) (E2 m c) fun w => hA1 c w
    rw [Pipeline.unscopedBufs_held, Pipeline.unscopedRest_split (launch1 (F := F)).pre c (E2 m c),
      show (fun k => E2 m c ((pcfgs (F := F) 1).pre.ref k)) = a1.1 from funext fun k => hpf c k] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr
      · ipureintro; exact fun _ _ => Or.inl (by rw [show (pdats m a1 dat1 1 c).recorded 0 = Set.univ from hrec1 c 0]; trivial)
      rw [show (pdats m a1 dat1 1 c).owed 0 = 0 from howed1 c 0]
      iexact HO
    isplitl [Hp]; · iexact Hp
    iexact Hrest
  hin c := by
    refine (?_ : _ ⊢ PhiEnds a1 c).trans (hin1 c)
    unfold PhiEnds Pipeline.ΦA
    iintro ⟨Hp, Ht, Hr⟩
    isplitr [Ht]
    · isplitl [Hr] <;> iassumption
    · iexact Ht
  hout c := by
    refine (hout1 c).trans ?_
    rw [Pipeline.ownSems0_none]; unfold PhiEnds Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm a1) (Ix := Unit) (Name := ℕ) (U := UR sig nD τ) (Lvl := ℕ)
      (launch1 (F := F)).win (launch1 (F := F)).arr_whole c (pdats m a1 dat1) ((pdats m a1 dat1 1 c).share_full fun w => hq1 c w)
      (E2 m c) (E3 m a1 dat1 c) ((pdats m a1 dat1 1 c).arrAt · (cfg1 a1).N) (hF1 m a1 dat1 c) (hrest1 m a1 dat1 c)
    rw [Pipeline.unscopedBufs_held, Pipeline.unscopedRest_split (launch1 (F := F)).pre c (E2 m c),
      show (fun k => E2 m c ((pcfgs (F := F) 1).pre.ref k)) = a1.1 from funext fun k => hpf c k] at hjoin
    iintro ⟨Ha, HO, ⟨HY, Ht⟩, Hrest⟩
    imodintro
    isplitl [Ha Hrest HY Ht]
    · isplitl [Ha Hrest Ht]
      · iapply hjoin; isplitl [Ha]; · iexact Ha
        isplitl [Ht]; · iexact Ht
        iexact Hrest
      iexact HY
    unfold Pipeline.Dat.owesAt Pipeline.owesWithin
    icases HO with ⟨%W, -, HO⟩; iexists W
    rw [show (pdats m a1 dat1 1 c).owed (Fin.last _) = 0 from howed1 c _]
    iexact HO

/-! ## @main as segments, and the launch -/

abbrev segs : List (Pipeline.Seg (pcfgs (F := F)) (adm a1) (pdats m a1 dat1) () defs₀ 𝒱₀ L lv) :=
  [ .host (hseg0 m),
    .region (reg0 m a1 dat1 hbody0),
    .region (reg1 m a1 dat1 hA1 hq1 howed1 hbody1 hin1 hout1 hrec1 hpf) ]

theorem main_run (c : Dev nD) : main (F := F) c = Pipeline.Seg.run (segs m a1 dat1 hA1 hq1 howed1 hbody0 hbody1 hin1 hout1 hrec1 hpf) :=
  (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hA1 hq1 howed1 hbody0 hbody1 hin1 hout1 hrec1 hpf in
set_option backward.isDefEq.respectTransparency.types false in
/-- THE RUN: from any memory with zero counters every weakly fair execution of @main terminates, nothing
    faulting, and the final memory holds every buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m a1 dat1 c b) :=
  Pipeline.θ_run_regions_kit (pcfgs (F := F)) (adm a1) (pdats m a1 dat1) () (cellOf_inj (adm a1)) emb₁ defs₀ 𝒱₀ L lv m ρ main
    (segs m a1 dat1 hA1 hq1 howed1 hbody0 hbody1 hin1 hout1 hrec1 hpf)
    (fun c Q => by rw [main_run m a1 dat1 hA1 hq1 howed1 hbody0 hbody1 hin1 hout1 hrec1 hpf c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a1)) (cellOf_inj (adm a1))) (Pipeline.launchToks (Pipeline.pin (pcfgs (F := F)) (adm a1)) (cellOf_inj (adm a1))))
    (hu₀ := by
      iintro Hu; imodintro
      isplitl [Hu]
      · iapply (show (ownU (initOf (Pipeline.cells (Pipeline.pin (pcfgs (F := F)) (adm a1)) (cellOf_inj (adm a1))) (Pipeline.launchToks (Pipeline.pin (pcfgs (F := F)) (adm a1)) (cellOf_inj (adm a1)))) : sProp 𝕄)
            ⊢ BI.own (emb₁ (initOf (Pipeline.cells (Pipeline.pin (pcfgs (F := F)) (adm a1)) (cellOf_inj (adm a1))) (Pipeline.launchToks (Pipeline.pin (pcfgs (F := F)) (adm a1)) (cellOf_inj (adm a1))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m a1 dat1)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m a1 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m a1 dat1 c) s')
      isplitl [Hh] <;> iassumption)
    (hQ := fun s h c => h c)

end Run

end Cert.Kernel.Hand

end
-- ==== Proof.FrameReg0Bits.lean ====
/-
  The projection region's body at every grid point. The body reads its two input staging buffers whole — the
  activation block and the concatenated weights —, forms one block product, and writes its three 128-column
  slices whole over the three output staging buffers (each of which it reads once beforehand without using what
  it read). So the inputs are left as found and each output holds exactly one whole-buffer store; an input
  buffer holds its window's block at a point whether the pipeline fetched it there or kept it from before.
-/
import proofs.«155321_j4011499454905_2_alg».proof.Proof.Reg0DataBits
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- The activation window's buffer holds its block at every point, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's buffer holds the weights at every point: fetched at the first point, and never moved
    after it, since its block index is constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## One whole-buffer store covers an output buffer -/

theorem cover0 (p0 : Vec F S1x1024x128 .bf16) (y : S1x1024x128.Idx) :
    ∃ pc ∈ ([⟨rO0, p0⟩] : List (View.Piece (Elt F) S1x1024x128 .bf16)), y ∈ pc.1.set :=
  View.cover_of_tiled [⟨rO0, p0⟩] S1x1024x128.size (by rfl) y

/-! ## The body's triple -/

set_option maxHeartbeats 1000000 in
/-- The body on whole staging memrefs — the inputs' reading `x0`, `x1`, the outputs' holding anything — runs to
    the inputs' unchanged and each output's holding its slice of the product of `x0` and `x1`. -/
theorem sound_kernel0 (c : Dev nD) (E : Set ℕ) (i : grid0.Coords)
    (arg2 : Memref sig .tc .vmem S1x1024x1024 .f32) (harg2 : arg2.IsWhole)
    (arg3 : Memref sig .tc .vmem S1024x384 .bf16) (harg3 : arg3.IsWhole)
    (arg4 : Memref sig .tc .vmem S1x1024x128 .bf16) (harg4 : arg4.IsWhole)
    (arg5 : Memref sig .tc .vmem S1x1024x128 .bf16) (harg5 : arg5.IsWhole)
    (arg6 : Memref sig .tc .vmem S1x1024x128 .bf16) (harg6 : arg6.IsWhole)
    (x0 : Vec F S1x1024x1024 .f32) (x1 : Vec F S1024x384 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The body obligation, at a generic point -/

/-- What the body is called with at point `t`: the invariant, what the core owes, and each window's current
    staging buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnStepBits.lean ====
/-
  The attention kernel's three carried buffers — the running row maximum, the running row sum of
  exponentials and the running weighted sum of value rows — as ONE state, and what one grid point does to it,
  written over the kernel's own payload terms: a point whose key-block word is zero first resets the state,
  a diagonal point (key block = query block) applies the masked update, a point below the diagonal the
  unmasked update, and the block written back at a diagonal point is the weighted sum divided by the row sum.
  Generic in the float instance; no memory, no separation logic.
-/
import proofs.«155321_j4011499454905_2_alg».proof.Proof.Gen.Kernel.Skeleton

noncomputable section

namespace Cert.Kernel.Hand

open Idealize.ShloMosaic Idealize.SL.Sem Cert.Kernel Cert.Kernel.Gen

variable {F : FTy → Type} [FloatOps F]

/-- The three carried buffers: row maximum `m`, row sum `l`, weighted value sum `acc`. -/
structure Scr (F : FTy → Type) [FloatOps F] where
  m : Vec F S1024x1 .f32
  l : Vec F S1024x1 .f32
  acc : Vec F S1024x128 .f32

/-- The reset: the maximum at the named lower bound, both sums at zero. -/
def Scr.init : Scr F := ⟨k1_pay1 (F := F), k1_pay2 (F := F), k1_pay3 (F := F)⟩

/-- The key-block word is zero: the state is reset first. -/
def condReset (v3 : BitVec 32) : BitVec 1 := Scalar.cmpi .ne (Scalar.extui (Scalar.cmpi .eq v3 0#32)) 0#32
/-- The key block lies strictly below the query block. -/
def condInner (v1 v3 : BitVec 32) : BitVec 1 := Scalar.cmpi .ne (Scalar.extui (Scalar.cmpi .slt v3 v1)) 0#32

/-- The masked update of a diagonal point, from the query, key and value blocks `q`, `k`, `v`. -/
def Scr.diag (v1 v3 : Elt F .i32) (q k v : Vec F S1x1024x128 .bf16) (s : Scr F) : Scr F :=
  ⟨k1_pay5 (k1_pay11 v1 v3 q k s.m), k1_pay14 v1 v3 q k s.m s.l,
   k1_pay4 (k1_pay9 v) (k1_pay12 v1 v3 q k s.m) (k1_pay13 v1 v3 q k s.m) s.acc⟩

/-- The unmasked update of a point below the diagonal. -/
def Scr.inner (q k v : Vec F S1x1024x128 .bf16) (s : Scr F) : Scr F :=
  ⟨k1_pay8 (k1_pay16 q k s.m), k1_pay19 q k s.m s.l, k1_pay7 (k1_pay20 q k v s.m s.acc)⟩

/-- The block a diagonal point writes back: the weighted sum over the row sum. -/
def Scr.out (s : Scr F) : Vec F S1x1024x128 .f32 := k1_pay6 s.acc s.l

/-- One grid point: reset if the key-block word `v3` is zero, then the diagonal update if `v3 = v1`, the
    inner update if `v3 < v1`, nothing otherwise. -/
def Scr.step (v1 v3 : Elt F .i32) (q k v : Vec F S1x1024x128 .bf16) (s : Scr F) : Scr F :=
  let s0 : Scr F := if condReset v3 = 1#1 then Scr.init else s
  if k1_cond2 v1 v3 = 1#1 then s0.diag v1 v3 q k v
  else if condInner v1 v3 = 1#1 then s0.inner q k v
  else s0

/-- The state after the first `n` grid points, from the table words and the blocks at each point. -/
def scrAt (W0 W1 : ℕ → Elt F .i32) (Q K V : ℕ → Vec F S1x1024x128 .bf16) : ℕ → Scr F
  | 0 => Scr.init
  | n + 1 => Scr.step (W0 n) (W1 n) (Q n) (K n) (V n) (scrAt W0 W1 Q K V n)

end Cert.Kernel.Hand

end
-- ==== Proof.Reg1DataBits.lean ====
/-
  The attention region (the second pallas_call) as data, at the buffer contents `V` the region is entered with
  and at admissible contents `a1` of its two prefetched tables: the two table words a grid point reads, the
  block of each window at a point, the three carried buffers (row maximum, row sum, weighted value sum) after
  any number of points as one recursion over the points, the invariant between points, and the pipeline's
  proof data: the three inputs left as fetched, the output block at the weighted sum over the row sum of the
  state after the point, nothing owed.
-/
import proofs.«155321_j4011499454905_2_alg».proof.Proof.Gen.Kernel.Launch
import proofs.«155321_j4011499454905_2_alg».proof.Proof.Gen.Kernel.Skeleton
import proofs.«155321_j4011499454905_2_alg».proof.Proof.Gen.Kernel.Points
import proofs.«155321_j4011499454905_2_alg».proof.Proof.AttnStepBits
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- The word of the first table (the query-block table) a grid point reads: its element at the point's second
    coordinate. -/
def tw0 (t : Fin (cfg1 a1).N) : Elt F .i32 :=
  a1.1.at 0 (Rect.unit (s := S10) (k1_off1 (grid1.coords t)) S1.size (Facts₀.k1_off1_inb (grid1.coords t))) Facts₀.numel1_S1

/-- The word of the second table (the key-block table) a grid point reads. -/
def tw1 (t : Fin (cfg1 a1).N) : Elt F .i32 :=
  a1.1.at 1 (Rect.unit (s := S10) (k1_off1 (grid1.coords t)) S1.size (Facts₀.k1_off1_inb (grid1.coords t))) Facts₀.numel1_S1

/-- Window `w`'s block at point `t`, read off its array as the region finds it: for each window a function of
    the table word its index map reads. -/
def iblk1 (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

/-- The table words and the three input blocks by position, as total functions of the position (past the grid:
    a fixed value nothing reads). -/
def tw0N (n : ℕ) : Elt F .i32 := if h : n < (cfg1 a1).N then tw0 a1 ⟨n, h⟩ else 0#32
def tw1N (n : ℕ) : Elt F .i32 := if h : n < (cfg1 a1).N then tw1 a1 ⟨n, h⟩ else 0#32
def qN (c : Dev nD) (n : ℕ) : Vec F S1x1024x128 .bf16 :=
  if h : n < (cfg1 a1).N then iblk1 V a1 c 0 ⟨n, h⟩ else fun _ => (Elt.inhabited F _).default
def kN (c : Dev nD) (n : ℕ) : Vec F S1x1024x128 .bf16 :=
  if h : n < (cfg1 a1).N then iblk1 V a1 c 1 ⟨n, h⟩ else fun _ => (Elt.inhabited F _).default
def vN (c : Dev nD) (n : ℕ) : Vec F S1x1024x128 .bf16 :=
  if h : n < (cfg1 a1).N then iblk1 V a1 c 2 ⟨n, h⟩ else fun _ => (Elt.inhabited F _).default

/-- THE CARRIED STATE after the first `n` grid points: the reset state stepped through the points in order. -/
def st1 (c : Dev nD) (n : ℕ) : Scr F :=
  scrAt (tw0N a1) (tw1N a1) (qN V a1 c) (kN V a1 c) (vN V a1 c) n

/-- The three scratch operands as memrefs: whole scoped buffers of the kernel's own. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2

/-- The core's scoped buffers that are neither a staging buffer of this region nor one of its three scratch
    operands (the first region's staging buffers), each whole at some contents. -/
def restNoScr1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The tables as the region holds them between points: both buffers whole, at the admissible contents. -/
abbrev tabs1 (c : Dev nD) : sProp 𝕄 :=
  Pipeline.prefHeld (Ix := Unit) (Name := ℕ) (U := UR sig nD τ) (Lvl := ℕ) pre1 c (fun _ => fullShare) a1.1

/-- The region invariant before position `n`: before the first point every scoped buffer that is no staging
    buffer at anything and the generator register at some state; afterwards the three carried buffers at the
    state the points so far leave, the other scoped buffers at anything, the generator register at some state;
    the tables whole throughout. -/
def Phi1 (c : Dev nD) : ℕ → sProp 𝕄
  | 0 => iprop(Pipeline.ΦA spec1 c ∗ tabs1 a1 c)
  | n + 1 => iprop((restNoScr1 c
      ∗ owns (c : Thread nD τ) scM1_0 fullShare (st1 V a1 c (n + 1)).m
      ∗ owns (c : Thread nD τ) scM1_1 fullShare (st1 V a1 c (n + 1)).l
      ∗ owns (c : Thread nD τ) scM1_2 fullShare (st1 V a1 c (n + 1)).acc
      ∗ (∃ r, prngReg c r)) ∗ tabs1 a1 c)

/-- The proof data of the attention pipeline on core `c`. -/
def dat1 (c : Dev nD) : Dat τ (Elt F) Unit ℕ (UR sig nD τ) ℕ (cfg1 a1) c where
  A w := V c (Pipeline.arrRef spec1 w)
  after w t := match w with
    | ⟨0, _⟩ => iblk1 V a1 c 0 t
    | ⟨1, _⟩ => iblk1 V a1 c 1 t
    | ⟨2, _⟩ => iblk1 V a1 c 2 t
    | ⟨3, _⟩ => Scr.out (st1 V a1 c (t.val + 1))
  Φ t := Phi1 V a1 c t.val
  q _ := fullShare
  owed _ := 0

theorem A_eq1 (c : Dev nD) (w : Fin (cfg1 a1).W) : (dat1 V a1 c).A w = V c (Pipeline.arrRef spec1 w) := by
  dsimp only [dat1]

theorem after1_0 (c : Dev nD) (t : Fin (cfg1 a1).N) : (dat1 V a1 c).after 0 t = iblk1 V a1 c 0 t := by dsimp only [dat1]; rfl
theorem after1_1 (c : Dev nD) (t : Fin (cfg1 a1).N) : (dat1 V a1 c).after 1 t = iblk1 V a1 c 1 t := by dsimp only [dat1]; rfl
theorem after1_2 (c : Dev nD) (t : Fin (cfg1 a1).N) : (dat1 V a1 c).after 2 t = iblk1 V a1 c 2 t := by dsimp only [dat1]; rfl
theorem after1_3 (c : Dev nD) (t : Fin (cfg1 a1).N) : (dat1 V a1 c).after 3 t = Scr.out (st1 V a1 c (t.val + 1)) := by dsimp only [dat1]; rfl

theorem Phi1_zero (c : Dev nD) : Phi1 V a1 c 0 = iprop(Pipeline.ΦA spec1 c ∗ tabs1 a1 c) := rfl

theorem Phi1_succ (c : Dev nD) (n : ℕ) : Phi1 V a1 c (n + 1) = iprop((restNoScr1 c
      ∗ owns (c : Thread nD τ) scM1_0 fullShare (st1 V a1 c (n + 1)).m
      ∗ owns (c : Thread nD τ) scM1_1 fullShare (st1 V a1 c (n + 1)).l
      ∗ owns (c : Thread nD τ) scM1_2 fullShare (st1 V a1 c (n + 1)).acc
      ∗ (∃ r, prngReg c r)) ∗ tabs1 a1 c) := rfl

/-- The state after one more point. -/
theorem st1_succ (c : Dev nD) (n : ℕ) :
    st1 V a1 c (n + 1) = Scr.step (tw0N a1 n) (tw1N a1 n) (qN V a1 c n) (kN V a1 c n) (vN V a1 c n) (st1 V a1 c n) := rfl

end Cert.Kernel.Hand

end
-- ==== Proof.Reg1RunsBits.lean ====
/-
  What the four runs of the attention kernel's body share: the two tables as memrefs and as points-to, the
  word a scalar load of a table reads, the whole-buffer rectangles, and the read-back equations — a load of a
  whole buffer held at named contents reads them; a load after a whole store reads the stored vector; a
  buffer whose newest store is whole holds that store.
-/
import proofs.«155321_j4011499454905_2_alg».proof.Proof.Reg1DataBits
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two tables as the body is handed them, and a table's buffer held whole at contents `f`. -/
abbrev tbM1_0 : Memref sig .tc .smem S10 .i32 := Memref.whole main_c
abbrev tbM1_1 : Memref sig .tc .smem S10 .i32 := Memref.whole main_c_0
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word the body's scalar load reads off a table held at contents `T`, at grid coordinates `i`. -/
abbrev rdW (c : Dev nD) (M : Memref sig .tc .smem S10 .i32) (T : TbBuf1 (F := F) c M) (i : grid1.Coords) : Elt F .i32 :=
  M.view.readAt (Elt F) (Rect.unit (s := S10) (k1_off1 i) S1.size (Facts₀.k1_off1_inb i)).toLoadRect T (Shape.Idx.first (Facts₀.numel1_S1.symm ▸ Nat.one_pos))

section ReadBack

variable {sig' : RefSig} {κ : Kind} {sp : Space} {S : Shape} {e : EltTy} {Val : EltTy → Type} [∀ e, Nonempty (Val e)]

/-- A buffer whose newest store went through the whole-shape rectangle holds that store's payload. -/
theorem read_writes_head_whole (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle after such a store reads the payload. -/
theorem readCov_head_whole (v : View sig' κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

end ReadBack

theorem z2 : (![0, 0] : Fin 2 → ℕ) = fun _ => 0 := by funext a; fin_cases a <;> rfl
theorem z3 : (![0, 0, 0] : Fin 3 → ℕ) = fun _ => 0 := by funext a; fin_cases a <;> rfl

/-- A load of a whole buffer held at the contents `x` reads `x`. -/
theorem ld_whole {S : Shape} {e : EltTy} {sp : Space} (M : Memref sig .tc sp S e) (h : M.IsWhole) {off : Fin S.rank → Nat}
    (h0 : off = fun _ => 0) (inb : ∀ a, off a + S.size a ≤ S.size a) (x : S.Idx → Elt F e) :
    M.view.readAt (Elt F) (Rect.unit off S.size inb).toLoadRect (h.unread x) = x := by
  rw [View.readAt_eq_ld, h.read_unread, View.ld_unit_zero h0]

/-! The read-back equations at the three shapes the body's buffers have. -/

section Shapes
variable {sig' : RefSig} {κ : Kind} {sp : Space} {Val : EltTy → Type} [∀ e, Nonempty (Val e)]

theorem rw2 {e : EltTy} (v : View sig' κ sp S1024x1 e) (f : v.ty.Contents Val) (inb : ∀ a, (![0, 0] : Fin 2 → ℕ) a + S1024x1.size a ≤ S1024x1.size a)
    (w : S1024x1.Idx → Val e) (L : List (View.Piece Val S1024x1 e)) :
    v.read Val (v.writes Val f ((⟨Rect.unit ![0, 0] S1024x1.size inb, w⟩ : View.Piece Val S1024x1 e) :: L)) = w :=
  read_writes_head_whole v f z2 inb w L
theorem rw2b {e : EltTy} (v : View sig' κ sp S1024x128 e) (f : v.ty.Contents Val) (inb : ∀ a, (![0, 0] : Fin 2 → ℕ) a + S1024x128.size a ≤ S1024x128.size a)
    (w : S1024x128.Idx → Val e) (L : List (View.Piece Val S1024x128 e)) :
    v.read Val (v.writes Val f ((⟨Rect.unit ![0, 0] S1024x128.size inb, w⟩ : View.Piece Val S1024x128 e) :: L)) = w :=
  read_writes_head_whole v f z2 inb w L
theorem rw3 {e : EltTy} (v : View sig' κ sp S1x1024x128 e) (f : v.ty.Contents Val) (inb : ∀ a, (![0, 0, 0] : Fin 3 → ℕ) a + S1x1024x128.size a ≤ S1x1024x128.size a)
    (w : S1x1024x128.Idx → Val e) (L : List (View.Piece Val S1x1024x128 e)) :
    v.read Val (v.writes Val f ((⟨Rect.unit ![0, 0, 0] S1x1024x128.size inb, w⟩ : View.Piece Val S1x1024x128 e) :: L)) = w :=
  read_writes_head_whole v f z3 inb w L
theorem cov2 {e : EltTy} (v : View sig' κ sp S1024x1 e) (inb inb' : ∀ a, (![0, 0] : Fin 2 → ℕ) a + S1024x1.size a ≤ S1024x1.size a)
    (w : S1024x1.Idx → Val e) (L : List (View.Piece Val S1024x1 e)) :
    v.readCov ((⟨Rect.unit ![0, 0] S1024x1.size inb, w⟩ : View.Piece Val S1024x1 e) :: L) (Rect.unit ![0, 0] S1024x1.size inb').toLoadRect = w :=
  readCov_head_whole v z2 z2 inb inb' w L
theorem cov2b {e : EltTy} (v : View sig' κ sp S1024x128 e) (inb inb' : ∀ a, (![0, 0] : Fin 2 → ℕ) a + S1024x128.size a ≤ S1024x128.size a)
    (w : S1024x128.Idx → Val e) (L : List (View.Piece Val S1024x128 e)) :
    v.readCov ((⟨Rect.unit ![0, 0] S1024x128.size inb, w⟩ : View.Piece Val S1024x128 e) :: L) (Rect.unit ![0, 0] S1024x128.size inb').toLoadRect = w :=
  readCov_head_whole v z2 z2 inb inb' w L

end Shapes

theorem ld2 {e : EltTy} {sp : Space} (M : Memref sig .tc sp S1024x1 e) (h : M.IsWhole) (inb : ∀ a, (![0, 0] : Fin 2 → ℕ) a + S1024x1.size a ≤ S1024x1.size a)
    (x : S1024x1.Idx → Elt F e) : M.view.readAt (Elt F) (Rect.unit ![0, 0] S1024x1.size inb).toLoadRect (h.unread x) = x := ld_whole M h z2 inb x
theorem ld2b {e : EltTy} {sp : Space} (M : Memref sig .tc sp S1024x128 e) (h : M.IsWhole) (inb : ∀ a, (![0, 0] : Fin 2 → ℕ) a + S1024x128.size a ≤ S1024x128.size a)
    (x : S1024x128.Idx → Elt F e) : M.view.readAt (Elt F) (Rect.unit ![0, 0] S1024x128.size inb).toLoadRect (h.unread x) = x := ld_whole M h z2 inb x
theorem ld3 {e : EltTy} {sp : Space} (M : Memref sig .tc sp S1x1024x128 e) (h : M.IsWhole) (inb : ∀ a, (![0, 0, 0] : Fin 3 → ℕ) a + S1x1024x128.size a ≤ S1x1024x128.size a)
    (x : S1x1024x128.Idx → Elt F e) : M.view.readAt (Elt F) (Rect.unit ![0, 0, 0] S1x1024x128.size inb).toLoadRect (h.unread x) = x := ld_whole M h z3 inb x

open Lean Elab Tactic Meta in
/-- Every abbreviation standing for an intermediate value of the body is replaced, throughout the goal, by the value
    it stands for. -/
elab "unfold_run_names" : tactic => do
  let g ← getMainGoal
  let t ← instantiateMVars (← g.getType)
  let t' ← Core.transform t (pre := fun e => do
    if let .const n _ := e.getAppFn then
      if n.components.contains `sl then
        if let some e' ← delta? e then return .visit e'.headBeta
    return .continue)
  replaceMainGoal [← g.replaceTargetDefEq t']

end Cert.Kernel.Hand

end
-- ==== Proof.Reg1RunABits.lean ====
/-
  The body at a point that resets and lies on the diagonal (the first point of a batch row's first query block):
  whatever the three carried buffers held, they end at the masked update of the reset state, and the output buffer
  at the weighted sum over the row sum.
-/
import proofs.«155321_j4011499454905_2_alg».proof.Proof.Reg1RunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runA (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16)
    (hr : condReset (rdW c tbM1_1 T1 i) = 1#1)
    (hd : k1_cond2 (rdW c tbM1_0 T0 i) (rdW c tbM1_1 T1 i) = 1#1)
    (hi : ¬ condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare (Scr.out (Scr.diag (rdW c tbM1_0 T0 i) (rdW c tbM1_1 T1 i) q k v Scr.init))
            ∗ owns (c : Thread nD τ) arg8 fullShare (Scr.diag (rdW c tbM1_0 T0 i) (rdW c tbM1_1 T1 i) q k v Scr.init).m ∗ owns (c : Thread nD τ) arg9 fullShare (Scr.diag (rdW c tbM1_0 T0 i) (rdW c tbM1_1 T1 i) q k v Scr.init).l ∗ owns (c : Thread nD τ) arg10 fullShare (Scr.diag (rdW c tbM1_0 T0 i) (rdW c tbM1_1 T1 i) q k v Scr.init).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, HT0, HT1, Hk⟩
  obtain rfl := harg4.eq_unread hf4; obtain rfl := harg5.eq_unread hf5; obtain rfl := harg6.eq_unread hf6
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; unfold_run_names
    refine (read_writes_head_whole _ _ z3 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.Kernel.Hand

end
-- ==== Proof.Reg1RunBBits.lean ====
/-
  The body at a point that resets and lies below the diagonal (the first key block of a later query block):
  whatever the three carried buffers held, they end at the unmasked update of the reset state; the output buffer is
  left as found.
-/
import proofs.«155321_j4011499454905_2_alg».proof.Proof.Reg1RunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runB (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (d7 : Vec F S1x1024x128 .f32)
    (hr : condReset (rdW c tbM1_1 T1 i) = 1#1)
    (hd : ¬ k1_cond2 (rdW c tbM1_0 T0 i) (rdW c tbM1_1 T1 i) = 1#1)
    (hi : condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d)
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare d7
            ∗ owns (c : Thread nD τ) arg8 fullShare (Scr.inner q k v (Scr.init : Scr F)).m ∗ owns (c : Thread nD τ) arg9 fullShare (Scr.inner q k v (Scr.init : Scr F)).l ∗ owns (c : Thread nD τ) arg10 fullShare (Scr.inner q k v (Scr.init : Scr F)).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, HT1, Hk⟩
  obtain rfl := harg4.eq_unread hf4; obtain rfl := harg5.eq_unread hf5; obtain rfl := harg6.eq_unread hf6
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.Kernel.Hand

end
-- ==== Proof.Reg1RunCBits.lean ====
/-
  The body at a diagonal point that does not reset: the three carried buffers go from a state to its masked
  update, and the output buffer ends at the weighted sum over the row sum.
-/
import proofs.«155321_j4011499454905_2_alg».proof.Proof.Reg1RunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runC (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (s : Scr F)
    (hr : ¬ condReset (rdW c tbM1_1 T1 i) = 1#1)
    (hd : k1_cond2 (rdW c tbM1_0 T0 i) (rdW c tbM1_1 T1 i) = 1#1)
    (hi : ¬ condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s.m ∗ owns (c : Thread nD τ) arg9 fullShare s.l ∗ owns (c : Thread nD τ) arg10 fullShare s.acc
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare (Scr.out (Scr.diag (rdW c tbM1_0 T0 i) (rdW c tbM1_1 T1 i) q k v s))
            ∗ owns (c : Thread nD τ) arg8 fullShare (Scr.diag (rdW c tbM1_0 T0 i) (rdW c tbM1_1 T1 i) q k v s).m ∗ owns (c : Thread nD τ) arg9 fullShare (Scr.diag (rdW c tbM1_0 T0 i) (rdW c tbM1_1 T1 i) q k v s).l ∗ owns (c : Thread nD τ) arg10 fullShare (Scr.diag (rdW c tbM1_0 T0 i) (rdW c tbM1_1 T1 i) q k v s).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, HT0, HT1, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; unfold_run_names
    refine (read_writes_head_whole _ _ z3 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H8]
  · iexists _; isplitr; swap; · iexact H8
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H9]
  · iexists _; isplitr; swap; · iexact H9
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [H10]
  · iexists _; isplitr; swap; · iexact H10
    ipureintro; unfold_run_names
    refine (read_writes_head_whole _ _ z2 _ _ _).trans ?_
    (repeat rw [readCov_head_whole arg8.view z2 z2]); (repeat rw [readCov_head_whole arg9.view z2 z2]); (repeat rw [readCov_head_whole arg10.view z2 z2])
    (try rw [ld3 arg4 harg4]); (try rw [ld3 arg5 harg5]); (try rw [ld3 arg6 harg6]); (try rw [ld2 arg8 harg8]); (try rw [ld2 arg9 harg9]); (try rw [ld2b arg10 harg10])
    rfl
  isplitl [HT0]; · iexact HT0
  iexact HT1

end Cert.Kernel.Hand

end
-- ==== Proof.Reg1RunDBits.lean ====
/-
  The body at a point below the diagonal that does not reset: the three carried buffers go from a state to its
  unmasked update; the output buffer is left as found.
-/
import proofs.«155321_j4011499454905_2_alg».proof.Proof.Reg1RunsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runD (c : Dev nD) (i : grid1.Coords)
    (arg4 : Memref sig .tc .vmem S1x1024x128 .bf16) (harg4 : arg4.IsWhole) (arg5 : Memref sig .tc .vmem S1x1024x128 .bf16) (harg5 : arg5.IsWhole)
    (arg6 : Memref sig .tc .vmem S1x1024x128 .bf16) (harg6 : arg6.IsWhole) (arg7 : Memref sig .tc .vmem S1x1024x128 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x128 .f32) (harg10 : arg10.IsWhole)
    (T0 : TbBuf1 (F := F) c tbM1_0) (T1 : TbBuf1 (F := F) c tbM1_1)
    (q k v : Vec F S1x1024x128 .bf16) (d7 : Vec F S1x1024x128 .f32) (s : Scr F)
    (hr : ¬ condReset (rdW c tbM1_1 T1 i) = 1#1)
    (hd : ¬ k1_cond2 (rdW c tbM1_0 T0 i) (rdW c tbM1_1 T1 i) = 1#1)
    (hi : condInner (rdW c tbM1_0 T0 i) (rdW c tbM1_1 T1 i) = 1#1)
    (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare d7
        ∗ owns (c : Thread nD τ) arg8 fullShare s.m ∗ owns (c : Thread nD τ) arg9 fullShare s.l ∗ owns (c : Thread nD τ) arg10 fullShare s.acc
        ∗ tbPt1 c tbM1_0 T0 ∗ tbPt1 c tbM1_1 T1
        ∗ (iprop(owns (c : Thread nD τ) arg4 fullShare q ∗ owns (c : Thread nD τ) arg5 fullShare k ∗ owns (c : Thread nD τ) arg6 fullShare v
            ∗ owns (c : Thread nD τ) arg7 fullShare d7
            ∗ owns (c : Thread nD τ) arg8 fullShare (Scr.inner q k v s).m ∗ owns (c : Thread nD τ) arg9 fullShare (Scr.inner q k v s).l ∗ owns (c : Thread nD τ) arg10 fullShare (Scr.inner q k v s).acc
            ∗ tbPt1 c tbM1_0 T0 ∗ tbPt1 c tbM1_1 T1) -∗ K ⟨⟩))
      ⊢ wp frame (wpE (defs₀ (F := F)) Variants.none c none) E
          (cc1__attn_kernel i tbM1_0 (Memref.isWhole_whole _) tbM1_1 (Memref.isWhole_whole _) arg4 harg4 arg5 harg5 arg6 harg6 arg7 harg7 arg8 harg8 arg9 harg9 arg10 harg10) K := by
  simp only [cc1__attn_kernel_eq_skeleton]; unfold cc1__attn_kernel_skel
  simp only [k1_part1_eq_skeleton, k1_part2_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact hr | exact hd | exact hi)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact hf7
    iexact H7
  isplitl [H8]
  · iexists _; isplitr; swap; · iexact H8
    ipureintro; unfold_run_names
    refine (read_writes_head_whole _ _ z2 _ _ _).trans ?_
    rw [ld3 arg4 harg4, ld3 arg5 harg5, ld2 arg8 harg8]; rfl
  isplitl [H9]
  · iexists _; isplitr; swap; · iexact H9
    ipureintro; unfold_run_names
    refine (read_writes_head_whole _ _ z2 _ _ _).trans ?_
    rw [ld3 arg4 harg4, ld3 arg5 harg5, ld2 arg8 harg8, ld2 arg9 harg9]; rfl
  isplitl [H10]
  · iexists _; isplitr; swap; · iexact H10
    ipureintro; unfold_run_names
    refine (read_writes_head_whole _ _ z2 _ _ _).trans ?_
    rw [ld3 arg4 harg4, ld3 arg5 harg5, ld3 arg6 harg6, ld2 arg8 harg8, ld2b arg10 harg10]; rfl
  isplitl [HT0]; · iexact HT0
  iexact HT1

end Cert.Kernel.Hand

end
-- ==== Proof.TableWordsBits.lean ====
/-
  The lower-triangular tile schedule as two ten-entry lists of words: for each of the ten tiles, in the order
  the grid visits them, the number of its query block (0, 1, 1, 2, 2, 2, 3, 3, 3, 3) and of its key block
  (0, 0, 1, 0, 1, 2, 0, 1, 2, 3). Past the tenth entry both lists read zero.
-/

namespace Cert.Kernel.Hand

/-- The query-block number of tile `n`. -/
def qiW : Nat → BitVec 32
  | 0 => 0#32 | 1 => 1#32 | 2 => 1#32 | 3 => 2#32 | 4 => 2#32 | 5 => 2#32 | 6 => 3#32 | 7 => 3#32
  | 8 => 3#32 | 9 => 3#32
  | _ => 0#32

/-- The key-block number of tile `n`. -/
def kiW : Nat → BitVec 32
  | 0 => 0#32 | 1 => 0#32 | 2 => 1#32 | 3 => 0#32 | 4 => 1#32 | 5 => 2#32 | 6 => 0#32 | 7 => 1#32
  | 8 => 2#32 | 9 => 3#32
  | _ => 0#32

/-- No entry of either list exceeds three: there are four blocks. -/
theorem qiW_le (n : Nat) : (qiW n).toNat ≤ 3 := by
  unfold qiW; split <;> decide

theorem kiW_le (n : Nat) : (kiW n).toNat ≤ 3 := by
  unfold kiW; split <;> decide

end Cert.Kernel.Hand
-- ==== Proof.Reg1FactsBits.lean ====
/-
  The schedule of the attention region, with the two tables' contents a variable constrained by one hypothesis:
  that over each row of ten grid points the tables hold the triangular enumeration of the pairs (query block,
  key block) with key block ≤ query block. Decided over the ten positions of a row: which of the body's three
  conditions hold at a point; that the point after a point off the diagonal has the same query block. From
  these: where the output window is idle, and that it is not written back at a point off the diagonal.
-/
import proofs.«155321_j4011499454905_2_alg».proof.Proof.Reg1DataBits
import proofs.«155321_j4011499454905_2_alg».proof.Proof.TableWordsBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a1 : (pcfg1 (F := F)).Adm)

/-- THE HYPOTHESIS on the tables' contents: at every grid point the two words read are the enumeration's at the
    point's position in its row (`qiW`, `kiW`: the triangular enumeration of the pairs). -/
def Tab1 : Prop := ∀ t : Fin (cfg1 a1).N, tw0 a1 t = qiW (t.val % 10) ∧ tw1 a1 t = kiW (t.val % 10)

/-- At each position of a row exactly one of four cases of the body's three conditions holds: reset and diagonal,
    reset and below the diagonal, diagonal alone, below the diagonal alone. -/
theorem cls10 : ∀ j : Fin 10,
    (condReset (kiW j.val) = 1#1 ∧ k1_cond2 (qiW j.val) (kiW j.val) = 1#1 ∧ ¬ condInner (qiW j.val) (kiW j.val) = 1#1) ∨
    (condReset (kiW j.val) = 1#1 ∧ ¬ k1_cond2 (qiW j.val) (kiW j.val) = 1#1 ∧ condInner (qiW j.val) (kiW j.val) = 1#1) ∨
    (¬ condReset (kiW j.val) = 1#1 ∧ k1_cond2 (qiW j.val) (kiW j.val) = 1#1 ∧ ¬ condInner (qiW j.val) (kiW j.val) = 1#1) ∨
    (¬ condReset (kiW j.val) = 1#1 ∧ ¬ k1_cond2 (qiW j.val) (kiW j.val) = 1#1 ∧ condInner (qiW j.val) (kiW j.val) = 1#1) := by
  decide +kernel

/-- The first position of a row resets. -/
theorem reset0 : condReset (kiW 0) = 1#1 := by decide +kernel

/-- A position off the diagonal is not a row's last, and the next position has the same query block. -/
theorem nf10 : ∀ j : Fin 10, ¬ k1_cond2 (qiW j.val) (kiW j.val) = 1#1 → j.val ≠ 9 ∧ qiW (j.val + 1) = qiW j.val := by
  decide +kernel

/-- The grid's two coordinates of a point: the batch index and the position in the row. -/
theorem coords1_0 : ∀ t : Fin grid1.N, (grid1.coords t 0).val = t.val / 10 := by decide +kernel
theorem coords1_1 : ∀ t : Fin grid1.N, (grid1.coords t 1).val = t.val % 10 := by decide +kernel

theorem N1' : (cfg1 a1).N = 40 := N_1

/-- The table word as the idle table spells it (the element at the offsets when they are inside the table) is the
    word the index maps read. -/
theorem atD0_eq (i : grid1.Coords) :
    a1.1.atD 0 (k1_off1 i) = a1.1.at 0 (Rect.unit (s := S10) (k1_off1 i) S1.size (Facts₀.k1_off1_inb i)) Facts₀.numel1_S1 := by
  unfold Pipeline.Prefetch.Contents.atD
  split
  · refine congrArg (a1.1 0) (funext fun a => Fin.ext ?_)
    fin_cases a
    rfl
  · next h => exact absurd (fun a => by fin_cases a; exact Facts₀.k1_off1_inb i 0) h
theorem atD1_eq (i : grid1.Coords) :
    a1.1.atD 1 (k1_off1 i) = a1.1.at 1 (Rect.unit (s := S10) (k1_off1 i) S1.size (Facts₀.k1_off1_inb i)) Facts₀.numel1_S1 := by
  unfold Pipeline.Prefetch.Contents.atD
  split
  · refine congrArg (a1.1 1) (funext fun a => Fin.ext ?_)
    fin_cases a
    rfl
  · next h => exact absurd (fun a => by fin_cases a; exact Facts₀.k1_off1_inb i 0) h

/-- Where the output window is idle: exactly off the diagonal. -/
theorem idle3_eq (t : Fin (cfg1 a1).N) :
    (cfg1 a1).idle 3 ((cfg1 a1).grid.coords t) = !(k1_cond2 (tw0 a1 t) (tw1 a1 t) == 1#1) := by
  show (!(k1_cond2 (a1.1.atD 0 (k1_off1 (grid1.coords t))) (a1.1.atD 1 (k1_off1 (grid1.coords t))) == 1#1)) = _
  rw [atD0_eq, atD1_eq]; rfl

theorem idle3_true (t : Fin (cfg1 a1).N) (hd : ¬ k1_cond2 (tw0 a1 t) (tw1 a1 t) = 1#1) :
    (cfg1 a1).idle 3 ((cfg1 a1).grid.coords t) = true := by
  rw [idle3_eq]; simp only [Bool.not_eq_true', beq_eq_false_iff_ne, ne_eq]; exact hd

theorem idle3_false (t : Fin (cfg1 a1).N) (hd : k1_cond2 (tw0 a1 t) (tw1 a1 t) = 1#1) :
    (cfg1 a1).idle 3 ((cfg1 a1).grid.coords t) = false := by
  rw [idle3_eq, hd]; rfl

/-- The three input windows are never idle. -/
theorem live1_0 (t : Fin (cfg1 a1).N) : (cfg1 a1).idle 0 ((cfg1 a1).grid.coords t) = false := rfl
theorem live1_1 (t : Fin (cfg1 a1).N) : (cfg1 a1).idle 1 ((cfg1 a1).grid.coords t) = false := rfl
theorem live1_2 (t : Fin (cfg1 a1).N) : (cfg1 a1).idle 2 ((cfg1 a1).grid.coords t) = false := rfl

/-- The output window's block index at a point: the batch index, the query-block word, zero. -/
theorem index3_eq (t : Fin (cfg1 a1).N) :
    ((cfg1 a1).win 3).index t = ![(BitVec.ofNat 32 (grid1.coords t 0).val).toNat, (tw0 a1 t).toNat, (0#32).toNat] := rfl

/-- Off the diagonal the output block is not written back: the next point is in the same row with the same query block. -/
theorem noFlush3 (hT : Tab1 a1) (t : Fin (cfg1 a1).N) (hd : ¬ k1_cond2 (tw0 a1 t) (tw1 a1 t) = 1#1) :
    ((cfg1 a1).win 3).flush t = false := by
  have hN : t.val < 40 := lt_of_lt_of_eq t.isLt (N1' a1)
  obtain ⟨h0, h1⟩ := hT t
  rw [h0, h1] at hd
  obtain ⟨hj9, hq⟩ := nf10 ⟨t.val % 10, Nat.mod_lt _ (by decide)⟩ hd
  have hj9' : t.val % 10 ≠ 9 := hj9
  have hq' : qiW (t.val % 10 + 1) = qiW (t.val % 10) := hq
  have hidx : ∀ h : t.val + 1 < (cfg1 a1).N, ((cfg1 a1).win 3).index ⟨t.val + 1, h⟩ = ((cfg1 a1).win 3).index t := by
    intro h
    have c0 : grid1.coords (⟨t.val + 1, h⟩ : Fin grid1.N) 0 = grid1.coords (t : Fin grid1.N) 0 :=
      Fin.ext (by rw [coords1_0, coords1_0]; show (t.val + 1) / 10 = t.val / 10; omega)
    have w : tw0 a1 ⟨t.val + 1, h⟩ = tw0 a1 t := by
      rw [(hT _).1, h0]
      show qiW ((t.val + 1) % 10) = qiW (t.val % 10)
      rw [show (t.val + 1) % 10 = t.val % 10 + 1 from by omega]; exact hq'
    rw [index3_eq, index3_eq, c0, w]
  have hne : ¬ t.val + 1 = (cfg1 a1).grid.N := by
    show ¬ t.val + 1 = (cfg1 a1).N
    intro h
    have h40 : (cfg1 a1).N = 40 := N1' a1
    omega
  unfold Pipeline.Window.flush
  rw [decide_eq_false hne, decide_eq_false (fun ⟨h, hx⟩ => hx (hidx h))]
  simp only [Bool.or_self, Bool.and_false]

/-- Under the hypothesis, at every grid point exactly one of the four cases holds of the two words read there. -/
theorem cls1 (hT : Tab1 a1) (t : Fin (cfg1 a1).N) :
    (condReset (tw1 a1 t) = 1#1 ∧ k1_cond2 (tw0 a1 t) (tw1 a1 t) = 1#1 ∧ ¬ condInner (tw0 a1 t) (tw1 a1 t) = 1#1) ∨
    (condReset (tw1 a1 t) = 1#1 ∧ ¬ k1_cond2 (tw0 a1 t) (tw1 a1 t) = 1#1 ∧ condInner (tw0 a1 t) (tw1 a1 t) = 1#1) ∨
    (¬ condReset (tw1 a1 t) = 1#1 ∧ k1_cond2 (tw0 a1 t) (tw1 a1 t) = 1#1 ∧ ¬ condInner (tw0 a1 t) (tw1 a1 t) = 1#1) ∨
    (¬ condReset (tw1 a1 t) = 1#1 ∧ ¬ k1_cond2 (tw0 a1 t) (tw1 a1 t) = 1#1 ∧ condInner (tw0 a1 t) (tw1 a1 t) = 1#1) := by
  obtain ⟨h0, h1⟩ := hT t
  rw [h0, h1]
  exact cls10 ⟨t.val % 10, Nat.mod_lt _ (by decide)⟩

/-- The grid's first point resets. -/
theorem reset_first (hT : Tab1 a1) (t : Fin (cfg1 a1).N) (hz : t.val = 0) : condReset (tw1 a1 t) = 1#1 := by
  rw [(hT t).2, hz]; exact reset0

/-- The table words and input blocks by position, at a position inside the grid. -/
theorem tw0N_eq (t : Fin (cfg1 a1).N) : tw0N a1 t.val = tw0 a1 t := dif_pos t.isLt
theorem tw1N_eq (t : Fin (cfg1 a1).N) : tw1N a1 t.val = tw1 a1 t := dif_pos t.isLt

section Blocks
variable (V : (c : Dev nD) → (b : Ref sig .tc) → Buf (Elt F) ((c : Thread nD τ).loc b))
theorem qN_eq (c : Dev nD) (t : Fin (cfg1 a1).N) : qN V a1 c t.val = iblk1 V a1 c 0 t := dif_pos t.isLt
theorem kN_eq (c : Dev nD) (t : Fin (cfg1 a1).N) : kN V a1 c t.val = iblk1 V a1 c 1 t := dif_pos t.isLt
theorem vN_eq (c : Dev nD) (t : Fin (cfg1 a1).N) : vN V a1 c t.val = iblk1 V a1 c 2 t := dif_pos t.isLt
end Blocks

/-- One grid point's effect on the carried state, in each of the four cases. -/
theorem step_A (v1 v3 : Elt F .i32) (q k v : Vec F S1x1024x128 .bf16) (s : Scr F)
    (hr : condReset v3 = 1#1) (hd : k1_cond2 v1 v3 = 1#1) : Scr.step v1 v3 q k v s = Scr.diag v1 v3 q k v Scr.init := by
  unfold Scr.step; simp only [hr, hd, if_true]
theorem step_B (v1 v3 : Elt F .i32) (q k v : Vec F S1x1024x128 .bf16) (s : Scr F)
    (hr : condReset v3 = 1#1) (hd : ¬ k1_cond2 v1 v3 = 1#1) (hi : condInner v1 v3 = 1#1) :
    Scr.step v1 v3 q k v s = Scr.inner q k v (Scr.init : Scr F) := by
  unfold Scr.step; simp only [hr, hd, hi, if_true, if_false]
theorem step_C (v1 v3 : Elt F .i32) (q k v : Vec F S1x1024x128 .bf16) (s : Scr F)
    (hr : ¬ condReset v3 = 1#1) (hd : k1_cond2 v1 v3 = 1#1) : Scr.step v1 v3 q k v s = Scr.diag v1 v3 q k v s := by
  unfold Scr.step; simp only [hr, hd, if_true, if_false]
theorem step_D (v1 v3 : Elt F .i32) (q k v : Vec F S1x1024x128 .bf16) (s : Scr F)
    (hr : ¬ condReset v3 = 1#1) (hd : ¬ k1_cond2 v1 v3 = 1#1) (hi : condInner v1 v3 = 1#1) :
    Scr.step v1 v3 q k v s = Scr.inner q k v s := by
  unfold Scr.step; simp only [hr, hd, hi, if_true, if_false]

end Cert.Kernel.Hand

end
-- ==== Proof.Reg1EndsBits.lean ====
/-
  The two ends of the attention region's invariant, and its parts. The class's scoped rest opens into the
  first region's nine staging buffers and this region's three carried buffers, each at anything, beside the
  generator register, and closes back. The tables held whole are the two tables' points-to. Before the first
  point the invariant is what the region is entered with; after a point the three carried buffers are held at
  the state the points so far leave; after the last point, forgetting that state gives back what the region
  was entered with.
-/
import proofs.«155321_j4011499454905_2_alg».proof.Proof.Reg1DataBits
import proofs.«155321_j4011499454905_2_alg».proof.Proof.Reg1RunsBits
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-! ## The scoped rest, opened and closed -/

/-- The class's scoped rest with the generator register opens into the first region's staging buffers, the
    three carried buffers at anything, and the register. -/
theorem PhiA1_open (c : Dev nD) :
    (Pipeline.ΦA spec1 c : sProp 𝕄) ⊢ iprop(restNoScr1 c ∗ (∃ d, owns (c : Thread nD τ) scM1_0 fullShare d)
      ∗ (∃ d, owns (c : Thread nD τ) scM1_1 fullShare d) ∗ (∃ d, owns (c : Thread nD τ) scM1_2 fullShare d) ∗ ∃ r, prngReg c r) := by
  unfold Pipeline.ΦA restNoScr1
  rw [scopedRest1_eq]
  simp only [owns_whole]
  iintro ⟨⟨H0, H1, H2, H3, H4, H5, H6, H7, H8, Hm, Hl, Ha⟩, Hr⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hm]; · iexact Hm
  isplitl [Hl]; · iexact Hl
  isplitl [Ha]; · iexact Ha
  iexact Hr

/-- And back. -/
theorem PhiA1_close (c : Dev nD) :
    iprop(restNoScr1 c ∗ (∃ d, owns (c : Thread nD τ) scM1_0 fullShare d)
      ∗ (∃ d, owns (c : Thread nD τ) scM1_1 fullShare d) ∗ (∃ d, owns (c : Thread nD τ) scM1_2 fullShare d) ∗ ∃ r, prngReg c r)
      ⊢ (Pipeline.ΦA spec1 c : sProp 𝕄) := by
  unfold Pipeline.ΦA restNoScr1
  rw [scopedRest1_eq]
  simp only [owns_whole]
  iintro ⟨⟨H0, H1, H2, H3, H4, H5, H6, H7, H8⟩, Hm, Hl, Ha, Hr⟩
  isplitr [Hr]; swap; · iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hm]; · iexact Hm
  isplitl [Hl]; · iexact Hl
  iexact Ha

/-! ## The tables -/

/-- The tables held whole at the admissible contents, table by table. -/
theorem tabs1_eq (c : Dev nD) : (tabs1 a1 c : sProp 𝕄) = iprop(tbPt1 c tbM1_0 (a1.1 0) ∗ tbPt1 c tbM1_1 (a1.1 1)) := by
  unfold tabs1 Pipeline.prefHeld
  rw [show (Finset.univ : Finset (Fin 2)) = insert (0 : Fin 2) {(1 : Fin 2)} from by decide,
    bigSep_insert (by decide), bigSep_singleton]
  rfl

/-! ## The invariant by position -/

/-- After at least one point the carried buffers are held at the state the points so far leave. -/
theorem Phi1_pos (c : Dev nD) (n : ℕ) (hz : n ≠ 0) : Phi1 V a1 c n = iprop((restNoScr1 c
      ∗ owns (c : Thread nD τ) scM1_0 fullShare (st1 V a1 c n).m
      ∗ owns (c : Thread nD τ) scM1_1 fullShare (st1 V a1 c n).l
      ∗ owns (c : Thread nD τ) scM1_2 fullShare (st1 V a1 c n).acc
      ∗ (∃ r, prngReg c r)) ∗ tabs1 a1 c) := by
  cases n with
  | zero => exact absurd rfl hz
  | succ k => exact Phi1_succ V a1 c k

/-- Entering: what the region holds when it starts is the invariant before the first point. -/
theorem hin1 (c : Dev nD) :
    (iprop(Pipeline.ΦA spec1 c ∗ Pipeline.prefHeld pre1 c (fun _ => fullShare) a1.1) : sProp 𝕄)
      ⊢ (dat1 V a1 c).Φ (0 : Fin ((cfg1 a1).N + 1)) := by
  show _ ⊢ Phi1 V a1 c 0
  rw [Phi1_zero]

/-- Leaving: the invariant after the last of the forty points gives back what the region was entered with. -/
theorem hout1 (c : Dev nD) :
    (dat1 V a1 c).Φ (Fin.last (cfg1 a1).N)
      ⊢ (iprop(Pipeline.ΦA spec1 c ∗ Pipeline.prefHeld pre1 c (fun _ => fullShare) a1.1) : sProp 𝕄) := by
  have hN : (Fin.last (cfg1 a1).N).val = 39 + 1 := N_1
  show Phi1 V a1 c (Fin.last (cfg1 a1).N).val ⊢ _
  rw [hN, Phi1_succ]
  iintro ⟨⟨Hrest, Hm, Hl, Ha, Hr⟩, Ht⟩
  isplitr [Ht]; swap; · iexact Ht
  iapply (PhiA1_close c)
  isplitl [Hrest]; · iexact Hrest
  isplitl [Hm]; · iexists _; iexact Hm
  isplitl [Hl]; · iexists _; iexact Hl
  isplitl [Ha]; · iexists _; iexact Ha
  iexact Hr

end Cert.Kernel.Hand

end
-- ==== Proof.Reg1BeforeBits.lean ====
/-
  What the attention body finds in its three input buffers: at every grid point each holds its window's block
  there — the query block or the key / value block the point's table word selects —, whether the pipeline
  fetched it at that point or kept it from the point before (unfetched, the block index did not move).
-/
import proofs.«155321_j4011499454905_2_alg».proof.Proof.Reg1DataBits
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))
variable (a1 : (pcfg1 (F := F)).Adm)

/-- The query window's buffer holds the query block of the point. -/
theorem before1_0 (c : Dev nD) (t : Fin (cfg1 a1).N) (d) : (dat1 V a1 c).before 0 t d = iblk1 V a1 c 0 t :=
  ((dat1 V a1 c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key window's buffer holds the key block of the point. -/
theorem before1_1 (c : Dev nD) (t : Fin (cfg1 a1).N) (d) : (dat1 V a1 c).before 1 t d = iblk1 V a1 c 1 t :=
  ((dat1 V a1 c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value window's buffer holds the value block of the point. -/
theorem before1_2 (c : Dev nD) (t : Fin (cfg1 a1).N) (d) : (dat1 V a1 c).before 2 t d = iblk1 V a1 c 2 t :=
  ((dat1 V a1 c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.Kernel.Hand

end
-- ==== Proof.FrameReg1Bits.lean ====
/-
  THE BODY OBLIGATION of the attention region: at every grid point, from the invariant before the point, the three
  input buffers at their blocks and the output buffer at whatever it holds, the kernel body runs to the invariant
  after the point — the three carried buffers at the state one step further — with the input buffers unchanged and
  the output buffer either at the weighted sum over the row sum (a diagonal point) or as it was found (elsewhere,
  where the block is not written back). By cases on which of the body's three conditions hold of the two table words
  read at the point, under the hypothesis that the tables hold the triangular enumeration.
-/
import proofs.«155321_j4011499454905_2_alg».proof.Proof.Reg1RunABits
import proofs.«155321_j4011499454905_2_alg».proof.Proof.Reg1RunBBits
import proofs.«155321_j4011499454905_2_alg».proof.Proof.Reg1RunCBits
import proofs.«155321_j4011499454905_2_alg».proof.Proof.Reg1RunDBits
import proofs.«155321_j4011499454905_2_alg».proof.Proof.Reg1FactsBits
import proofs.«155321_j4011499454905_2_alg».proof.Proof.Reg1EndsBits
import proofs.«155321_j4011499454905_2_alg».proof.Proof.Reg1BeforeBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a1 : (pcfg1 (F := F)).Adm)

/-- Each window's current staging memref at point `t`, as the pipeline passes it to the body, and its wholeness. -/
abbrev ms1_0 (t : Fin (cfg1 a1).N) : Memref sig .tc .vmem S1x1024x128 .bf16 := spec1_0.stage ((cfg1 a1).slots t 0)
abbrev hs1_0 (t : Fin (cfg1 a1).N) : (ms1_0 a1 t).IsWhole := Facts₀.hstage1_0 (((cfg1 a1).slots t 0).cast Facts₀.nbuf1_0)
abbrev ms1_1 (t : Fin (cfg1 a1).N) : Memref sig .tc .vmem S1x1024x128 .bf16 := spec1_1.stage ((cfg1 a1).slots t 1)
abbrev hs1_1 (t : Fin (cfg1 a1).N) : (ms1_1 a1 t).IsWhole := Facts₀.hstage1_1 (((cfg1 a1).slots t 1).cast Facts₀.nbuf1_1)
abbrev ms1_2 (t : Fin (cfg1 a1).N) : Memref sig .tc .vmem S1x1024x128 .bf16 := spec1_2.stage ((cfg1 a1).slots t 2)
abbrev hs1_2 (t : Fin (cfg1 a1).N) : (ms1_2 a1 t).IsWhole := Facts₀.hstage1_2 (((cfg1 a1).slots t 2).cast Facts₀.nbuf1_2)
abbrev ms1_3 (t : Fin (cfg1 a1).N) : Memref sig .tc .vmem S1x1024x128 .f32 := spec1_3.stage ((cfg1 a1).slots t 3)
abbrev hs1_3 (t : Fin (cfg1 a1).N) : (ms1_3 a1 t).IsWhole := Facts₀.hstage1_3 (((cfg1 a1).slots t 3).cast Facts₀.nbuf1_3)

/-- The kernel body at point `t`, on what the pipeline calls it with. -/
abbrev bodyAt1 (t : Fin (cfg1 a1).N) : Prog (TpuEff nD τ sig (Elt F) Λ₀ .tc) PUnit :=
  cc1__attn_kernel (grid1.coords t) tbM1_0 (Memref.isWhole_whole _) tbM1_1 (Memref.isWhole_whole _)
    (ms1_0 a1 t) (hs1_0 a1 t) (ms1_1 a1 t) (hs1_1 a1 t) (ms1_2 a1 t) (hs1_2 a1 t) (ms1_3 a1 t) (hs1_3 a1 t)
    scM1_0 (Memref.isWhole_whole _) scM1_1 (Memref.isWhole_whole _) scM1_2 (Memref.isWhole_whole _)

/-- What the body is called with at point `t`, the windows one by one, -/
def bodyPre1 (c : Dev nD) (t : Fin (cfg1 a1).N) : sProp 𝕄 :=
  iprop((dat1 V a1 c).Φ t.castSucc ∗ (dat1 V a1 c).owesAt () t.castSucc
    ∗ (∃ d, owns (c : Thread nD τ) (ms1_0 a1 t) fullShare ((dat1 V a1 c).before 0 t d))
    ∗ (∃ d, owns (c : Thread nD τ) (ms1_1 a1 t) fullShare ((dat1 V a1 c).before 1 t d))
    ∗ (∃ d, owns (c : Thread nD τ) (ms1_2 a1 t) fullShare ((dat1 V a1 c).before 2 t d))
    ∗ (∃ d, owns (c : Thread nD τ) (ms1_3 a1 t) fullShare ((dat1 V a1 c).before 3 t d)))

/-- and what it returns. -/
def bodyPost1 (c : Dev nD) (t : Fin (cfg1 a1).N) : sProp 𝕄 :=
  iprop((dat1 V a1 c).Φ t.succ ∗ (dat1 V a1 c).owesAt () t.succ
    ∗ (dat1 V a1 c).leavesExact 0 t
    ∗ (dat1 V a1 c).leavesExact 1 t
    ∗ (dat1 V a1 c).leavesExact 2 t
    ∗ (dat1 V a1 c).leavesExact 3 t)

/-- An input window's buffer is left at its block. -/
theorem lv1_0 (c : Dev nD) (t : Fin (cfg1 a1).N) :
    (dat1 V a1 c).leavesExact 0 t = owns (c : Thread nD τ) (ms1_0 a1 t) fullShare (iblk1 V a1 c 0 t) := by
  rw [← after1_0 V a1 c t]; unfold Dat.leavesExact; rw [live1_0 a1 t]; rfl
theorem lv1_1 (c : Dev nD) (t : Fin (cfg1 a1).N) :
    (dat1 V a1 c).leavesExact 1 t = owns (c : Thread nD τ) (ms1_1 a1 t) fullShare (iblk1 V a1 c 1 t) := by
  rw [← after1_1 V a1 c t]; unfold Dat.leavesExact; rw [live1_1 a1 t]; rfl
theorem lv1_2 (c : Dev nD) (t : Fin (cfg1 a1).N) :
    (dat1 V a1 c).leavesExact 2 t = owns (c : Thread nD τ) (ms1_2 a1 t) fullShare (iblk1 V a1 c 2 t) := by
  rw [← after1_2 V a1 c t]; unfold Dat.leavesExact; rw [live1_2 a1 t]; rfl
/-- On the diagonal the output buffer is left at the weighted sum over the row sum of the state after the point. -/
theorem lv1_3_live (c : Dev nD) (t : Fin (cfg1 a1).N) (hd : k1_cond2 (tw0 a1 t) (tw1 a1 t) = 1#1) :
    (dat1 V a1 c).leavesExact 3 t = owns (c : Thread nD τ) (ms1_3 a1 t) fullShare (Scr.out (st1 V a1 c (t.val + 1))) := by
  rw [← after1_3 V a1 c t]; unfold Dat.leavesExact; rw [idle3_false a1 t hd]; rfl

/-- The state after a point, in each of the four cases of the two words read there. -/
theorem st1_next_A (c : Dev nD) (t : Fin (cfg1 a1).N) (hr : condReset (tw1 a1 t) = 1#1) (hd : k1_cond2 (tw0 a1 t) (tw1 a1 t) = 1#1) :
    st1 V a1 c (t.val + 1) = Scr.diag (tw0 a1 t) (tw1 a1 t) (iblk1 V a1 c 0 t) (iblk1 V a1 c 1 t) (iblk1 V a1 c 2 t) Scr.init := by
  rw [st1_succ, tw0N_eq, tw1N_eq, qN_eq, kN_eq, vN_eq]; exact step_A _ _ _ _ _ _ hr hd
theorem st1_next_B (c : Dev nD) (t : Fin (cfg1 a1).N) (hr : condReset (tw1 a1 t) = 1#1) (hd : ¬ k1_cond2 (tw0 a1 t) (tw1 a1 t) = 1#1)
    (hi : condInner (tw0 a1 t) (tw1 a1 t) = 1#1) :
    st1 V a1 c (t.val + 1) = Scr.inner (iblk1 V a1 c 0 t) (iblk1 V a1 c 1 t) (iblk1 V a1 c 2 t) (Scr.init : Scr F) := by
  rw [st1_succ, tw0N_eq, tw1N_eq, qN_eq, kN_eq, vN_eq]; exact step_B _ _ _ _ _ _ hr hd hi
theorem st1_next_C (c : Dev nD) (t : Fin (cfg1 a1).N) (hr : ¬ condReset (tw1 a1 t) = 1#1) (hd : k1_cond2 (tw0 a1 t) (tw1 a1 t) = 1#1) :
    st1 V a1 c (t.val + 1) = Scr.diag (tw0 a1 t) (tw1 a1 t) (iblk1 V a1 c 0 t) (iblk1 V a1 c 1 t) (iblk1 V a1 c 2 t) (st1 V a1 c t.val) := by
  rw [st1_succ, tw0N_eq, tw1N_eq, qN_eq, kN_eq, vN_eq]; exact step_C _ _ _ _ _ _ hr hd
theorem st1_next_D (c : Dev nD) (t : Fin (cfg1 a1).N) (hr : ¬ condReset (tw1 a1 t) = 1#1) (hd : ¬ k1_cond2 (tw0 a1 t) (tw1 a1 t) = 1#1)
    (hi : condInner (tw0 a1 t) (tw1 a1 t) = 1#1) :
    st1 V a1 c (t.val + 1) = Scr.inner (iblk1 V a1 c 0 t) (iblk1 V a1 c 1 t) (iblk1 V a1 c 2 t) (st1 V a1 c t.val) := by
  rw [st1_succ, tw0N_eq, tw1N_eq, qN_eq, kN_eq, vN_eq]; exact step_D _ _ _ _ _ _ hr hd hi

set_option maxHeartbeats 4000000 in
/-- The body at any point. -/
theorem sound_body1 (hT : Tab1 a1) (c : Dev nD) (t : Fin (cfg1 a1).N) :
    bodyPre1 V a1 c t ⊢ wp frame (wpE (defs₀ (F := F)) Variants.none c none) Set.univ (bodyAt1 a1 t) (fun _ => bodyPost1 V a1 c t) := by
  unfold bodyPre1 bodyPost1 bodyAt1
  rewrite [lv1_0 V a1 c t, lv1_1 V a1 c t, lv1_2 V a1 c t]
  simp only [before1_0, before1_1, before1_2]
  rewrite [show (dat1 V a1 c).owesAt () t.succ = (dat1 V a1 c).owesAt () t.castSucc from rfl]
  rcases cls1 a1 hT t with ⟨hr, hd, hi⟩ | ⟨hr, hd, hi⟩ | ⟨hr, hd, hi⟩ | ⟨hr, hd, hi⟩
  · -- case A
    rewrite [lv1_3_live V a1 c t hd]
    rewrite [show (dat1 V a1 c).Φ t.succ = Phi1 V a1 c (t.val + 1) from rfl, Phi1_succ, st1_next_A V a1 c t hr hd]
    rewrite [show (dat1 V a1 c).Φ t.castSucc = Phi1 V a1 c t.val from rfl]
    by_cases hz : t.val = 0
    · rewrite [show Phi1 V a1 c t.val = iprop(Pipeline.ΦA spec1 c ∗ tabs1 a1 c) from by rw [hz]; rfl, tabs1_eq]
      iintro ⟨⟨HΦ, HT0, HT1⟩, Ho, ⟨%d0, H0⟩, ⟨%d1, H1⟩, ⟨%d2, H2⟩, ⟨%d3, H3⟩⟩
      ihave HΦ' := (PhiA1_open c) $$ HΦ
      icases HΦ' with ⟨Hrest, HS0, HS1, HS2, Hg⟩
      iapply (runA c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) hr hd hi Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runA c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) hr hd hi Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
  · -- case B
    rewrite [Dat.leavesExact_idle (dat1 V a1 c) 3 t (idle3_true a1 t hd) (noFlush3 a1 hT t hd)]
    rewrite [show (dat1 V a1 c).Φ t.succ = Phi1 V a1 c (t.val + 1) from rfl, Phi1_succ, st1_next_B V a1 c t hr hd hi]
    rewrite [show (dat1 V a1 c).Φ t.castSucc = Phi1 V a1 c t.val from rfl]
    by_cases hz : t.val = 0
    · rewrite [show Phi1 V a1 c t.val = iprop(Pipeline.ΦA spec1 c ∗ tabs1 a1 c) from by rw [hz]; rfl, tabs1_eq]
      iintro ⟨⟨HΦ, HT0, HT1⟩, Ho, ⟨%d0, H0⟩, ⟨%d1, H1⟩, ⟨%d2, H2⟩, ⟨%d3, H3⟩⟩
      ihave HΦ' := (PhiA1_open c) $$ HΦ
      icases HΦ' with ⟨Hrest, HS0, HS1, HS2, Hg⟩
      iapply (runB c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ hr hd hi Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runB c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ hr hd hi Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3
  · -- case C
    rewrite [lv1_3_live V a1 c t hd]
    rewrite [show (dat1 V a1 c).Φ t.succ = Phi1 V a1 c (t.val + 1) from rfl, Phi1_succ, st1_next_C V a1 c t hr hd]
    rewrite [show (dat1 V a1 c).Φ t.castSucc = Phi1 V a1 c t.val from rfl]
    have hz : t.val ≠ 0 := fun hz => hr (reset_first a1 hT t hz)
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runC c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) (st1 V a1 c t.val) hr hd hi Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexact H3
  · -- case D
    rewrite [Dat.leavesExact_idle (dat1 V a1 c) 3 t (idle3_true a1 t hd) (noFlush3 a1 hT t hd)]
    rewrite [show (dat1 V a1 c).Φ t.succ = Phi1 V a1 c (t.val + 1) from rfl, Phi1_succ, st1_next_D V a1 c t hr hd hi]
    rewrite [show (dat1 V a1 c).Φ t.castSucc = Phi1 V a1 c t.val from rfl]
    have hz : t.val ≠ 0 := fun hz => hr (reset_first a1 hT t hz)
    · rewrite [Phi1_pos V a1 c _ hz, tabs1_eq]
      iintro ⟨⟨⟨Hrest, HS0, HS1, HS2, Hg⟩, HT0, HT1⟩, Ho, ⟨%d0, H0⟩, ⟨%d1, H1⟩, ⟨%d2, H2⟩, ⟨%d3, H3⟩⟩
      iapply (runD c (grid1.coords t) _ (hs1_0 a1 t) _ (hs1_1 a1 t) _ (hs1_2 a1 t) _ (hs1_3 a1 t) scM1_0 (Memref.isWhole_whole _) scM1_1 (Memref.isWhole_whole _) scM1_2 (Memref.isWhole_whole _) (a1.1 0) (a1.1 1) (iblk1 V a1 c 0 t) (iblk1 V a1 c 1 t) (iblk1 V a1 c 2 t) _ (st1 V a1 c t.val) hr hd hi Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [Hrest HS0 HS1 HS2 Hg HT0 HT1]
      · isplitl [Hrest HS0 HS1 HS2 Hg]
        · isplitl [Hrest]; · iexact Hrest
          isplitl [HS0]; · iexact HS0
          isplitl [HS1]; · iexact HS1
          isplitl [HS2]; · iexact HS2
          iexact Hg
        isplitl [HT0]; · iexact HT0
        iexact HT1
      isplitl [Ho]; · iexact Ho
      isplitl [H0]; · iexact H0
      isplitl [H1]; · iexact H1
      isplitl [H2]; · iexact H2
      iexists _; iexact H3

/-- THE BODY OBLIGATION of the attention pipeline on core `c`, under the hypothesis on the tables. -/
theorem body_obligation1 (hT : Tab1 a1) (c : Dev nD) :
    BodyObligation (dat1 (F := F) V a1 c) (defs₀ (F := F)) Variants.none () Set.univ := fun t => by
  rw [bigSep_W1, bigSep_W1]
  exact sound_body1 V a1 hT c t

end Cert.Kernel.Hand

end
-- ==== Proof.TableAdmBits.lean ====
/-
  The attention region's two prefetched tables at the contents the host prefix writes into them — the
  query-block and key-block numbers of the ten tiles of the lower-triangular schedule — are admissible contents
  of the region's pipeline: every block a table word selects lies inside its array (a word is at most three,
  and the arrays have four row blocks) and moves whole words. The word a grid point reads is the list's entry
  at the point's second coordinate, which over the forty points is the point's number modulo ten.
-/
import Mathlib.Tactic.IntervalCases
import proofs.«155321_j4011499454905_2_alg».proof.Proof.Reg1DataBits
import proofs.«155321_j4011499454905_2_alg».proof.Proof.Gen.Kernel.Regions
import proofs.«155321_j4011499454905_2_alg».proof.Proof.TableWordsBits
import Idealize.ShloMosaic.Lib.StableHlo.Run
import Idealize.ShloMosaic.Lib.Affine

noncomputable section

namespace Cert.Kernel.Hand

open Idealize.ShloMosaic Idealize.ShloMosaic.TcCoe
open Idealize.SL Idealize.SL.RA Idealize.SL.BI
open Idealize.SL.Sem
open Cert.Kernel Cert.Kernel.Gen

variable {F : FTy → Type} [FloatOps F]

/-- The two tables at their literal contents. -/
def tblC : pre1.Contents (Elt F) := fun
  | ⟨0, _⟩ => ((fun i => lit0 (S10.rowMajor i)) : S10.Idx → BitVec 32)
  | ⟨1, _⟩ => ((fun i => lit1 (S10.rowMajor i)) : S10.Idx → BitVec 32)
  | ⟨_ + 2, h⟩ => absurd h (Nat.not_lt.2 (Nat.le_add_left _ _))

/-! ## The word a tile reads -/

theorem tblC_at0_aux (x1 : ℕ) (hx : x1 < 10)
    (hin : ∀ a, (![(Scalar.indexCast (BitVec.ofNat 32 x1)).toNat] : Fin 1 → ℕ) a + S1.size a ≤ S10.size a) (h1 : S1.numel = 1) :
    (tblC (F := F)).at 0 (Rect.unit (s := S10) ![(Scalar.indexCast (BitVec.ofNat 32 x1)).toNat] S1.size hin) h1 = qiW x1 := by
  interval_cases x1 <;> rfl

theorem tblC_at1_aux (x1 : ℕ) (hx : x1 < 10)
    (hin : ∀ a, (![(Scalar.indexCast (BitVec.ofNat 32 x1)).toNat] : Fin 1 → ℕ) a + S1.size a ≤ S10.size a) (h1 : S1.numel = 1) :
    (tblC (F := F)).at 1 (Rect.unit (s := S10) ![(Scalar.indexCast (BitVec.ofNat 32 x1)).toNat] S1.size hin) h1 = kiW x1 := by
  interval_cases x1 <;> rfl

/-- The first table's word at tile coordinate `i 1` is that tile's query-block number, -/
theorem tblC_at0 (i : grid1.Coords) :
    (tblC (F := F)).at 0 (Rect.unit (s := S10) (k1_off1 i) S1.size (Facts₀.k1_off1_inb i)) Facts₀.numel1_S1 = qiW (i 1).val :=
  tblC_at0_aux (i 1).val (i 1).isLt _ _

/-- and the second table's is its key-block number. -/
theorem tblC_at1 (i : grid1.Coords) :
    (tblC (F := F)).at 1 (Rect.unit (s := S10) (k1_off1 i) S1.size (Facts₀.k1_off1_inb i)) Facts₀.numel1_S1 = kiW (i 1).val :=
  tblC_at1_aux (i 1).val (i 1).isLt _ _

/-! ## Every block a table word selects lies inside its array -/

/-- A block index made of a batch coordinate below four, a word at most three and a zero is inside the
    4×4096×128 arrays in 1×1024×128 blocks. -/
theorem blk_inb (x0 : ℕ) (hx0 : x0 < 4) (v : BitVec 32) (hv : v.toNat ≤ 3) :
    ∀ a : Fin 3, ((![(BitVec.ofNat 32 x0).toNat, v.toNat, (0#32).toNat] : Fin 3 → ℕ) a + 1) * S1x1024x128.size a ≤ S4x4096x128.size a := by
  intro a
  fin_cases a
  · show ((BitVec.ofNat 32 x0).toNat + 1) * 1 ≤ 4
    rw [BitVec.toNat_ofNat, Nat.mod_eq_of_lt (by omega)]; omega
  · show (v.toNat + 1) * 1024 ≤ 4096
    omega
  · show ((0#32).toNat + 1) * 128 ≤ 128
    decide

theorem inb1_0 (i : grid1.Coords) : ∀ a, (cc1_transform_0 Facts₀.k1_off1_inb Facts₀.numel1_S1 (tblC (F := F)) i a + 1) * S1x1024x128.size a ≤ S4x4096x128.size a := by
  have h := blk_inb (i 0).val (i 0).isLt _ (qiW_le (i 1).val)
  rw [← tblC_at0 (F := F) i] at h
  exact h

theorem inb1_1 (i : grid1.Coords) : ∀ a, (cc1_transform_1 Facts₀.k1_off1_inb Facts₀.numel1_S1 (tblC (F := F)) i a + 1) * S1x1024x128.size a ≤ S4x4096x128.size a := by
  have h := blk_inb (i 0).val (i 0).isLt _ (kiW_le (i 1).val)
  rw [← tblC_at1 (F := F) i] at h
  exact h

theorem inb1_2 (i : grid1.Coords) : ∀ a, (cc1_transform_2 Facts₀.k1_off1_inb Facts₀.numel1_S1 (tblC (F := F)) i a + 1) * S1x1024x128.size a ≤ S4x4096x128.size a := by
  have h := blk_inb (i 0).val (i 0).isLt _ (kiW_le (i 1).val)
  rw [← tblC_at1 (F := F) i] at h
  exact h

theorem inb1_3 (i : grid1.Coords) : ∀ a, (cc1_transform_3 Facts₀.k1_off1_inb Facts₀.numel1_S1 (tblC (F := F)) i a + 1) * S1x1024x128.size a ≤ S4x4096x128.size a := by
  have h := blk_inb (i 0).val (i 0).isLt _ (qiW_le (i 1).val)
  rw [← tblC_at0 (F := F) i] at h
  exact h

/-- The literal tables satisfy the pipeline's side condition: the blocks are inside their arrays, and a block of
    1024 rows of 128 sixteen-bit elements is whole words (the output's elements are words themselves). -/
theorem ok_tblC : ok1 (F := F) tblC := by
  unfold ok1
  exact ⟨fun i => ⟨inb1_0 i, .inr (Affine.block_words_dvd (of_decide_eq_true rfl) (by decide))⟩,
    fun i => ⟨inb1_1 i, .inr (Affine.block_words_dvd (of_decide_eq_true rfl) (by decide))⟩,
    fun i => ⟨inb1_2 i, .inr (Affine.block_words_dvd (of_decide_eq_true rfl) (by decide))⟩,
    fun i => ⟨inb1_3 i, .inl rfl⟩⟩

/-- The literal tables as admissible contents of the attention pipeline. -/
def a1C : (pcfg1 (F := F)).Adm := ⟨tblC, ok_tblC⟩

/-! ## The words over the forty grid points -/

/-- The second coordinate of grid point `t` is `t` modulo ten. -/
theorem coords1_snd : ∀ t : Fin grid1.N, ((grid1.coords t) 1).val = t.val % 10 := by decide +kernel

/-- The two table words point `t` reads are the query-block and key-block numbers of tile `t` modulo ten. -/
theorem htab_a1C (t : Fin (cfg1 (a1C (F := F))).N) : tw0 a1C t = qiW (t.val % 10) ∧ tw1 a1C t = kiW (t.val % 10) := by
  rw [← coords1_snd t]
  exact ⟨tblC_at0 (grid1.coords t), tblC_at1 (grid1.coords t)⟩

/-! ## The host prefix writes these contents -/

variable (m : (ℓ : Loc nD τ sig) → Buf (Elt F) ℓ)

/-- After the host operations that precede the regions, each table's buffer holds its literal list: the first
    two operations write them and the later ones write elsewhere. -/
theorem V1_tables (c : Dev nD) (k : Fin pre1.K) : (Gen.V1 m c (pre1.ref k) : (pre1.ref k).ty.Contents (Elt F)) = tblC k := by
  match k with
  | ⟨0, _⟩ =>
    show (Gen.V1 m c main_c : S10.Idx → BitVec 32) = fun i => lit0 (S10.rowMajor i)
    dsimp only [Gen.V1, Gen.hostOps0]; after_results; rfl
  | ⟨1, _⟩ =>
    show (Gen.V1 m c main_c_0 : S10.Idx → BitVec 32) = fun i => lit1 (S10.rowMajor i)
    dsimp only [Gen.V1, Gen.hostOps0]; after_results; rfl
  | ⟨_ + 2, h⟩ => exact absurd h (Nat.not_lt.2 (Nat.le_add_left _ _))

end Cert.Kernel.Hand

end
-- ==== Proof.KernelRunBits.lean ====
/-
  The run of @main with the attention region's proof data put in: the tables at their literal contents, the
  region entered with what the projection region leaves. What the run's post says is then read back: each
  argument array ends as launched — no host operation writes one, the projection region only reads the input
  rows, the attention region reads none — and the result array ends at what the attention pipeline's
  write-backs leave.
-/
import proofs.«155321_j4011499454905_2_alg».proof.Proof.FrameRunBits
import proofs.«155321_j4011499454905_2_alg».proof.Proof.FrameReg0Bits
import proofs.«155321_j4011499454905_2_alg».proof.Proof.FrameReg1Bits
import proofs.«155321_j4011499454905_2_alg».proof.Proof.TableAdmBits

noncomputable section

namespace Cert.Kernel.Hand

open Idealize.ShloMosaic Idealize.ShloMosaic.TcCoe
open Idealize.SL Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The attention region's proof data at the contents it is entered with and the literal tables. -/
abbrev datA (c : Dev nD) : Dat τ (Elt F) Unit ℕ (UR sig nD τ) ℕ (cfg1 (a1C (F := F))) c := dat1 (E2 m) a1C c

/-- The tables the attention region is entered with are the literal ones: the projection region does not
    touch them, and the host prefix wrote them. -/
theorem tables_at_entry (c : Dev nD) (k : Fin pre1.K) : E2 m c (pre1.ref k) = (a1C (F := F)).1 k :=
  (W2_of_ne m c (pre1.ref k) (by intro w; revert k; revert w; decide)).trans (V1_tables m c k)

/-- THE RUN, with everything put in. -/
theorem run_kernel : θ_run defs (onTc (τ := τ) (main (F := F))) ⟨m, fun _ => 0, ρ⟩ (fun r => ∀ c : Dev nD,
      ∀ b ∈ Pipeline.ucRefs τ sig, r.2.mem (((c : Thread nD τ)).1, b) = W3 m a1C (datA m) c b) :=
  run_all m ρ a1C (datA m) (fun c w => A_eq1 (E2 m) a1C c w) (fun _ _ => rfl) (fun _ _ => rfl)
    (fun c => body_obligation0 (E1 m) c) (fun c => body_obligation1 (E2 m) a1C htab_a1C c)
    (fun c => hin1 (E2 m) a1C c) (fun c => hout1 (E2 m) a1C c) (fun _ _ => rfl) (tables_at_entry m)

/-! ## Reading the post -/

theorem kept_arg0 (c : Dev nD) : W3 m a1C (datA m) c (Proc.devRef .tc main_arg0) = m ((c : Thread nD τ).loc main_arg0) :=
  calc W3 m a1C (datA m) c (Proc.devRef .tc main_arg0)
    _ = W2 m c (Proc.devRef .tc main_arg0) := W3_of_ne m a1C (datA m) c main_arg0 (by decide)
    _ = Gen.V1 m c (Proc.devRef .tc main_arg0) := (W2_arr m c 0).trans (((dat0 (E1 m) c).arrAt_in 0 rfl _).trans (A_eq0 (E1 m) c 0))
    _ = m ((c : Thread nD τ).loc main_arg0) := (Gen.V1_of m c main_arg0 (by decide)).trans rfl
theorem kept_arg1 (c : Dev nD) : W3 m a1C (datA m) c (Proc.devRef .tc main_arg1) = m ((c : Thread nD τ).loc main_arg1) :=
  calc W3 m a1C (datA m) c (Proc.devRef .tc main_arg1)
    _ = W2 m c (Proc.devRef .tc main_arg1) := W3_of_ne m a1C (datA m) c main_arg1 (by decide)
    _ = Gen.V1 m c (Proc.devRef .tc main_arg1) := W2_of_ne m c main_arg1 (by decide)
    _ = m ((c : Thread nD τ).loc main_arg1) := (Gen.V1_of m c main_arg1 (by decide)).trans rfl
theorem kept_arg2 (c : Dev nD) : W3 m a1C (datA m) c (Proc.devRef .tc main_arg2) = m ((c : Thread nD τ).loc main_arg2) :=
  calc W3 m a1C (datA m) c (Proc.devRef .tc main_arg2)
    _ = W2 m c (Proc.devRef .tc main_arg2) := W3_of_ne m a1C (datA m) c main_arg2 (by decide)
    _ = Gen.V1 m c (Proc.devRef .tc main_arg2) := W2_of_ne m c main_arg2 (by decide)
    _ = m ((c : Thread nD τ).loc main_arg2) := (Gen.V1_of m c main_arg2 (by decide)).trans rfl
theorem kept_arg3 (c : Dev nD) : W3 m a1C (datA m) c (Proc.devRef .tc main_arg3) = m ((c : Thread nD τ).loc main_arg3) :=
  calc W3 m a1C (datA m) c (Proc.devRef .tc main_arg3)
    _ = W2 m c (Proc.devRef .tc main_arg3) := W3_of_ne m a1C (datA m) c main_arg3 (by decide)
    _ = Gen.V1 m c (Proc.devRef .tc main_arg3) := W2_of_ne m c main_arg3 (by decide)
    _ = m ((c : Thread nD τ).loc main_arg3) := (Gen.V1_of m c main_arg3 (by decide)).trans rfl

/-- The result array ends at what the attention pipeline's write-backs leave. -/
theorem result_arr (c : Dev nD) : W3 m a1C (datA m) c (Proc.devRef .tc main_v3) = (datA m c).arrAt 3 (cfg1 (a1C (F := F))).N :=
  W3_arr m a1C (datA m) c 3

/-- The frame and the result in one statement: every weakly fair execution terminates, nothing faulting, with
    the result array at the pipeline's final contents and the four arguments as launched. -/
theorem run_result : θ_run defs (onTc (τ := τ) (main (F := F))) ⟨m, fun _ => 0, ρ⟩ (fun r => ∀ c : Dev nD,
      r.2.mem ((c.tc : Thread nD τ).loc main_v3) = (datA m c).arrAt 3 (cfg1 (a1C (F := F))).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (result_arr m c),
     (h c _ (mem_uc main_arg0 (by decide))).trans (kept_arg0 m c),
     (h c _ (mem_uc main_arg1 (by decide))).trans (kept_arg1 m c),
     (h c _ (mem_uc main_arg2 (by decide))).trans (kept_arg2 m c),
     (h c _ (mem_uc main_arg3 (by decide))).trans (kept_arg3 m c)⟩) (run_kernel m ρ)

end Cert.Kernel.Hand

end
-- ==== Proof.AttnSpec.lean ====
/-
  The specification both programs meet, on the extended reals: causal single-head attention.
  For batch `b`, query position `t`, feature `d`:
    q, k, v      the three projections of the input rows,
    logit t s    the query–key inner product divided by 32 (the square root of the embedding width 1024),
    masked t s   the logit where the key position does not exceed the query position, −∞ above it,
    rowMax t     the largest masked logit of the row,
    weight t s   exp (masked − rowMax), zero at the masked positions,
    attn t d     the sum over key positions of (weight / row sum of weights) · v.
  No program is imported: the shapes are literal and every index is built from its coordinates.
-/
import Idealize.ShloMosaic.PureOps.Ideal
import Idealize.ShloMosaic.Lib.ValueIdx

noncomputable section

namespace Cert.AttnSpec

open Idealize.ShloMosaic Idealize.ShloMosaic.ValueIdx

/-- The input rows: 4 batches of 4096 positions of width 1024. -/
abbrev SX : Shape := ⟨3, ![4, 4096, 1024]⟩
/-- A projection matrix: 1024 × 128. -/
abbrev SW : Shape := ⟨2, ![1024, 128]⟩

variable (x : SX.Idx → EReal) (wq wk wv : SW.Idx → EReal)

/-- Row `t` of batch `b` times column `d` of the matrix `w`. -/
def proj (w : SW.Idx → EReal) (b : Fin 4) (t : Fin 4096) (d : Fin 128) : EReal :=
  ∑ c : Fin 1024, x (ix3 b t c) * w (ix2 c d)

/-- The scaled query–key inner product. -/
def logit (b : Fin 4) (t s : Fin 4096) : EReal :=
  Ideal.div (∑ d : Fin 128, proj x wq b t d * proj x wk b s d) ((32 : ℝ) : EReal)

/-- The causal mask: key positions after the query position sit at −∞. -/
def masked (b : Fin 4) (t s : Fin 4096) : EReal :=
  if s.val ≤ t.val then logit x wq wk b t s else ⊥

/-- The row's largest masked logit. -/
def rowMax (b : Fin 4) (t : Fin 4096) : EReal :=
  Finset.univ.sup fun s : Fin 4096 => masked x wq wk b t s

/-- The unnormalised weight of key position `s`. -/
def weight (b : Fin 4) (t s : Fin 4096) : EReal :=
  Ideal.exp (masked x wq wk b t s - rowMax x wq wk b t)

/-- The row's sum of weights. -/
def rowSum (b : Fin 4) (t : Fin 4096) : EReal :=
  ∑ s : Fin 4096, weight x wq wk b t s

/-- Causal attention at one output entry. -/
def attn (b : Fin 4) (t : Fin 4096) (d : Fin 128) : EReal :=
  ∑ s : Fin 4096, Ideal.div (weight x wq wk b t s) (rowSum x wq wk b t) * proj x wv b s d

end Cert.AttnSpec

end
-- ==== Proof.RefProj.lean ====
/-
  The reference's first stages read at an index: each of the three projections is the row-by-column sum,
  the score before scaling is the inner product of a query row and a key row, the scale is the square root
  of 1024, which is 32, and the scaled score is the specification's logit.
-/
import proofs.«155321_j4011499454905_2_alg».proof.Proof.Gen.ReferenceIdeal.Read
import proofs.«155321_j4011499454905_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.AttnSpec (proj logit masked rowMax weight rowSum attn)

variable (x : FVec Ideal S4x4096x1024 .f32) (w wq wk wv : FVec Ideal S1024x128 .f32)

/-! ## The projections -/

/-- The input's index met by output entry (b, t, ·) at contraction coordinate k. -/
theorem lidx_proj (b : Fin 4) (t : Fin 4096) (d : Fin 128) (k : Fin 1024) :
    lidx_main_v0 (ix3 b t d) k = ix3 b t k :=
  funext fun a => Fin.ext (by match a with | ⟨0, _⟩ => rfl | ⟨1, _⟩ => rfl | ⟨2, _⟩ => rfl)

/-- The matrix's index met by output entry (·, ·, d) at contraction coordinate k. -/
theorem ridx_proj (b : Fin 4) (t : Fin 4096) (d : Fin 128) (k : Fin 1024) :
    ridx_main_v0 (ix3 b t d) k = ix2 k d :=
  funext fun a => Fin.ext (by match a with | ⟨0, _⟩ => rfl | ⟨1, _⟩ => rfl)

/-- A projection at (b, t, d) is row (b, t) of the input times column d of the matrix. -/
theorem v0_at (b : Fin 4) (t : Fin 4096) (d : Fin 128) :
    val_main_v0 (F := Ideal) x w (ix3 b t d) = proj x w b t d := by
  rw [val_main_v0_apply]
  unfold Cert.AttnSpec.proj
  refine Finset.sum_congr rfl fun k _ => ?_
  rw [lidx_proj, ridx_proj]

/-- The key projection is the same operation on the second matrix. -/
theorem v1_at (b : Fin 4) (t : Fin 4096) (d : Fin 128) :
    val_main_v1 (F := Ideal) x w (ix3 b t d) = proj x w b t d := v0_at x w b t d

/-- The value projection is the same operation on the third matrix. -/
theorem v2_at (b : Fin 4) (t : Fin 4096) (d : Fin 128) :
    val_main_v2 (F := Ideal) x w (ix3 b t d) = proj x w b t d := v0_at x w b t d

/-! ## The scores -/

theorem lidx_score (b : Fin 4) (t s : Fin 4096) (k : Fin 128) :
    lidx_main_v3 (ix3 b t s) k = ix3 b t k :=
  funext fun a => Fin.ext (by match a with | ⟨0, _⟩ => rfl | ⟨1, _⟩ => rfl | ⟨2, _⟩ => rfl)

theorem ridx_score (b : Fin 4) (t s : Fin 4096) (k : Fin 128) :
    ridx_main_v3 (ix3 b t s) k = ix3 b s k :=
  funext fun a => Fin.ext (by match a with | ⟨0, _⟩ => rfl | ⟨1, _⟩ => rfl | ⟨2, _⟩ => rfl)

/-- The unscaled score at (b, t, s) is the inner product of query row t and key row s. -/
theorem v3_at (b : Fin 4) (t s : Fin 4096) :
    val_main_v3 (F := Ideal) x wq wk (ix3 b t s) = ∑ d : Fin 128, proj x wq b t d * proj x wk b s d := by
  rw [val_main_v3_apply]
  refine Finset.sum_congr rfl fun k _ => ?_
  rw [lidx_score, ridx_score, v0_at, v1_at]

/-! ## The scale -/

/-- The pattern 0x44800000 is the real 1024. -/
theorem ofBits_1024 : Ideal.ofBits .f32 0x44800000#32 = ((1024 : ℝ) : EReal) := by
  simp [Ideal.ofBits, Ideal.ieee]
  rw [← EReal.coe_mul]; norm_num

/-- The square root of 1024 is 32. -/
theorem sqrt_1024 : Ideal.sqrt ((1024 : ℝ) : EReal) = ((32 : ℝ) : EReal) := by
  rw [Ideal.sqrt_coe, if_neg (by norm_num)]
  have e : Real.sqrt 1024 = 32 := by
    rw [show (1024 : ℝ) = 32 ^ 2 by norm_num]
    exact Real.sqrt_sq (by norm_num)
  rw [e]

/-- The broadcast divisor is 32 everywhere. -/
theorem v5_at (i : S4x4096x4096.Idx) : val_main_v5 (F := Ideal) i = ((32 : ℝ) : EReal) := by
  rw [val_main_v5_apply, val_main_v4_apply, val_main_cst_apply, Ideal.hostUnary_sqrt_def, Ideal.ofBits_def,
    ofBits_1024, sqrt_1024]

/-- The scaled score is the specification's logit. -/
theorem v6_at (b : Fin 4) (t s : Fin 4096) :
    val_main_v6 (F := Ideal) x wq wk (ix3 b t s) = logit x wq wk b t s := by
  rw [val_main_v6_apply, v3_at, v5_at, Ideal.hostDivf_def]
  rfl

end Cert.ReferenceIdeal.RefValue

end
-- ==== Proof.RefMask.lean ====
/-
  The causal mask of the reference read at an index: the lower-triangular predicate at (t, s) is the word 1
  exactly when key position s does not exceed query position t, and the masked score is the specification's:
  the logit on and below the diagonal, −∞ above it.
-/
import proofs.«155321_j4011499454905_2_alg».proof.Proof.RefProj
import Idealize.ShloMosaic.Lib.WordArith
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx
open Cert.AttnSpec (proj logit masked rowMax weight rowSum attn)

variable (x : FVec Ideal S4x4096x1024 .f32) (wq wk : FVec Ideal S1024x128 .f32)

/-- The pattern 0xFF800000 is −∞. -/
theorem ofBits_neg_inf : Ideal.ofBits .f32 0xFF800000#32 = (⊥ : EReal) := by
  simp [Ideal.ofBits, Ideal.ieee]

/-- Row index plus zero compared signed against the column index, for positions below 4096, is the order of the positions. -/
theorem causal_word (t s : Fin 4096) :
    IntOp.cmpi .sge (IntOp.addi (BitVec.ofNat 32 t.val) 0#32) (BitVec.ofNat 32 s.val)
      = if s.val ≤ t.val then 1#1 else 0#1 := by
  have ht := t.isLt
  have hs := s.isLt
  have e : IntOp.addi (BitVec.ofNat 32 t.val) 0#32 = BitVec.ofNat 32 t.val := by
    show BitVec.ofNat 32 t.val + 0#32 = _; exact BitVec.add_zero _
  rw [e]
  by_cases h : s.val ≤ t.val
  · rw [if_pos h, IntOp.cmpi_sge, WordArith.toInt_ofNat_small _ (by omega), WordArith.toInt_ofNat_small _ (by omega)]
    exact_mod_cast h
  · rw [if_neg h]
    refine eq_zero_of_ne_one fun hc => h ?_
    rw [IntOp.cmpi_sge, WordArith.toInt_ofNat_small _ (by omega), WordArith.toInt_ofNat_small _ (by omega)] at hc
    exact_mod_cast hc

/-- The lower-triangular predicate at (t, s). -/
theorem tril_at (t s : Fin 4096) :
    val_main_v8 (F := Ideal) (ix2 t s) = if s.val ≤ t.val then 1#1 else 0#1 := by
  rw [val_main_v8_apply, val_main_call0_v4_apply, val_main_call0_v2_apply, val_main_call0_v0_apply,
    val_main_call0_v1_apply, val_main_call0_c_apply, val_main_call0_v3_apply, val_main_v7_apply, val_main_c_apply,
    val_main_call0_v5_apply, val_main_call0_c_0_apply]
  show Scalar.select (IntOp.cmpi .sge (IntOp.addi (BitVec.ofNat 32 t.val) 0#32) (BitVec.ofNat 32 s.val)) 1#1 0#1 = _
  rw [causal_word]
  by_cases h : s.val ≤ t.val
  · rw [if_pos h]; rfl
  · rw [if_neg h]; rfl

/-- The predicate broadcast over the batches reads the (t, s) entry. -/
theorem idx_mask (b : Fin 4) (t s : Fin 4096) : idx_main_call1_v1 (ix3 b t s) = ix2 t s :=
  funext fun a => Fin.ext (by match a with | ⟨0, _⟩ => rfl | ⟨1, _⟩ => rfl)

/-- The masked score is the specification's. -/
theorem v9_at (b : Fin 4) (t s : Fin 4096) :
    val_main_v9 (F := Ideal) x wq wk (ix3 b t s) = masked x wq wk b t s := by
  rw [val_main_v9_apply, val_main_call1_v1_apply, idx_mask, tril_at, v6_at, val_main_call1_v2_apply,
    val_main_call1_v0_apply, val_main_cst_0_apply, Ideal.ofBits_def, ofBits_neg_inf]
  unfold Cert.AttnSpec.masked
  by_cases h : s.val ≤ t.val
  · rw [if_pos h, if_pos h]; rfl
  · rw [if_neg h, if_neg h]; rfl

end Cert.ReferenceIdeal.RefValue

end
-- ==== Proof.RefSoftmax.lean ====
/-
  The reference's softmax read at an index: the reduction by maximum from −∞ over the key axis is the row's
  largest masked score; the exponentials of the differences are the specification's weights; the float sum
  over the key axis is the row sum; the quotient is the normalised weight.
-/
import proofs.«155321_j4011499454905_2_alg».proof.Proof.RefMask

noncomputable section

namespace Cert.ReferenceIdeal.RefValue

open Cert.ReferenceIdeal Cert.ReferenceIdeal.Gen Cert.ReferenceIdeal.Read Idealize.ShloMosaic Idealize.ShloMosaic.ValueIdx
open Cert.AttnSpec (proj logit masked rowMax weight rowSum attn)

variable (x : FVec Ideal S4x4096x1024 .f32) (wq wk : FVec Ideal S1024x128 .f32)

/-! ## The row maximum -/

/-- Dropping the key axis of the score shape leaves the (batch, query) shape. -/
theorem reduces_keys : S4x4096x4096.Reduces [2] S4x4096 := by decide

/-- The (batch, query) index with key coordinate k put back. -/
theorem lift_keys (b : Fin 4) (t : Fin 4096) (k : Fin (S4x4096x4096.size 2)) :
    reduces_keys.lift (ix2 b t) k = ix3 b t (⟨k.val, k.isLt⟩ : Fin 4096) := by
  funext c; apply Fin.ext
  fin_cases c <;> rfl

/-- A fold by maximum from −∞ over a finite type is the supremum. -/
theorem fold_max_bot {ι : Type} [Fintype ι] (f : ι → EReal) :
    (Finset.univ : Finset ι).fold (FloatOps.maximumf (F := Ideal) (φ := .f32)) (⊥ : EReal) f = Finset.univ.sup f := rfl

/-- The reduction by maximum over the key axis at (b, t) is the largest masked score of the row. -/
theorem v10_at (b : Fin 4) (t : Fin 4096) :
    val_main_v10 (F := Ideal) x wq wk (ix2 b t) = rowMax x wq wk b t := by
  unfold val_main_v10
  rw [Host.reduce_eq_fold_single FloatOps.maximumf _ _ reducesTo_S4x4096x4096_S4x4096_d2 reduces_keys h_S_]
  rw [val_main_cst_1_apply, Ideal.ofBits_def, ofBits_neg_inf, fold_max_bot]
  unfold Cert.AttnSpec.rowMax
  have e : (val_main_v9 (F := Ideal) x wq wk ∘ reduces_keys.lift (ix2 b t))
      = fun s : Fin 4096 => masked x wq wk b t s := by
    funext s
    show val_main_v9 (F := Ideal) x wq wk (reduces_keys.lift (ix2 b t) s) = _
    rw [lift_keys]
    exact v9_at x wq wk b t s
  rw [e]
  rfl

/-- The (batch, query) index under the two keep-dimension broadcasts. -/
theorem idx_row (b : Fin 4) (t s : Fin 4096) : idx_main_v13 (idx_main_v14 (ix3 b t s)) = ix2 b t :=
  funext fun a => Fin.ext (by match a with | ⟨0, _⟩ => rfl | ⟨1, _⟩ => rfl)

/-- The maximum broadcast back over the key axis. -/
theorem v14_at (b : Fin 4) (t s : Fin 4096) :
    val_main_v14 (F := Ideal) x wq wk (ix3 b t s) = rowMax x wq wk b t := by
  rw [val_main_v14_apply, val_main_v13_apply, idx_row, val_main_v12_apply, val_main_v11_apply, val_main_cst_2_apply,
    v10_at, Ideal.ofBits_def, ofBits_neg_inf, Ideal.maximumf_def]
  exact max_bot_left _

/-! ## The weights -/

/-- The exponential of the masked score less the row maximum is the specification's weight. -/
theorem v16_at (b : Fin 4) (t s : Fin 4096) :
    val_main_v16 (F := Ideal) x wq wk (ix3 b t s) = weight x wq wk b t s := by
  rw [val_main_v16_apply, val_main_v15_apply, v9_at, v14_at, Ideal.hostUnary_exp_def, Ideal.subf_def]
  rfl

/-! ## The row sum -/

theorem idx_sum (b : Fin 4) (t k : Fin 4096) : idx_main_v17 (ix2 b t) k = ix3 b t k :=
  funext fun a => Fin.ext (by match a with | ⟨0, _⟩ => rfl | ⟨1, _⟩ => rfl | ⟨2, _⟩ => rfl)

/-- The float sum over the key axis from zero is the row's sum of weights. -/
theorem v17_at (b : Fin 4) (t : Fin 4096) :
    val_main_v17 (F := Ideal) x wq wk (ix2 b t) = rowSum x wq wk b t := by
  rw [val_main_v17_apply, val_main_cst_3_apply, Ideal.ofBits_def, Ideal.ofBits_zero_f32, zero_add]
  unfold Cert.AttnSpec.rowSum
  refine Finset.sum_congr rfl fun k _ => ?_
  rw [idx_sum, v16_at]

theorem idx_row' (b : Fin 4) (t s : Fin 4096) : idx_main_v18 (idx_main_v19 (ix3 b t s)) = ix2 b t :=
  funext fun a => Fin.ext (by match a with | ⟨0, _⟩ => rfl | ⟨1, _⟩ => rfl)

/-- The normalised weight. -/
theorem v20_at (b : Fin 4) (t s : Fin 4096) :
    val_main_v20 (F := Ideal) x wq wk (ix3 b t s)
      = Ideal.div (weight x wq wk b t s) (rowSum x wq wk b t) := by
  rw [val_main_v20_apply, v16_at, val_main_v19_apply, val_main_v18_apply, idx_row', v17_at, Ideal.hostDivf_def]

end Cert.ReferenceIdeal.RefValue

end
-- ==== Proof.RefValue.lean ====
/-
  The reference program's result as ONE function of its four arguments, equal entry by entry to the
  specification: the last contraction sums, over the key positions, the normalised weight times the value
  projection. And the reference's run restated with that function named.
-/
import proofs.«155321_j4011499454905_2_alg».proof.Proof.RefSoftmax
import proofs.«155321_j4011499454905_2_alg».proof.Proof.Gen.ReferenceIdeal.Run

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.AttnSpec (proj logit masked rowMax weight rowSum attn)

/-- The reference's result array as a function of the input rows and the three projection matrices. -/
def refOut (x : FVec Ideal S4x4096x1024 .f32) (wq wk wv : FVec Ideal S1024x128 .f32) : FVec Ideal S4x4096x128 .f32 :=
  val_main_v21 (F := Ideal) x wq wk wv

theorem lidx_out (b : Fin 4) (t : Fin 4096) (d : Fin 128) (k : Fin 4096) :
    lidx_main_v21 (ix3 b t d) k = ix3 b t k :=
  funext fun a => Fin.ext (by match a with | ⟨0, _⟩ => rfl | ⟨1, _⟩ => rfl | ⟨2, _⟩ => rfl)

theorem ridx_out (b : Fin 4) (t : Fin 4096) (d : Fin 128) (k : Fin 4096) :
    ridx_main_v21 (ix3 b t d) k = ix3 b k d :=
  funext fun a => Fin.ext (by match a with | ⟨0, _⟩ => rfl | ⟨1, _⟩ => rfl | ⟨2, _⟩ => rfl)

/-- The reference's result is the specification, entry by entry (no finiteness of the arguments is needed:
    the specification is written with the same conventions at the infinities). -/
theorem result_eq (x : FVec Ideal S4x4096x1024 .f32) (wq wk wv : FVec Ideal S1024x128 .f32)
    (b : Fin 4) (t : Fin 4096) (d : Fin 128) :
    refOut x wq wk wv (ix3 b t d) = attn x wq wk wv b t d := by
  unfold refOut
  rw [val_main_v21_apply]
  unfold Cert.AttnSpec.attn
  refine Finset.sum_congr rfl fun k _ => ?_
  rw [lidx_out, ridx_out, v20_at, v2_at]

/-- The same, as an equation of arrays. -/
theorem refOut_eq (x : FVec Ideal S4x4096x1024 .f32) (wq wk wv : FVec Ideal S1024x128 .f32) :
    refOut x wq wk wv = fun i => attn x wq wk wv (i 0) (i 1) (i 2) :=
  funext fun i => (congrArg (refOut x wq wk wv) (eq_ix3 i)).trans (result_eq x wq wk wv (i 0) (i 1) (i 2))

/-- Every weakly fair execution of the reference terminates with its result array at `refOut` of the
    arguments' launch contents and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v21_eq m c), (h c).2⟩)
    (Cert.ReferenceIdeal.Value.run (F := Ideal) m ρ)

end Cert.ReferenceIdeal.RefValue

end
-- ==== Proof.OnlineSoftmaxAux.lean ====
import Mathlib.Data.EReal.Inv
import Mathlib.Analysis.SpecialFunctions.Exp
import Mathlib.Algebra.BigOperators.Group.Finset.Basic
import Mathlib.Algebra.Order.BigOperators.Group.Finset
import Idealize.ShloMosaic.PureOps.Ideal

/-! Extended-real arithmetic for the online softmax: a nonnegative real factor distributes over any finite sum;
the weight exp (x - M) of a logit x (a real, or ⊥ where masked) against a real maximum M is a nonnegative real;
moving the maximum rescales every weight by one common factor; the maximum over finitely many blocks is a real
and the sum of all weights against it is a positive real. -/

namespace Cert.OnlineSoftmax
open Idealize.ShloMosaic

noncomputable section

variable {J : Type} [Fintype J]

/-! ### Sums of extended reals -/

/-- a nonnegative real factor distributes over a finite sum of extended reals, whatever the summands -/
theorem coe_mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- a finite sum of reals, read in the extended reals -/
theorem coe_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-! ### One weight -/

/-- the weight of a logit against a real maximum, as a real number: 0 for a masked logit -/
def wt (x : EReal) (M : ℝ) : ℝ := (Ideal.exp (x - (M : EReal))).toReal

theorem wt_bot (M : ℝ) : wt ⊥ M = 0 := by
  rw [wt, EReal.bot_sub, Ideal.exp_bot, EReal.toReal_zero]

theorem wt_coe (r M : ℝ) : wt (r : EReal) M = Real.exp (r - M) := by
  rw [wt, ← EReal.coe_sub, Ideal.exp_coe, EReal.toReal_coe]

theorem wt_nonneg (x : EReal) (hx : x = ⊥ ∨ ∃ r : ℝ, x = (r : EReal)) (M : ℝ) : 0 ≤ wt x M := by
  rcases hx with rfl | ⟨r, rfl⟩
  · rw [wt_bot]
  · rw [wt_coe]; exact (Real.exp_pos _).le

/-- the weight of a logit that is real or masked is the real number wt -/
theorem exp_sub_coe (x : EReal) (hx : x = ⊥ ∨ ∃ r : ℝ, x = (r : EReal)) (M : ℝ) :
    Ideal.exp (x - (M : EReal)) = ((wt x M : ℝ) : EReal) := by
  rcases hx with rfl | ⟨r, rfl⟩
  · rw [wt_bot, EReal.bot_sub, Ideal.exp_bot, EReal.coe_zero]
  · rw [wt_coe, ← EReal.coe_sub, Ideal.exp_coe]

/-- moving the maximum from M to M' multiplies every weight by exp (M - M') -/
theorem exp_rescale (x : EReal) (hx : x = ⊥ ∨ ∃ r : ℝ, x = (r : EReal)) (M M' : ℝ) :
    Ideal.exp ((M : EReal) - (M' : EReal)) * Ideal.exp (x - (M : EReal)) = Ideal.exp (x - (M' : EReal)) := by
  rcases hx with rfl | ⟨r, rfl⟩
  · rw [EReal.bot_sub, EReal.bot_sub, Ideal.exp_bot, mul_zero]
  · rw [← EReal.coe_sub, ← EReal.coe_sub, ← EReal.coe_sub, Ideal.exp_coe, Ideal.exp_coe, Ideal.exp_coe,
      ← EReal.coe_mul, ← Real.exp_add]
    congr 2; ring

/-! ### The maximum and the sum over all blocks so far -/

/-- the largest logit among the first n+1 blocks -/
def gmax (s : ℕ → J → EReal) (n : ℕ) : EReal :=
  (Finset.range (n + 1)).sup fun i => Finset.univ.sup (s i)

/-- the sum of all weights of the first n+1 blocks against a maximum -/
def gsum (s : ℕ → J → EReal) (n : ℕ) (M : EReal) : EReal :=
  ∑ i ∈ Finset.range (n + 1), ∑ j, Ideal.exp (s i j - M)

theorem gmax_zero (s : ℕ → J → EReal) : gmax s 0 = Finset.univ.sup (s 0) := by
  rw [gmax, Finset.range_one, Finset.sup_singleton]

theorem gmax_succ (s : ℕ → J → EReal) (n : ℕ) :
    gmax s (n + 1) = max (gmax s n) (Finset.univ.sup (s (n + 1))) := by
  rw [gmax, Finset.range_add_one, Finset.sup_insert, sup_comm]; rfl

/-- with every logit real or masked and one real logit in block 0, the maximum is a real number -/
theorem gmax_real (s : ℕ → J → EReal) (n : ℕ)
    (hs : ∀ i ≤ n, ∀ j, s i j = ⊥ ∨ ∃ r : ℝ, s i j = (r : EReal))
    (h0 : ∃ j, ∃ r : ℝ, s 0 j = (r : EReal)) :
    ∃ M : ℝ, gmax s n = (M : EReal) := by
  have hbot : gmax s n ≠ ⊥ := by
    obtain ⟨j, r, hr⟩ := h0
    have h1 : s 0 j ≤ gmax s n :=
      le_trans (Finset.le_sup (f := s 0) (Finset.mem_univ j))
        (Finset.le_sup (f := fun i => Finset.univ.sup (s i)) (Finset.mem_range.mpr (Nat.succ_pos n)))
    intro h
    rw [h, hr] at h1
    exact absurd h1 (not_le.mpr (EReal.bot_lt_coe r))
  have htop : gmax s n ≠ ⊤ := by
    apply ne_of_lt
    rw [gmax, Finset.sup_lt_iff bot_lt_top]
    intro i hi
    rw [Finset.sup_lt_iff bot_lt_top]
    intro j _
    rcases hs i (Nat.lt_succ_iff.mp (Finset.mem_range.mp hi)) j with h | ⟨r, h⟩
    · rw [h]; exact bot_lt_top
    · rw [h]; exact EReal.coe_lt_top r
  exact ⟨(gmax s n).toReal, (EReal.coe_toReal htop hbot).symm⟩

/-- the sum of all weights against a real maximum is a positive real number -/
theorem gsum_pos (s : ℕ → J → EReal) (n : ℕ)
    (hs : ∀ i ≤ n, ∀ j, s i j = ⊥ ∨ ∃ r : ℝ, s i j = (r : EReal))
    (h0 : ∃ j, ∃ r : ℝ, s 0 j = (r : EReal)) (M : ℝ) :
    ∃ L : ℝ, 0 < L ∧ gsum s n (M : EReal) = (L : EReal) := by
  refine ⟨∑ i ∈ Finset.range (n + 1), ∑ j, wt (s i j) M, ?_, ?_⟩
  · obtain ⟨j0, r, hr⟩ := h0
    have hnn : ∀ i ∈ Finset.range (n + 1), 0 ≤ ∑ j, wt (s i j) M := fun i hi =>
      Finset.sum_nonneg fun j _ => wt_nonneg _ (hs i (Nat.lt_succ_iff.mp (Finset.mem_range.mp hi)) j) M
    have h00 : 0 < ∑ j, wt (s 0 j) M := by
      refine lt_of_lt_of_le ?_ (Finset.single_le_sum (f := fun j => wt (s 0 j) M)
        (fun j _ => wt_nonneg _ (hs 0 (Nat.zero_le n) j) M) (Finset.mem_univ j0))
      show 0 < wt (s 0 j0) M
      rw [hr, wt_coe]; exact Real.exp_pos _
    exact lt_of_lt_of_le h00 (Finset.single_le_sum (f := fun i => ∑ j, wt (s i j) M) hnn
      (Finset.mem_range.mpr (Nat.succ_pos n)))
  · rw [gsum, ← coe_sum]
    refine Finset.sum_congr rfl fun i hi => ?_
    rw [← coe_sum]
    refine Finset.sum_congr rfl fun j _ => ?_
    exact exp_sub_coe _ (hs i (Nat.lt_succ_iff.mp (Finset.mem_range.mp hi)) j) M

end

end Cert.OnlineSoftmax
-- ==== Proof.OnlineSoftmax.lean ====
import proofs.«155321_j4011499454905_2_alg».proof.Proof.OnlineSoftmaxAux

/-! The online softmax: a row's maximum, sum of exponentials and weighted sums are carried block of keys by
block of keys, each block rescaling what came before by the exponential of the change of maximum. After any
number of blocks the quotient of the weighted sums by the sum of exponentials is the softmax-weighted sum over
every key seen so far. -/

namespace Cert.OnlineSoftmax
open Idealize.ShloMosaic

noncomputable section

variable {J D : Type} [Fintype J] [Fintype D]

/-- one row's running state: maximum, sum of exponentials, weighted sums per feature -/
structure St (D : Type) where
  m : EReal
  l : EReal
  acc : D → EReal

def St.init : St D := ⟨⊥, 0, fun _ => 0⟩

/-- one block of keys: logits s j (real, or ⊥ where masked), value rows v j d -/
def St.upd (s : J → EReal) (v : J → D → EReal) (st : St D) : St D :=
  let m' := max st.m (Finset.univ.sup s)
  ⟨m', Ideal.exp (st.m - m') * st.l + ∑ j, Ideal.exp (s j - m'),
   fun d => Ideal.exp (st.m - m') * st.acc d + ∑ j, Ideal.exp (s j - m') * v j d⟩

/-- the state after the first n blocks -/
def run (s : ℕ → J → EReal) (v : ℕ → J → D → EReal) : ℕ → St D
  | 0 => St.init
  | n + 1 => (run s v n).upd (s n) (v n)

/-- The invariant. After n+1 blocks the maximum is the maximum of every logit so far, the sum is the sum of
    every weight against that maximum, and each weighted sum is the sum of every weight times its value. The
    first block starts from sum 0 and weighted sums 0, so its rescaling factor does not matter; every later
    block rescales by the exponential of a difference of two reals. -/
theorem run_inv (s : ℕ → J → EReal) (v : ℕ → J → D → EReal) (n : ℕ)
    (hs : ∀ i ≤ n, ∀ j, s i j = ⊥ ∨ ∃ r : ℝ, s i j = (r : EReal))
    (h0 : ∃ j, ∃ r : ℝ, s 0 j = (r : EReal)) :
    (run s v (n + 1)).m = gmax s n ∧ (run s v (n + 1)).l = gsum s n (gmax s n) ∧
      ∀ d, (run s v (n + 1)).acc d
        = ∑ i ∈ Finset.range (n + 1), ∑ j, Ideal.exp (s i j - gmax s n) * v i j d := by
  induction n with
  | zero =>
    have hm : (run s v 1).m = gmax s 0 := by
      show max ⊥ (Finset.univ.sup (s 0)) = _
      rw [gmax_zero]; exact max_eq_right bot_le
    refine ⟨hm, ?_, fun d => ?_⟩
    · show Ideal.exp (⊥ - (run s v 1).m) * 0 + ∑ j, Ideal.exp (s 0 j - (run s v 1).m) = _
      rw [mul_zero, zero_add, gsum, Finset.sum_range_one, hm]
    · show Ideal.exp (⊥ - (run s v 1).m) * 0 + ∑ j, Ideal.exp (s 0 j - (run s v 1).m) * v 0 j d = _
      rw [mul_zero, zero_add, Finset.sum_range_one, hm]
  | succ n ih =>
    have hs' : ∀ i ≤ n, ∀ j, s i j = ⊥ ∨ ∃ r : ℝ, s i j = (r : EReal) :=
      fun i hi => hs i (Nat.le_succ_of_le hi)
    obtain ⟨hm, hl, hacc⟩ := ih hs'
    obtain ⟨a, ha⟩ := gmax_real s n hs' h0
    obtain ⟨b, hb⟩ := gmax_real s (n + 1) hs h0
    have hm' : (run s v (n + 1 + 1)).m = gmax s (n + 1) := by
      show max (run s v (n + 1)).m (Finset.univ.sup (s (n + 1))) = _
      rw [hm, gmax_succ]
    have hc : Ideal.exp ((run s v (n + 1)).m - (run s v (n + 1 + 1)).m) = ((Real.exp (a - b) : ℝ) : EReal) := by
      rw [hm', hm, ha, hb, ← EReal.coe_sub, Ideal.exp_coe]
    have hresc : ∀ i ∈ Finset.range (n + 1), ∀ j,
        ((Real.exp (a - b) : ℝ) : EReal) * Ideal.exp (s i j - (a : EReal)) = Ideal.exp (s i j - (b : EReal)) := by
      intro i hi j
      have h := exp_rescale (s i j) (hs' i (Nat.lt_succ_iff.mp (Finset.mem_range.mp hi)) j) a b
      rwa [← EReal.coe_sub, Ideal.exp_coe] at h
    refine ⟨hm', ?_, fun d => ?_⟩
    · show Ideal.exp ((run s v (n + 1)).m - (run s v (n + 1 + 1)).m) * (run s v (n + 1)).l
          + ∑ j, Ideal.exp (s (n + 1) j - (run s v (n + 1 + 1)).m) = _
      rw [hc, hl, hm', ha, hb, gsum, gsum, Finset.sum_range_succ _ (n + 1),
        coe_mul_sum _ (Real.exp_pos _).le]
      congr 1
      refine Finset.sum_congr rfl fun i hi => ?_
      rw [coe_mul_sum _ (Real.exp_pos _).le]
      exact Finset.sum_congr rfl fun j _ => hresc i hi j
    · show Ideal.exp ((run s v (n + 1)).m - (run s v (n + 1 + 1)).m) * (run s v (n + 1)).acc d
          + ∑ j, Ideal.exp (s (n + 1) j - (run s v (n + 1 + 1)).m) * v (n + 1) j d = _
      rw [hc, hacc d, hm', ha, hb, Finset.sum_range_succ _ (n + 1), coe_mul_sum _ (Real.exp_pos _).le]
      congr 1
      refine Finset.sum_congr rfl fun i hi => ?_
      rw [coe_mul_sum _ (Real.exp_pos _).le]
      refine Finset.sum_congr rfl fun j _ => ?_
      rw [← mul_assoc, hresc i hi j]

/-- after n+1 blocks the running maximum is the maximum M of every logit so far -/
theorem run_m (s : ℕ → J → EReal) (v : ℕ → J → D → EReal) (n : ℕ)
    (hs : ∀ i ≤ n, ∀ j, s i j = ⊥ ∨ ∃ r : ℝ, s i j = (r : EReal))
    (h0 : ∃ j, ∃ r : ℝ, s 0 j = (r : EReal)) :
    let M : EReal := (Finset.range (n + 1)).sup fun i => Finset.univ.sup (s i)
    (run s v (n + 1)).m = M :=
  (run_inv s v n hs h0).1

/-- after n+1 blocks the running sum is the sum L of every weight against M -/
theorem run_l (s : ℕ → J → EReal) (v : ℕ → J → D → EReal) (n : ℕ)
    (hs : ∀ i ≤ n, ∀ j, s i j = ⊥ ∨ ∃ r : ℝ, s i j = (r : EReal))
    (h0 : ∃ j, ∃ r : ℝ, s 0 j = (r : EReal)) :
    let M : EReal := (Finset.range (n + 1)).sup fun i => Finset.univ.sup (s i)
    let L : EReal := ∑ i ∈ Finset.range (n + 1), ∑ j, Ideal.exp (s i j - M)
    (run s v (n + 1)).l = L :=
  (run_inv s v n hs h0).2.1

/-- after n+1 blocks each weighted sum is the sum of every weight against M times its value -/
theorem run_acc (s : ℕ → J → EReal) (v : ℕ → J → D → EReal) (n : ℕ)
    (hs : ∀ i ≤ n, ∀ j, s i j = ⊥ ∨ ∃ r : ℝ, s i j = (r : EReal))
    (h0 : ∃ j, ∃ r : ℝ, s 0 j = (r : EReal)) (d : D) :
    let M : EReal := (Finset.range (n + 1)).sup fun i => Finset.univ.sup (s i)
    (run s v (n + 1)).acc d = ∑ i ∈ Finset.range (n + 1), ∑ j, Ideal.exp (s i j - M) * v i j d :=
  (run_inv s v n hs h0).2.2 d

/-- M is a real number -/
theorem max_real (s : ℕ → J → EReal) (n : ℕ)
    (hs : ∀ i ≤ n, ∀ j, s i j = ⊥ ∨ ∃ r : ℝ, s i j = (r : EReal))
    (h0 : ∃ j, ∃ r : ℝ, s 0 j = (r : EReal)) :
    ∃ M : ℝ, ((Finset.range (n + 1)).sup fun i => Finset.univ.sup (s i)) = (M : EReal) :=
  gmax_real s n hs h0

/-- L is a positive real number -/
theorem sum_pos_real (s : ℕ → J → EReal) (n : ℕ)
    (hs : ∀ i ≤ n, ∀ j, s i j = ⊥ ∨ ∃ r : ℝ, s i j = (r : EReal))
    (h0 : ∃ j, ∃ r : ℝ, s 0 j = (r : EReal)) :
    let M : EReal := (Finset.range (n + 1)).sup fun i => Finset.univ.sup (s i)
    ∃ L : ℝ, 0 < L ∧ ∑ i ∈ Finset.range (n + 1), ∑ j, Ideal.exp (s i j - M) = (L : EReal) := by
  intro M
  obtain ⟨a, ha⟩ := gmax_real s n hs h0
  have hM : M = (a : EReal) := ha
  rw [hM]
  exact gsum_pos s n hs h0 a

/-- THE LAW. Every logit a real or ⊥, block 0 has a real logit, every value a real. Then after n+1 blocks the
    quotient acc/l is the softmax-weighted sum over ALL (block, key) pairs, with the global maximum M and the
    global sum L: dividing by the positive real L is multiplying by the nonnegative real 1/L, which
    distributes over the double sum. -/
theorem run_quot (s : ℕ → J → EReal) (v : ℕ → J → D → EReal) (n : ℕ)
    (hs : ∀ i ≤ n, ∀ j, s i j = ⊥ ∨ ∃ r : ℝ, s i j = (r : EReal))
    (h0 : ∃ j, ∃ r : ℝ, s 0 j = (r : EReal))
    (hv : ∀ i ≤ n, ∀ j d, ∃ r : ℝ, v i j d = (r : EReal)) (d : D) :
    let M : EReal := (Finset.range (n + 1)).sup fun i => Finset.univ.sup (s i)
    let L : EReal := ∑ i ∈ Finset.range (n + 1), ∑ j, Ideal.exp (s i j - M)
    Ideal.div ((run s v (n + 1)).acc d) ((run s v (n + 1)).l)
      = ∑ i ∈ Finset.range (n + 1), ∑ j, Ideal.div (Ideal.exp (s i j - M)) L * v i j d := by
  intro M L
  obtain ⟨_, hl, hacc⟩ := run_inv s v n hs h0
  obtain ⟨a, ha⟩ := gmax_real s n hs h0
  obtain ⟨Lr, hLpos, hL⟩ := gsum_pos s n hs h0 a
  have hM : M = (a : EReal) := ha
  have hLL : L = (Lr : EReal) := by
    show gsum s n M = _
    rw [hM, hL]
  have hc : (0 : ℝ) ≤ 1 / Lr := (one_div_pos.mpr hLpos).le
  rw [hl, hacc d]
  show Ideal.div (∑ i ∈ Finset.range (n + 1), ∑ j, Ideal.exp (s i j - M) * v i j d) L = _
  rw [hLL, Ideal.div_coe hLpos.ne', mul_comm _ ((1 / Lr : ℝ) : EReal), coe_mul_sum _ hc]
  refine Finset.sum_congr rfl fun i _ => ?_
  rw [coe_mul_sum _ hc]
  refine Finset.sum_congr rfl fun j _ => ?_
  rw [Ideal.div_coe hLpos.ne', mul_comm (Ideal.exp (s i j - M)) ((1 / Lr : ℝ) : EReal), mul_assoc]

end

end Cert.OnlineSoftmax
-- ==== Proof.AttnReads.lean ====
/-
  Reading the layout operations and the two row reductions of an attention tile at an index.

  A column is an [n, 1] array. A vector of length n re-laid as a column reads the vector; a column repeated along
  the columns of an [n, b] array reads the column's one entry of that row. The product of an m×k by a k×n matrix
  accumulated into the zero splat is the sum over the contracted coordinate, for any record of dimension numbers
  that says "contract axis 1 of the left with axis 0 of the right". The sum of each row of a matrix from the zero
  word is the sum over the row's coordinates; the maximum of each row from the word of −∞ is the supremum of the row.
  All of it holds on the extended reals with no side condition.
-/
import Idealize.ShloMosaic.PureOps.Ideal.Laws
import Idealize.ShloMosaic.Lib.ValueLayout
import Idealize.ShloMosaic.Lib.StackMember

noncomputable section

open scoped BigOperators

namespace Cert.KernelIdeal.HandValue

open Idealize.ShloMosaic Idealize.ShloMosaic.ValueIdx

variable {α : Type}

/-- [n] → [n, 1]: entry (p, 0) is entry p. -/
theorem column_of_vector_apply {n : ℕ} (x : (⟨1, ![n]⟩ : Shape).Idx → α)
    (h : (⟨1, ![n]⟩ : Shape).ShapeCasts ⟨2, ![n, 1]⟩) (p : Fin n) :
    shapeCast ⟨2, ![n, 1]⟩ x h (ix2 p (0 : Fin 1)) = x (ix1 p) :=
  shapeCast_apply x h _ _ (by
    rw [Shape.rowMajor_val_two, Shape.rowMajor_val_one]
    show p.val = p.val * 1 + 0
    rw [Nat.mul_one, Nat.add_zero])

/-- [n, 1] → [n, b]: entry (p, c) is the column's entry (p, 0). -/
theorem column_repeat_apply {n b : ℕ} (v : (⟨2, ![n, 1]⟩ : Shape).Idx → α)
    (h : (⟨2, ![n, 1]⟩ : Shape).Broadcasts ⟨2, ![n, b]⟩) (p : Fin n) (c : Fin b) :
    broadcastTo ⟨2, ![n, b]⟩ v h (ix2 p c) = v (ix2 p (0 : Fin 1)) :=
  broadcastTo_apply v h (ix2 p c) (ix2 p (0 : Fin 1)) (fun ax => by
    match ax with
    | ⟨0, _⟩ =>
      show p.val = if n = 1 then 0 else p.val
      split
      · have := p.isLt; omega
      · rfl
    | ⟨1, _⟩ => rfl)

/-- A product with plain dimension numbers into the zero splat, at entry (a, b): the sum over the contracted
    coordinate c of A(a, c)·B(c, b). -/
theorem product_zero_apply {m k n : ℕ} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b)
      = ∑ c : Fin k, A (ix2 a c) * B (ix2 c b) := by
  subst hD
  rw [matmul_zero_eq_dotGeneral]
  exact StackMember.dotGeneral_plain_apply prec A B a b

/-- The f32 word of −∞ denotes ⊥. -/
theorem ofBits_neg_inf_f32 : Ideal.ofBits .f32 0xFF800000#32 = ⊥ := by
  simp [Ideal.ofBits, Ideal.ieee]

/-- The f32 word of 1/32 denotes the number 1/32. -/
theorem ofBits_inv32_f32 : Ideal.ofBits .f32 0x3D000000#32 = ((1 / 32 : ℝ) : EReal) := by
  simp [Ideal.ofBits, Ideal.ieee, -EReal.coe_mul]; norm_num

/-- The sum of each row of an [n, b] matrix, from the zero word: at row p, the sum over the row. -/
theorem row_sum_apply {n b : ℕ} (src : FVec Ideal ⟨2, ![n, b]⟩ .f32)
    (h : (⟨2, ![n, b]⟩ : Shape).Reduces [1] ⟨1, ![n]⟩) (hφ : FKind.Formats .f32)
    (hacc : (0x00000000#32 : BitVec 32) = FKind.add.neutral .f32 hφ) (p : Fin n) :
    multiReduction .add [1] ⟨1, ![n]⟩ src 0x00000000#32 h hφ hacc (ix1 p) = ∑ c : Fin b, src (ix2 p c) := by
  refine (Ideal.multiReduction_add_single src 0x00000000#32 h hφ hacc (ix1 p)).trans ?_
  refine Finset.sum_congr rfl fun c _ => ?_
  have e : h.lift (ix1 p) c = ix2 p c := funext fun a => Fin.ext (by
    match a with
    | ⟨0, _⟩ => rfl
    | ⟨1, _⟩ => rfl)
  exact congrArg src e

/-- The maximum of each row of an [n, b] matrix, from the word of −∞: at row p, the supremum of the row. -/
theorem row_max_apply {n b : ℕ} (src : FVec Ideal ⟨2, ![n, b]⟩ .f32)
    (h : (⟨2, ![n, b]⟩ : Shape).Reduces [1] ⟨1, ![n]⟩) (hφ : FKind.Formats .f32)
    (hacc : (0xFF800000#32 : BitVec 32) = FKind.maximumf.neutral .f32 hφ) (p : Fin n) :
    multiReduction .maximumf [1] ⟨1, ![n]⟩ src 0xFF800000#32 h hφ hacc (ix1 p)
      = Finset.univ.sup fun c : Fin b => src (ix2 p c) := by
  refine (Ideal.multiReduction_maximumf_single src 0xFF800000#32 h hφ hacc (ix1 p)).trans ?_
  have e : (src ∘ h.lift (ix1 p)) = fun c : Fin b => src (ix2 p c) := funext fun c => by
    show src (h.lift (ix1 p) c) = src (ix2 p c)
    refine congrArg src (funext fun a => Fin.ext ?_)
    match a with
    | ⟨0, _⟩ => rfl
    | ⟨1, _⟩ => rfl
  rw [e]
  show Finset.fold max (Ideal.ofBits .f32 0xFF800000#32) _ _ = _
  rw [ofBits_neg_inf_f32]
  rfl

end Cert.KernelIdeal.HandValue

end
-- ==== Proof.AttnConsts.lean ====
/-
  The reset state of the attention kernel, entry by entry: the running maximum is the named lower bound, which
  the certificate's table reads as −∞; the running sum and the running weighted sum are the zero word, the number 0.
-/
import proofs.«155321_j4011499454905_2_alg».proof.Proof.AttnStep
import Idealize.ShloMosaic.PureOps.IdealRules
import Idealize.ShloMosaic.PureOps.Ideal.Laws
import Idealize.ShloMosaic.Lib.ValueLayout

noncomputable section

namespace Cert.KernelIdeal.HandValue

open Idealize.ShloMosaic Idealize.ShloMosaic.ValueIdx Idealize.SL.Sem Cert.KernelIdeal Cert.KernelIdeal.Gen
  Cert.KernelIdeal.Hand

/-- The named lower bound is −∞ on the extended reals. -/
theorem neg_big_eq_bot : Named.named (F := Ideal) Cert.KernelIdeal.κ "neg_big" (φ := .f32) 0xFF333332#32 = (⊥ : EReal) :=
  IdealRules.named_const.ideal_named_scalar _ _ _ _ rfl

/-- After a reset the running maximum of every row is −∞. -/
theorem init_m (r : Fin 1024) : ((Scr.init (F := Ideal)).m (ix2 r (0 : Fin 1)) : EReal) = ⊥ := by
  show (k1_pay1 (F := Ideal) (ix2 r (0 : Fin 1)) : EReal) = ⊥
  unfold k1_pay1
  rw [shapeCast_self]
  exact neg_big_eq_bot

/-- After a reset the running sum of every row is 0. -/
theorem init_l (r : Fin 1024) : ((Scr.init (F := Ideal)).l (ix2 r (0 : Fin 1)) : EReal) = 0 := by
  show (k1_pay2 (F := Ideal) (ix2 r (0 : Fin 1)) : EReal) = 0
  unfold k1_pay2
  rw [shapeCast_self]
  exact Ideal.ofBits_zero_f32

/-- After a reset every entry of the running weighted sum is 0. -/
theorem init_acc (r : Fin 1024) (d : Fin 128) : ((Scr.init (F := Ideal)).acc (ix2 r d) : EReal) = 0 := by
  show (k1_pay3 (F := Ideal) (ix2 r d) : EReal) = 0
  unfold k1_pay3
  rw [shapeCast_self]
  exact Ideal.ofBits_zero_f32

end Cert.KernelIdeal.HandValue

end
-- ==== Proof.AttnLogits.lean ====
/-
  The logits of one attention tile, entry by entry. Entry (r, j) of the tile's logit matrix is the inner product of
  query row r with key row j over the 128 features, times the word of 1/32. On a diagonal tile the kernel keeps that
  entry where the query's global position (block · 1024 + r) is at least the key's (block · 1024 + j), compared as
  signed 32-bit words, and writes the named lower bound, −∞, elsewhere; with equal block numbers below 4 the
  comparison is j ≤ r.
-/
import proofs.«155321_j4011499454905_2_alg».proof.Proof.AttnStep
import proofs.«155321_j4011499454905_2_alg».proof.Proof.AttnReads
import proofs.«155321_j4011499454905_2_alg».proof.Proof.AttnConsts

noncomputable section

open scoped BigOperators

namespace Cert.KernelIdeal.HandValue

open Idealize.ShloMosaic Idealize.ShloMosaic.ValueIdx Idealize.SL.Sem Cert.KernelIdeal Cert.KernelIdeal.Gen
  Cert.KernelIdeal.Hand

/-- The scaled inner product of query row r and key row j of a tile. -/
def sc (q k : Vec Ideal S1x1024x128 .bf16) (r j : Fin 1024) : EReal :=
  (∑ e : Fin 128, (q (ix3 (0 : Fin 1) r e) : EReal) * k (ix3 (0 : Fin 1) j e)) * Ideal.ofBits .f32 0x3D000000#32

/-- The logit matrix of a tile below the diagonal. -/
theorem pay15_apply (q k : Vec Ideal S1x1024x128 .bf16) (r j : Fin 1024) :
    (k1_pay15 (F := Ideal) q k (ix2 r j) : EReal) = sc q k r j := by
  unfold k1_pay15 sc
  refine congrArg₂ (· * ·) ?_ rfl
  refine (product_zero_apply _ rfl none _ _ r j).trans ?_
  refine Finset.sum_congr rfl fun e _ => ?_
  exact congrArg₂ (· * ·) (shapeCast_1ab_ab_apply _ _ r e)
    ((transpose_ix2_apply _ _ e j).trans (shapeCast_1ab_ab_apply _ _ j e))

/-- The kernel's causal comparison of a diagonal tile, on words. -/
def maskWord (v1 v3 : BitVec 32) (r j : Fin 1024) : BitVec 1 :=
  IntOp.cmpi .sge (IntOp.addi (IntOp.muli v1 1024#32) (BitVec.ofNat 32 r.val))
    (IntOp.addi (IntOp.muli v3 1024#32) (BitVec.ofNat 32 j.val))

/-- With equal block numbers below 4 the comparison says: the key's row does not exceed the query's. -/
theorem maskWord_iff (v : BitVec 32) (hv : v.toNat < 4) (r j : Fin 1024) :
    maskWord v v r j = 1#1 ↔ j.val ≤ r.val := by
  have hr := r.isLt
  have hj := j.isLt
  unfold maskWord IntOp.cmpi IntOp.addi IntOp.muli
  show BitVec.ofBool ((v * 1024#32 + BitVec.ofNat 32 j.val).sle (v * 1024#32 + BitVec.ofNat 32 r.val)) = 1#1 ↔ _
  have ha : ∀ x : ℕ, x < 1024 → (v * 1024#32 + BitVec.ofNat 32 x).toInt = (v.toNat * 1024 + x : ℕ) := by
    intro x hx
    have h1 : (v * 1024#32 + BitVec.ofNat 32 x).toNat = v.toNat * 1024 + x := by
      rw [BitVec.toNat_add, BitVec.toNat_mul, BitVec.toNat_ofNat, BitVec.toNat_ofNat]
      omega
    rw [BitVec.toInt_eq_toNat_cond, h1]
    have : 2 * (v.toNat * 1024 + x) < 2 ^ 32 := by omega
    rw [if_pos this]
  rcases hb : (v * 1024#32 + BitVec.ofNat 32 j.val).sle (v * 1024#32 + BitVec.ofNat 32 r.val) with _ | _
  · have := hb
    rw [← Bool.not_eq_true, BitVec.sle_iff_toInt_le, ha _ hj, ha _ hr] at this
    constructor
    · intro h; exact absurd h (by decide)
    · intro h; exact absurd (by exact_mod_cast (by omega : v.toNat * 1024 + j.val ≤ v.toNat * 1024 + r.val)) this
  · have := hb
    rw [BitVec.sle_iff_toInt_le, ha _ hj, ha _ hr] at this
    constructor
    · intro _; have : v.toNat * 1024 + j.val ≤ v.toNat * 1024 + r.val := by exact_mod_cast this
      omega
    · intro _; rfl

/-- The logit matrix of a diagonal tile: the scaled inner product where the comparison holds, −∞ elsewhere. -/
theorem pay10_apply (v1 v3 : BitVec 32) (q k : Vec Ideal S1x1024x128 .bf16) (r j : Fin 1024) :
    (k1_pay10 (F := Ideal) v1 v3 q k (ix2 r j) : EReal)
      = if maskWord v1 v3 r j = 1#1 then sc q k r j else ⊥ := by
  unfold k1_pay10
  show Scalar.select (IntOp.cmpi .sge
      (IntOp.addi (Scalar.muli v1 1024#32) (iota .tc S1024x1024 32 [0] iota_S1024x1024_d0_w32 (ix2 r j)))
      (IntOp.addi (Scalar.muli v3 1024#32) (iota .tc S1024x1024 32 [1] iota_S1024x1024_d1_w32 (ix2 r j)))) _ _ = _
  rw [iota_single_apply, iota_single_apply]
  show Scalar.select (maskWord v1 v3 r j) _ _ = _
  unfold Scalar.select
  refine if_congr Iff.rfl ?_ neg_big_eq_bot
  exact pay15_apply q k r j

/-- On the diagonal, with the block number below 4: the scaled inner product for j ≤ r, −∞ above. -/
theorem pay10_diag (v : BitVec 32) (hv : v.toNat < 4) (q k : Vec Ideal S1x1024x128 .bf16) (r j : Fin 1024) :
    (k1_pay10 (F := Ideal) v v q k (ix2 r j) : EReal) = if j.val ≤ r.val then sc q k r j else ⊥ := by
  rw [pay10_apply]
  exact if_congr (maskWord_iff v hv r j) rfl rfl

end Cert.KernelIdeal.HandValue

end
-- ==== Proof.AttnInner.lean ====
/-
  One tile below the diagonal, row by row. With S(r, j) the tile's logits, m, l, acc the carried state and
  M' = max (m r) (the largest logit of row r):
    the new maximum of row r is M';
    the rescaling factor of row r is exp (m r − M');
    the weight of key j is exp (S(r, j) − M');
    the new sum is factor · l r + the sum of the weights;
    the new weighted sum at feature d is factor · acc(r, d) + the sum over keys of weight · value(j, d).
  The narrowing of the weights before the product with the values is the identity on the extended reals.
-/
import proofs.«155321_j4011499454905_2_alg».proof.Proof.AttnLogits

noncomputable section

open scoped BigOperators

namespace Cert.KernelIdeal.HandValue

open Idealize.ShloMosaic Idealize.ShloMosaic.ValueIdx Idealize.SL.Sem Cert.KernelIdeal Cert.KernelIdeal.Gen
  Cert.KernelIdeal.Hand

variable (q k v : Vec Ideal S1x1024x128 .bf16) (m l : Vec Ideal S1024x1 .f32) (acc : Vec Ideal S1024x128 .f32)

/-- The new running maximum of row r. -/
theorem pay16_apply (r : Fin 1024) :
    (k1_pay16 (F := Ideal) q k m (ix2 r (0 : Fin 1)) : EReal)
      = max (m (ix2 r (0 : Fin 1)) : EReal) (Finset.univ.sup fun j : Fin 1024 => sc q k r j) := by
  unfold k1_pay16
  refine congrArg (max (m (ix2 r (0 : Fin 1)) : EReal)) ?_
  refine (column_of_vector_apply _ _ r).trans ?_
  refine (row_max_apply _ _ _ _ r).trans ?_
  exact congrArg Finset.univ.sup (funext fun j => pay15_apply q k r j)

/-- The rescaling factor of row r. -/
theorem pay17_apply (r : Fin 1024) :
    (k1_pay17 (F := Ideal) q k m (ix2 r (0 : Fin 1)) : EReal)
      = Ideal.exp ((m (ix2 r (0 : Fin 1)) : EReal) - k1_pay16 (F := Ideal) q k m (ix2 r (0 : Fin 1))) := by
  unfold k1_pay17
  rfl

/-- The weight of key j in row r. -/
theorem pay18_apply (r j : Fin 1024) :
    (k1_pay18 (F := Ideal) q k m (ix2 r j) : EReal)
      = Ideal.exp (sc q k r j - k1_pay16 (F := Ideal) q k m (ix2 r (0 : Fin 1))) := by
  unfold k1_pay18
  refine congrArg Ideal.exp ?_
  exact congrArg₂ (· - ·) (pay15_apply q k r j) (column_repeat_apply _ _ r j)

/-- The new running sum of row r. -/
theorem pay19_apply (r : Fin 1024) :
    (k1_pay19 (F := Ideal) q k m l (ix2 r (0 : Fin 1)) : EReal)
      = k1_pay17 (F := Ideal) q k m (ix2 r (0 : Fin 1)) * l (ix2 r (0 : Fin 1))
        + ∑ j : Fin 1024, (k1_pay18 (F := Ideal) q k m (ix2 r j) : EReal) := by
  unfold k1_pay19
  refine (congrFun (shapeCast_self _ _) _).trans ?_
  refine congrArg₂ (· + ·) rfl ?_
  refine (column_of_vector_apply _ _ r).trans ?_
  exact row_sum_apply _ _ _ _ r

/-- The new weighted sum of row r at feature d. -/
theorem pay20_apply (r : Fin 1024) (d : Fin 128) :
    (k1_pay20 (F := Ideal) q k v m acc (ix2 r d) : EReal)
      = k1_pay17 (F := Ideal) q k m (ix2 r (0 : Fin 1)) * acc (ix2 r d)
        + ∑ j : Fin 1024, (k1_pay18 (F := Ideal) q k m (ix2 r j) : EReal) * v (ix3 (0 : Fin 1) j d) := by
  unfold k1_pay20
  refine congrArg₂ (· + ·) (congrArg₂ (· * ·) (column_repeat_apply _ _ r d) rfl) ?_
  refine (product_zero_apply _ rfl none _ _ r d).trans ?_
  refine Finset.sum_congr rfl fun j _ => ?_
  exact congrArg₂ (· * ·) rfl (shapeCast_1ab_ab_apply _ _ j d)

variable (s : Scr Ideal)

/-- The maximum after a tile below the diagonal. -/
theorem inner_m (r : Fin 1024) :
    ((s.inner q k v).m (ix2 r (0 : Fin 1)) : EReal)
      = max (s.m (ix2 r (0 : Fin 1)) : EReal) (Finset.univ.sup fun j : Fin 1024 => sc q k r j) := by
  show (k1_pay8 (F := Ideal) (k1_pay16 q k s.m) (ix2 r (0 : Fin 1)) : EReal) = _
  unfold k1_pay8
  refine (congrFun (shapeCast_self _ _) _).trans ?_
  exact pay16_apply q k s.m r

/-- The sum after a tile below the diagonal. -/
theorem inner_l (r : Fin 1024) :
    ((s.inner q k v).l (ix2 r (0 : Fin 1)) : EReal)
      = Ideal.exp ((s.m (ix2 r (0 : Fin 1)) : EReal)
            - max (s.m (ix2 r (0 : Fin 1)) : EReal) (Finset.univ.sup fun j : Fin 1024 => sc q k r j))
          * s.l (ix2 r (0 : Fin 1))
        + ∑ j : Fin 1024, Ideal.exp (sc q k r j
            - max (s.m (ix2 r (0 : Fin 1)) : EReal) (Finset.univ.sup fun j : Fin 1024 => sc q k r j)) := by
  show (k1_pay19 (F := Ideal) q k s.m s.l (ix2 r (0 : Fin 1)) : EReal) = _
  rw [pay19_apply, pay17_apply, pay16_apply]
  refine congrArg₂ (· + ·) rfl (Finset.sum_congr rfl fun j _ => ?_)
  rw [pay18_apply, pay16_apply]

/-- The weighted sum after a tile below the diagonal. -/
theorem inner_acc (r : Fin 1024) (d : Fin 128) :
    ((s.inner q k v).acc (ix2 r d) : EReal)
      = Ideal.exp ((s.m (ix2 r (0 : Fin 1)) : EReal)
            - max (s.m (ix2 r (0 : Fin 1)) : EReal) (Finset.univ.sup fun j : Fin 1024 => sc q k r j))
          * s.acc (ix2 r d)
        + ∑ j : Fin 1024, Ideal.exp (sc q k r j
            - max (s.m (ix2 r (0 : Fin 1)) : EReal) (Finset.univ.sup fun j : Fin 1024 => sc q k r j))
          * v (ix3 (0 : Fin 1) j d) := by
  show (k1_pay7 (F := Ideal) (k1_pay20 q k v s.m s.acc) (ix2 r d) : EReal) = _
  unfold k1_pay7
  refine (congrFun (shapeCast_self _ _) _).trans ?_
  rw [pay20_apply, pay17_apply, pay16_apply]
  refine congrArg₂ (· + ·) rfl (Finset.sum_congr rfl fun j _ => ?_)
  rw [pay18_apply, pay16_apply]

end Cert.KernelIdeal.HandValue

end
-- ==== Proof.AttnDiag.lean ====
/-
  One diagonal tile, row by row, and the block a diagonal point writes back. The diagonal tile's logits are the
  masked ones; with them in the place of the plain logits the update is the one of a tile below the diagonal: new
  maximum, rescaling factor, weights, new sum, new weighted sum. The block written back is, entry by entry, the
  weighted sum divided by the row's sum.
-/
import proofs.«155321_j4011499454905_2_alg».proof.Proof.AttnLogits

noncomputable section

open scoped BigOperators

namespace Cert.KernelIdeal.HandValue

open Idealize.ShloMosaic Idealize.ShloMosaic.ValueIdx Idealize.SL.Sem Cert.KernelIdeal Cert.KernelIdeal.Gen
  Cert.KernelIdeal.Hand

variable (v1 v3 : BitVec 32) (q k v : Vec Ideal S1x1024x128 .bf16) (m l : Vec Ideal S1024x1 .f32)
  (acc : Vec Ideal S1024x128 .f32)

/-- The new running maximum of row r. -/
theorem pay11_apply (r : Fin 1024) :
    (k1_pay11 (F := Ideal) v1 v3 q k m (ix2 r (0 : Fin 1)) : EReal)
      = max (m (ix2 r (0 : Fin 1)) : EReal)
          (Finset.univ.sup fun j : Fin 1024 => (k1_pay10 (F := Ideal) v1 v3 q k (ix2 r j) : EReal)) := by
  unfold k1_pay11
  refine congrArg (max (m (ix2 r (0 : Fin 1)) : EReal)) ?_
  refine (column_of_vector_apply _ _ r).trans ?_
  exact row_max_apply _ _ _ _ r

/-- The rescaling factor of row r. -/
theorem pay12_apply (r : Fin 1024) :
    (k1_pay12 (F := Ideal) v1 v3 q k m (ix2 r (0 : Fin 1)) : EReal)
      = Ideal.exp ((m (ix2 r (0 : Fin 1)) : EReal) - k1_pay11 (F := Ideal) v1 v3 q k m (ix2 r (0 : Fin 1))) := by
  unfold k1_pay12
  rfl

/-- The weight of key j in row r. -/
theorem pay13_apply (r j : Fin 1024) :
    (k1_pay13 (F := Ideal) v1 v3 q k m (ix2 r j) : EReal)
      = Ideal.exp ((k1_pay10 (F := Ideal) v1 v3 q k (ix2 r j) : EReal)
          - k1_pay11 (F := Ideal) v1 v3 q k m (ix2 r (0 : Fin 1))) := by
  unfold k1_pay13
  refine congrArg Ideal.exp ?_
  exact congrArg₂ (· - ·) rfl (column_repeat_apply _ _ r j)

/-- The new running sum of row r. -/
theorem pay14_apply (r : Fin 1024) :
    (k1_pay14 (F := Ideal) v1 v3 q k m l (ix2 r (0 : Fin 1)) : EReal)
      = k1_pay12 (F := Ideal) v1 v3 q k m (ix2 r (0 : Fin 1)) * l (ix2 r (0 : Fin 1))
        + ∑ j : Fin 1024, (k1_pay13 (F := Ideal) v1 v3 q k m (ix2 r j) : EReal) := by
  unfold k1_pay14
  refine (congrFun (shapeCast_self _ _) _).trans ?_
  refine congrArg₂ (· + ·) rfl ?_
  refine (column_of_vector_apply _ _ r).trans ?_
  exact row_sum_apply _ _ _ _ r

/-- The new weighted sum, from a value block V, factors a and weights P. -/
theorem pay4_apply (V : FVec Ideal S1024x128 .bf16) (a : FVec Ideal S1024x1 .f32) (W : FVec Ideal S1024x1024 .f32)
    (r : Fin 1024) (d : Fin 128) :
    (k1_pay4 (F := Ideal) V a W acc (ix2 r d) : EReal)
      = a (ix2 r (0 : Fin 1)) * acc (ix2 r d) + ∑ j : Fin 1024, (W (ix2 r j) : EReal) * V (ix2 j d) := by
  unfold k1_pay4
  refine (congrFun (shapeCast_self _ _) _).trans ?_
  refine congrArg₂ (· + ·) (congrArg₂ (· * ·) (column_repeat_apply _ _ r d) rfl) ?_
  exact product_zero_apply _ rfl none _ _ r d

/-- The value block without its leading unit axis. -/
theorem pay9_apply (j : Fin 1024) (d : Fin 128) :
    (k1_pay9 (F := Ideal) v (ix2 j d) : EReal) = v (ix3 (0 : Fin 1) j d) := by
  unfold k1_pay9
  exact shapeCast_1ab_ab_apply _ _ j d

/-- The block written back: the weighted sum over the row's sum. -/
theorem pay6_apply (r : Fin 1024) (d : Fin 128) :
    (k1_pay6 (F := Ideal) acc l (ix3 (0 : Fin 1) r d) : EReal)
      = Ideal.div (acc (ix2 r d)) (l (ix2 r (0 : Fin 1))) := by
  unfold k1_pay6
  refine (shapeCast_ab_1ab_apply _ _ (0 : Fin 1) r d).trans ?_
  exact congrArg (Ideal.div (acc (ix2 r d))) (column_repeat_apply _ _ r d)

variable (s : Scr Ideal)

/-- The block a diagonal point writes back, entry by entry. -/
theorem out_apply (r : Fin 1024) (d : Fin 128) :
    ((Scr.out s) (ix3 (0 : Fin 1) r d) : EReal) = Ideal.div (s.acc (ix2 r d)) (s.l (ix2 r (0 : Fin 1))) :=
  pay6_apply s.l s.acc r d

/-- The masked logits of row r on the diagonal of block v. -/
def dsc (q k : Vec Ideal S1x1024x128 .bf16) (r j : Fin 1024) : EReal := if j.val ≤ r.val then sc q k r j else ⊥

variable (w : BitVec 32) (hw : w.toNat < 4)

include hw

/-- The maximum after a diagonal tile. -/
theorem diag_m (r : Fin 1024) :
    ((s.diag w w q k v).m (ix2 r (0 : Fin 1)) : EReal)
      = max (s.m (ix2 r (0 : Fin 1)) : EReal) (Finset.univ.sup fun j : Fin 1024 => dsc q k r j) := by
  show (k1_pay5 (F := Ideal) (k1_pay11 w w q k s.m) (ix2 r (0 : Fin 1)) : EReal) = _
  unfold k1_pay5
  refine (congrFun (shapeCast_self _ _) _).trans ?_
  rw [pay11_apply]
  exact congrArg (max _) (congrArg Finset.univ.sup (funext fun j => pay10_diag w hw q k r j))

/-- The sum after a diagonal tile. -/
theorem diag_l (r : Fin 1024) :
    ((s.diag w w q k v).l (ix2 r (0 : Fin 1)) : EReal)
      = Ideal.exp ((s.m (ix2 r (0 : Fin 1)) : EReal)
            - max (s.m (ix2 r (0 : Fin 1)) : EReal) (Finset.univ.sup fun j : Fin 1024 => dsc q k r j))
          * s.l (ix2 r (0 : Fin 1))
        + ∑ j : Fin 1024, Ideal.exp (dsc q k r j
            - max (s.m (ix2 r (0 : Fin 1)) : EReal) (Finset.univ.sup fun j : Fin 1024 => dsc q k r j)) := by
  have hM := diag_m q k v s w hw r
  have hM' : (k1_pay11 (F := Ideal) w w q k s.m (ix2 r (0 : Fin 1)) : EReal)
      = max (s.m (ix2 r (0 : Fin 1)) : EReal) (Finset.univ.sup fun j : Fin 1024 => dsc q k r j) := by
    rw [pay11_apply]
    exact congrArg (max _) (congrArg Finset.univ.sup (funext fun j => pay10_diag w hw q k r j))
  show (k1_pay14 (F := Ideal) w w q k s.m s.l (ix2 r (0 : Fin 1)) : EReal) = _
  rw [pay14_apply, pay12_apply, hM']
  refine congrArg₂ (· + ·) rfl (Finset.sum_congr rfl fun j _ => ?_)
  rw [pay13_apply, hM', pay10_diag w hw]
  rfl

/-- The weighted sum after a diagonal tile. -/
theorem diag_acc (r : Fin 1024) (d : Fin 128) :
    ((s.diag w w q k v).acc (ix2 r d) : EReal)
      = Ideal.exp ((s.m (ix2 r (0 : Fin 1)) : EReal)
            - max (s.m (ix2 r (0 : Fin 1)) : EReal) (Finset.univ.sup fun j : Fin 1024 => dsc q k r j))
          * s.acc (ix2 r d)
        + ∑ j : Fin 1024, Ideal.exp (dsc q k r j
            - max (s.m (ix2 r (0 : Fin 1)) : EReal) (Finset.univ.sup fun j : Fin 1024 => dsc q k r j))
          * v (ix3 (0 : Fin 1) j d) := by
  have hM' : (k1_pay11 (F := Ideal) w w q k s.m (ix2 r (0 : Fin 1)) : EReal)
      = max (s.m (ix2 r (0 : Fin 1)) : EReal) (Finset.univ.sup fun j : Fin 1024 => dsc q k r j) := by
    rw [pay11_apply]
    exact congrArg (max _) (congrArg Finset.univ.sup (funext fun j => pay10_diag w hw q k r j))
  show (k1_pay4 (F := Ideal) (k1_pay9 v) (k1_pay12 w w q k s.m) (k1_pay13 w w q k s.m) s.acc (ix2 r d) : EReal) = _
  rw [pay4_apply, pay12_apply, hM']
  refine congrArg₂ (· + ·) rfl (Finset.sum_congr rfl fun j _ => ?_)
  rw [pay13_apply, hM', pay10_diag w hw, pay9_apply]
  rfl

end Cert.KernelIdeal.HandValue

end
-- ==== Proof.AttnRows.lean ====
/-
  The attention state row by row, joined to the row-wise recurrence of the online softmax.

  Row r of the carried state is a triple: its running maximum, its running sum, its 128 running weighted sums. The
  reset state's rows are the recurrence's initial triple. A tile below the diagonal updates row r by one block of
  the recurrence with the row's 1024 plain logits; a diagonal tile by one block with the masked logits; both with
  the tile's value rows. A grid point whose words are (query block qi, key block i), i ≤ qi < 4, resets when
  i = 0, then takes the diagonal update when i = qi and the plain one when i < qi. So along the qi + 1 points of
  one query block, which start with a reset, row r runs the recurrence over qi plain blocks and one masked
  block, whatever the state was before.
-/
import proofs.«155321_j4011499454905_2_alg».proof.Proof.OnlineSoftmax
import proofs.«155321_j4011499454905_2_alg».proof.Proof.AttnInner
import proofs.«155321_j4011499454905_2_alg».proof.Proof.AttnDiag

noncomputable section

open scoped BigOperators

namespace Cert.KernelIdeal.HandValue

open Idealize.ShloMosaic Idealize.ShloMosaic.ValueIdx Idealize.SL.Sem Cert.KernelIdeal Cert.KernelIdeal.Gen
  Cert.KernelIdeal.Hand Cert.OnlineSoftmax

/-- Row r of the carried state. -/
def rowSt (s : Scr Ideal) (r : Fin 1024) : St (Fin 128) :=
  ⟨s.m (ix2 r (0 : Fin 1)), s.l (ix2 r (0 : Fin 1)), fun d => s.acc (ix2 r d)⟩

/-- A reset state's rows are the recurrence's initial triple. -/
theorem rowSt_init (r : Fin 1024) : rowSt (Scr.init (F := Ideal)) r = St.init := by
  unfold rowSt St.init
  rw [init_m, init_l]
  exact congrArg (St.mk ⊥ 0) (funext fun d => init_acc r d)

/-- A tile below the diagonal is one block of the recurrence with the plain logits. -/
theorem rowSt_inner (q k v : Vec Ideal S1x1024x128 .bf16) (s : Scr Ideal) (r : Fin 1024) :
    rowSt (s.inner q k v) r
      = (rowSt s r).upd (fun j : Fin 1024 => sc q k r j) (fun (j : Fin 1024) (d : Fin 128) => v (ix3 (0 : Fin 1) j d)) := by
  unfold rowSt St.upd
  dsimp only
  rw [inner_m, inner_l]
  exact congrArg (St.mk _ _) (funext fun d => inner_acc q k v s r d)

/-- A diagonal tile of a block below 4 is one block of the recurrence with the masked logits. -/
theorem rowSt_diag (w : BitVec 32) (hw : w.toNat < 4) (q k v : Vec Ideal S1x1024x128 .bf16) (s : Scr Ideal)
    (r : Fin 1024) :
    rowSt (s.diag w w q k v) r
      = (rowSt s r).upd (fun j : Fin 1024 => if j.val ≤ r.val then sc q k r j else ⊥)
          (fun (j : Fin 1024) (d : Fin 128) => v (ix3 (0 : Fin 1) j d)) := by
  unfold rowSt St.upd
  dsimp only
  rw [diag_m q k v s w hw, diag_l q k v s w hw]
  exact congrArg (St.mk _ _) (funext fun d => diag_acc q k v s w hw r d)

/-! ### The three conditions of a grid point on small words -/

theorem condReset_ofNat (i : ℕ) (hi : i < 4) : condReset (BitVec.ofNat 32 i) = 1#1 ↔ i = 0 := by
  interval_cases i <;> decide

theorem cond2_ofNat (qi i : ℕ) (hq : qi < 4) (hi : i < 4) :
    k1_cond2 (BitVec.ofNat 32 qi) (BitVec.ofNat 32 i) = 1#1 ↔ i = qi := by
  interval_cases qi <;> interval_cases i <;> decide

theorem condInner_ofNat (qi i : ℕ) (hq : qi < 4) (hi : i < 4) :
    condInner (BitVec.ofNat 32 qi) (BitVec.ofNat 32 i) = 1#1 ↔ i < qi := by
  interval_cases qi <;> interval_cases i <;> decide

/-- A grid point of query block qi and key block i ≤ qi: reset when i = 0, then the diagonal update when i = qi,
    the plain one otherwise. -/
theorem step_eq (qi i : ℕ) (hq : qi < 4) (hi : i ≤ qi) (q k v : Vec Ideal S1x1024x128 .bf16) (s : Scr Ideal) :
    Scr.step (BitVec.ofNat 32 qi) (BitVec.ofNat 32 i) q k v s
      = if i = qi then (if i = 0 then Scr.init else s).diag (BitVec.ofNat 32 qi) (BitVec.ofNat 32 i) q k v
        else (if i = 0 then Scr.init else s).inner q k v := by
  have hi4 : i < 4 := lt_of_le_of_lt hi hq
  unfold Scr.step
  dsimp only
  rw [if_congr (condReset_ofNat i hi4) rfl rfl, if_congr (cond2_ofNat qi i hq hi4) rfl rfl]
  by_cases h : i = qi
  · rw [if_pos h, if_pos h]
  · rw [if_neg h, if_neg h, if_pos ((condInner_ofNat qi i hq hi4).mpr (lt_of_le_of_ne hi h))]

/-- Row r through one grid point of a query block, from the row before it (the initial triple when i = 0). -/
theorem rowSt_step (qi i : ℕ) (hq : qi < 4) (hi : i ≤ qi) (q k v : Vec Ideal S1x1024x128 .bf16) (s : Scr Ideal)
    (r : Fin 1024) (st : St (Fin 128)) (hst : rowSt (if i = 0 then Scr.init else s) r = st) :
    rowSt (Scr.step (BitVec.ofNat 32 qi) (BitVec.ofNat 32 i) q k v s) r
      = st.upd (fun j : Fin 1024 => if i < qi then sc q k r j else if j.val ≤ r.val then sc q k r j else ⊥)
          (fun (j : Fin 1024) (d : Fin 128) => v (ix3 (0 : Fin 1) j d)) := by
  rw [step_eq qi i hq hi, ← hst]
  by_cases h : i = qi
  · subst h
    rw [if_pos rfl]
    have e : (fun j : Fin 1024 => if i < i then sc q k r j else if j.val ≤ r.val then sc q k r j else ⊥)
        = fun j : Fin 1024 => if j.val ≤ r.val then sc q k r j else ⊥ :=
      funext fun j => if_neg (lt_irrefl i)
    rw [e]
    exact rowSt_diag (BitVec.ofNat 32 i) (by rw [BitVec.toNat_ofNat]; omega) q k v _ r
  · rw [if_neg h]
    have e : (fun j : Fin 1024 => if i < qi then sc q k r j else if j.val ≤ r.val then sc q k r j else ⊥)
        = fun j : Fin 1024 => sc q k r j :=
      funext fun j => if_pos (lt_of_le_of_ne hi h)
    rw [e]
    exact rowSt_inner q k v _ r

/-- Row r after the first i + 1 points of a query block that starts at point n₀ with a reset: the recurrence over
    i + 1 blocks — plain logits for the key blocks below the query block, masked logits on the diagonal —
    whatever the state before n₀. -/
theorem rowSt_scrAt_block (W0 W1 : ℕ → BitVec 32) (Q K V : ℕ → Vec Ideal S1x1024x128 .bf16) (n₀ qi : ℕ) (hq : qi < 4)
    (hW0 : ∀ i, i ≤ qi → W0 (n₀ + i) = BitVec.ofNat 32 qi) (hW1 : ∀ i, i ≤ qi → W1 (n₀ + i) = BitVec.ofNat 32 i)
    (r : Fin 1024) (i : ℕ) (hi : i ≤ qi) :
    rowSt (scrAt (F := Ideal) W0 W1 Q K V (n₀ + i + 1)) r
      = run (fun (i : ℕ) (j : Fin 1024) => if i < qi then sc (Q (n₀ + i)) (K (n₀ + i)) r j
              else if j.val ≤ r.val then sc (Q (n₀ + i)) (K (n₀ + i)) r j else ⊥)
          (fun (i : ℕ) (j : Fin 1024) (d : Fin 128) => V (n₀ + i) (ix3 (0 : Fin 1) j d)) (i + 1) := by
  induction i with
  | zero =>
    show rowSt (Scr.step (W0 (n₀ + 0)) (W1 (n₀ + 0)) (Q (n₀ + 0)) (K (n₀ + 0)) (V (n₀ + 0))
      (scrAt (F := Ideal) W0 W1 Q K V (n₀ + 0))) r = _
    rw [hW0 0 hi, hW1 0 hi]
    exact rowSt_step qi 0 hq hi _ _ _ _ r _ ((congrArg (rowSt · r) (if_pos rfl)).trans (rowSt_init r))
  | succ i ih =>
    show rowSt (Scr.step (W0 (n₀ + (i + 1))) (W1 (n₀ + (i + 1))) (Q (n₀ + (i + 1))) (K (n₀ + (i + 1)))
      (V (n₀ + (i + 1))) (scrAt (F := Ideal) W0 W1 Q K V (n₀ + (i + 1)))) r = _
    rw [hW0 (i + 1) hi, hW1 (i + 1) hi]
    exact rowSt_step qi (i + 1) hq hi _ _ _ _ r _
      ((congrArg (rowSt · r) (if_neg (Nat.succ_ne_zero i))).trans (ih (Nat.le_of_succ_le hi)))

/-- The whole query block: after its qi + 1 points. -/
theorem rowSt_scrAt_block_end (W0 W1 : ℕ → BitVec 32) (Q K V : ℕ → Vec Ideal S1x1024x128 .bf16) (n₀ qi : ℕ)
    (hq : qi < 4) (hW0 : ∀ i, i ≤ qi → W0 (n₀ + i) = BitVec.ofNat 32 qi)
    (hW1 : ∀ i, i ≤ qi → W1 (n₀ + i) = BitVec.ofNat 32 i) (r : Fin 1024) :
    rowSt (scrAt (F := Ideal) W0 W1 Q K V (n₀ + qi + 1)) r
      = run (fun (i : ℕ) (j : Fin 1024) => if i < qi then sc (Q (n₀ + i)) (K (n₀ + i)) r j
              else if j.val ≤ r.val then sc (Q (n₀ + i)) (K (n₀ + i)) r j else ⊥)
          (fun (i : ℕ) (j : Fin 1024) (d : Fin 128) => V (n₀ + i) (ix3 (0 : Fin 1) j d)) (qi + 1) :=
  rowSt_scrAt_block W0 W1 Q K V n₀ qi hq hW0 hW1 r qi (le_refl qi)

/-- A word whose number is below 4 is the word of that number. -/
theorem eq_ofNat_of_toNat (w : BitVec 32) (n : ℕ) (hn : n < 4) (h : w.toNat = n) : w = BitVec.ofNat 32 n := by
  apply BitVec.eq_of_toNat_eq
  rw [BitVec.toNat_ofNat, h]
  omega

/-- The same with the table words given by their numbers. -/
theorem rowSt_scrAt_block_end_toNat (W0 W1 : ℕ → BitVec 32) (Q K V : ℕ → Vec Ideal S1x1024x128 .bf16) (n₀ qi : ℕ)
    (hq : qi < 4) (hW0 : ∀ i, i ≤ qi → (W0 (n₀ + i)).toNat = qi) (hW1 : ∀ i, i ≤ qi → (W1 (n₀ + i)).toNat = i)
    (r : Fin 1024) :
    rowSt (scrAt (F := Ideal) W0 W1 Q K V (n₀ + qi + 1)) r
      = run (fun (i : ℕ) (j : Fin 1024) => if i < qi then sc (Q (n₀ + i)) (K (n₀ + i)) r j
              else if j.val ≤ r.val then sc (Q (n₀ + i)) (K (n₀ + i)) r j else ⊥)
          (fun (i : ℕ) (j : Fin 1024) (d : Fin 128) => V (n₀ + i) (ix3 (0 : Fin 1) j d)) (qi + 1) :=
  rowSt_scrAt_block_end W0 W1 Q K V n₀ qi hq
    (fun i hi => eq_ofNat_of_toNat _ qi hq (hW0 i hi))
    (fun i hi => eq_ofNat_of_toNat _ i (lt_of_le_of_lt hi hq) (hW1 i hi)) r

end Cert.KernelIdeal.HandValue

end
-- ==== Proof.OnlineSoftmaxCongr.lean ====
import proofs.«155321_j4011499454905_2_alg».proof.Proof.OnlineSoftmax

/-! The state after n blocks reads only the first n blocks of logits and values: two families that agree on
those blocks run to the same state. -/

namespace Cert.OnlineSoftmax

variable {J D : Type} [Fintype J]

/-- the state after n blocks depends only on blocks 0, …, n-1 -/
theorem run_congr (s s' : ℕ → J → EReal) (v v' : ℕ → J → D → EReal) (n : ℕ)
    (hs : ∀ i < n, s i = s' i) (hv : ∀ i < n, v i = v' i) : run s v n = run s' v' n := by
  induction n with
  | zero => rfl
  | succ n ih =>
    show (run s v n).upd (s n) (v n) = (run s' v' n).upd (s' n) (v' n)
    rw [ih (fun i hi => hs i (Nat.lt_succ_of_lt hi)) (fun i hi => hv i (Nat.lt_succ_of_lt hi)),
      hs n (Nat.lt_succ_self n), hv n (Nat.lt_succ_self n)]

end Cert.OnlineSoftmax
-- ==== Proof.SpecReal.lean ====
import proofs.«155321_j4011499454905_2_alg».proof.Proof.AttnSpec
import proofs.«155321_j4011499454905_2_alg».proof.Proof.OnlineSoftmaxAux

/-! The specification on real inputs. When every entry of the input rows and of the three matrices is a real
number, every projection and every logit is a real number; a masked logit is a real number at the key
positions up to the query position and −∞ after it; and dividing by 32 is multiplying by the real 1/32, which
is what the single-precision word 0x3D000000 denotes. -/

noncomputable section

namespace Cert.AttnSpec

open Idealize.ShloMosaic Idealize.ShloMosaic.ValueIdx

/-- the word 0x3D000000 (sign 0, exponent 122, fraction 0) denotes 2⁻⁵ = 1/32 -/
theorem ofBits_inv32 : Ideal.ofBits .f32 0x3D000000#32 = ((1 / 32 : ℝ) : EReal) := by
  simp [Ideal.ofBits, Ideal.ieee, -EReal.coe_mul]; norm_num

/-- a projection of real rows by a real matrix is a real: a finite sum of products of reals -/
theorem proj_real (x : SX.Idx → EReal) (hx : ∀ i, ∃ r : ℝ, x i = (r : EReal))
    (w : SW.Idx → EReal) (hw : ∀ i, ∃ r : ℝ, w i = (r : EReal))
    (b : Fin 4) (t : Fin 4096) (d : Fin 128) : ∃ r : ℝ, proj x w b t d = (r : EReal) := by
  choose fx hfx using hx
  choose fw hfw using hw
  refine ⟨∑ c : Fin 1024, fx (ix3 b t c) * fw (ix2 c d), ?_⟩
  rw [proj, ← Cert.OnlineSoftmax.coe_sum]
  refine Finset.sum_congr rfl fun c _ => ?_
  rw [hfx, hfw, EReal.coe_mul]

/-- a logit of real inputs is a real: a finite sum of products of reals, divided by 32 -/
theorem logit_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 4) (t s : Fin 4096) :
    ∃ r : ℝ, logit x wq wk b t s = (r : EReal) := by
  have hq' := fun d => proj_real x hx wq hq b t d
  have hk' := fun d => proj_real x hx wk hk b s d
  choose fq hfq using hq'
  choose fk hfk using hk'
  refine ⟨(∑ d : Fin 128, fq d * fk d) * (1 / 32 : ℝ), ?_⟩
  rw [logit, Ideal.div_coe (by norm_num : (32 : ℝ) ≠ 0), EReal.coe_mul, ← Cert.OnlineSoftmax.coe_sum]
  congr 1
  refine Finset.sum_congr rfl fun d _ => ?_
  rw [hfq, hfk, EReal.coe_mul]

/-- dividing the inner product by 32 is multiplying it by the single-precision word of 1/32, whatever the
    inner product is -/
theorem logit_eq_scaled (x : SX.Idx → EReal) (wq wk : SW.Idx → EReal) (b : Fin 4) (t s : Fin 4096) :
    logit x wq wk b t s
      = (∑ d : Fin 128, proj x wq b t d * proj x wk b s d) * Ideal.ofBits .f32 0x3D000000#32 := by
  rw [logit, Ideal.div_coe (by norm_num : (32 : ℝ) ≠ 0), ofBits_inv32]

/-- up to the query position the masked logit is the logit -/
theorem masked_of_le (x : SX.Idx → EReal) (wq wk : SW.Idx → EReal) (b : Fin 4) (t s : Fin 4096)
    (h : s.val ≤ t.val) : masked x wq wk b t s = logit x wq wk b t s := by
  rw [masked, if_pos h]

/-- after the query position the masked logit is −∞ -/
theorem masked_of_gt (x : SX.Idx → EReal) (wq wk : SW.Idx → EReal) (b : Fin 4) (t s : Fin 4096)
    (h : t.val < s.val) : masked x wq wk b t s = ⊥ := by
  rw [masked, if_neg (Nat.not_le.mpr h)]

/-- a masked logit of real inputs is −∞ or a real -/
theorem masked_cases (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 4) (t s : Fin 4096) :
    masked x wq wk b t s = ⊥ ∨ ∃ r : ℝ, masked x wq wk b t s = (r : EReal) := by
  by_cases h : s.val ≤ t.val
  · right; rw [masked_of_le x wq wk b t s h]; exact logit_real x wq wk hx hq hk b t s
  · left; exact masked_of_gt x wq wk b t s (Nat.not_le.mp h)

/-- a position attends to itself: the masked logit on the diagonal is a real -/
theorem masked_self_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 4) (t : Fin 4096) :
    ∃ r : ℝ, masked x wq wk b t t = (r : EReal) := by
  rw [masked_of_le x wq wk b t t le_rfl]; exact logit_real x wq wk hx hq hk b t t

/-- the first 1024 key positions hold a real masked logit for every query: position 0 is never after it -/
theorem masked_block0_real (x : SX.Idx → EReal) (wq wk : SW.Idx → EReal)
    (hx : ∀ i, ∃ r : ℝ, x i = (r : EReal)) (hq : ∀ i, ∃ r : ℝ, wq i = (r : EReal))
    (hk : ∀ i, ∃ r : ℝ, wk i = (r : EReal)) (b : Fin 4) (t : Fin 4096) :
    ∃ j : Fin 1024, ∃ r : ℝ, masked x wq wk b t ⟨j.val, by omega⟩ = (r : EReal) := by
  refine ⟨0, ?_⟩
  rw [masked_of_le x wq wk b t _ (Nat.zero_le _)]
  exact logit_real x wq wk hx hq hk b t _

end Cert.AttnSpec

end
-- ==== Proof.CausalBlocks.lean ====
import Mathlib.Data.EReal.Inv
import Mathlib.Analysis.SpecialFunctions.Exp
import Mathlib.Algebra.BigOperators.Fin
import Mathlib.Algebra.Order.BigOperators.Group.Finset
import Idealize.ShloMosaic.PureOps.Ideal
import proofs.«155321_j4011499454905_2_alg».proof.Proof.SpecReal

/-! A causal row over 4096 key positions, read block of 1024 keys by block of 1024 keys.
A key position p is position p mod 1024 of block p / 1024. When every position of the blocks after block qi
carries the logit −∞, the row's maximum is the maximum over blocks 0..qi, and every sum whose terms vanish
at −∞ is the sum over blocks 0..qi. With a real row maximum the sum of weights is at least 1, so the
normalised weight of a masked position is 0 / L = 0 and its term drops whatever the value there is. -/

namespace Cert.CausalBlocks
open Idealize.ShloMosaic

noncomputable section

/-- key position j of key block i (wrapping past the last position, which does not happen for i < 4) -/
def blk (i : ℕ) (j : Fin 1024) : Fin 4096 := ⟨(1024 * i + j.val) % 4096, Nat.mod_lt _ (by norm_num)⟩

theorem blk_val (i : ℕ) (hi : i < 4) (j : Fin 1024) : (blk i j).val = 1024 * i + j.val := by
  have hj := j.isLt
  show (1024 * i + j.val) % 4096 = 1024 * i + j.val
  exact Nat.mod_eq_of_lt (by omega)

/-- every position p is position p mod 1024 of block p / 1024 -/
theorem blk_div_mod (p : Fin 4096) :
    blk (p.val / 1024) ⟨p.val % 1024, Nat.mod_lt _ (by norm_num)⟩ = p := by
  apply Fin.ext
  show (1024 * (p.val / 1024) + p.val % 1024) % 4096 = p.val
  rw [Nat.div_add_mod]
  exact Nat.mod_eq_of_lt p.isLt

/-- a sum over the 4096 positions is the sum over the 4 blocks of the sums over each block -/
theorem sum_split {α : Type} [AddCommMonoid α] (g : Fin 4096 → α) :
    ∑ p, g p = ∑ i ∈ Finset.range 4, ∑ j : Fin 1024, g (blk i j) := by
  rw [← Fin.sum_univ_eq_sum_range (fun i => ∑ j : Fin 1024, g (blk i j)) 4,
    ← Fintype.sum_prod_type' (fun (i : Fin 4) (j : Fin 1024) => g (blk i.val j))]
  refine (Fintype.sum_equiv (finProdFinEquiv : Fin 4 × Fin 1024 ≃ Fin 4096)
    (fun x : Fin 4 × Fin 1024 => g (blk x.1.val x.2)) g ?_).symm
  rintro ⟨i, j⟩
  congr 1
  apply Fin.ext
  have hi := i.isLt
  have hj := j.isLt
  show (1024 * i.val + j.val) % 4096 = j.val + 1024 * i.val
  rw [Nat.mod_eq_of_lt (by omega)]
  omega

/-- terms that vanish on the blocks after block qi: only blocks 0..qi are summed -/
theorem sum_causal {α : Type} [AddCommMonoid α] (g : Fin 4096 → α) (qi : ℕ) (hqi : qi < 4)
    (hg : ∀ p : Fin 4096, 1024 * (qi + 1) ≤ p.val → g p = 0) :
    ∑ p, g p = ∑ i ∈ Finset.range (qi + 1), ∑ j : Fin 1024, g (blk i j) := by
  rw [sum_split]
  symm
  refine Finset.sum_subset (Finset.range_subset_range.mpr (by omega)) fun i hi hni => ?_
  refine Finset.sum_eq_zero fun j _ => hg _ ?_
  rw [blk_val i (Finset.mem_range.mp hi)]
  have h := Finset.mem_range.not.mp hni
  omega

/-- the row maximum is the maximum over blocks 0..qi -/
theorem sup_blocks (μ : Fin 4096 → EReal) (qi : ℕ)
    (hμ : ∀ p : Fin 4096, 1024 * (qi + 1) ≤ p.val → μ p = ⊥) :
    Finset.univ.sup μ
      = (Finset.range (qi + 1)).sup fun i => Finset.univ.sup fun j : Fin 1024 => μ (blk i j) := by
  apply le_antisymm
  · refine Finset.sup_le fun p _ => ?_
    by_cases h : 1024 * (qi + 1) ≤ p.val
    · rw [hμ p h]; exact bot_le
    · have hi : p.val / 1024 ∈ Finset.range (qi + 1) := Finset.mem_range.mpr (by omega)
      calc μ p = μ (blk (p.val / 1024) ⟨p.val % 1024, Nat.mod_lt _ (by norm_num)⟩) := by
            rw [blk_div_mod]
        _ ≤ Finset.univ.sup fun j : Fin 1024 => μ (blk (p.val / 1024) j) :=
            Finset.le_sup (f := fun j : Fin 1024 => μ (blk (p.val / 1024) j)) (Finset.mem_univ _)
        _ ≤ _ := Finset.le_sup
            (f := fun i => Finset.univ.sup fun j : Fin 1024 => μ (blk i j)) hi
  · exact Finset.sup_le fun i _ => Finset.sup_le fun j _ => Finset.le_sup (Finset.mem_univ _)

/-! ### Weights -/

/-- an exponential is never negative -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- the sum of the weights against any maximum M is the sum over blocks 0..qi: a masked position has
    logit −∞, −∞ − M = −∞ and exp (−∞) = 0 -/
theorem sum_exp_blocks (μ : Fin 4096 → EReal) (qi : ℕ) (hqi : qi < 4)
    (hμ : ∀ p : Fin 4096, 1024 * (qi + 1) ≤ p.val → μ p = ⊥) (M : EReal) :
    ∑ p, Ideal.exp (μ p - M)
      = ∑ i ∈ Finset.range (qi + 1), ∑ j : Fin 1024, Ideal.exp (μ (blk i j) - M) :=
  sum_causal (fun p => Ideal.exp (μ p - M)) qi hqi fun p hp => by
    show Ideal.exp (μ p - M) = 0
    rw [hμ p hp, EReal.bot_sub, Ideal.exp_bot]

/-- against any maximum M and any nonzero normaliser L, the normalised weighted sum is the sum over blocks
    0..qi: at a masked position the weight is 0, 0 / L = 0 · L⁻¹ = 0 as L ≠ 0, and 0 times any value is 0 -/
theorem sum_div_blocks (μ val : Fin 4096 → EReal) (qi : ℕ) (hqi : qi < 4)
    (hμ : ∀ p : Fin 4096, 1024 * (qi + 1) ≤ p.val → μ p = ⊥) (M L : EReal) (hL : L ≠ 0) :
    ∑ p, Ideal.div (Ideal.exp (μ p - M)) L * val p
      = ∑ i ∈ Finset.range (qi + 1), ∑ j : Fin 1024,
          Ideal.div (Ideal.exp (μ (blk i j) - M)) L * val (blk i j) :=
  sum_causal (fun p => Ideal.div (Ideal.exp (μ p - M)) L * val p) qi hqi fun p hp => by
    show Ideal.div (Ideal.exp (μ p - M)) L * val p = 0
    rw [hμ p hp, EReal.bot_sub, Ideal.exp_bot, Ideal.div, if_neg hL, zero_mul, zero_mul]

/-- with a real row maximum the sum of weights is at least 1: the maximum is attained, and there the weight
    is exp 0 = 1 -/
theorem one_le_rowSum (μ : Fin 4096 → EReal) (hM : ∃ m : ℝ, Finset.univ.sup μ = (m : EReal)) :
    1 ≤ ∑ p, Ideal.exp (μ p - Finset.univ.sup μ) := by
  obtain ⟨m, hm⟩ := hM
  obtain ⟨p0, -, hp0⟩ := Finset.exists_mem_eq_sup Finset.univ Finset.univ_nonempty μ
  have h1 : Ideal.exp (μ p0 - Finset.univ.sup μ) = 1 := by
    rw [← hp0, hm, ← EReal.coe_sub, sub_self, Ideal.exp_coe, Real.exp_zero, EReal.coe_one]
  rw [← h1]
  exact Finset.single_le_sum (f := fun p => Ideal.exp (μ p - Finset.univ.sup μ))
    (fun p _ => exp_nonneg _) (Finset.mem_univ p0)

theorem rowSum_ne_zero (μ : Fin 4096 → EReal) (hM : ∃ m : ℝ, Finset.univ.sup μ = (m : EReal)) :
    ∑ p, Ideal.exp (μ p - Finset.univ.sup μ) ≠ 0 := by
  intro h0
  have h := one_le_rowSum μ hM
  rw [h0] at h
  exact absurd h (not_le.mpr zero_lt_one)

/-- The passage to blocks. Every position after block qi masked and the row maximum a real number: the
    softmax-weighted sum over the 4096 positions is the softmax-weighted sum over blocks 0..qi, maximum and
    normaliser taken over those blocks too. -/
theorem attn_blocks (μ val : Fin 4096 → EReal) (qi : ℕ) (hqi : qi < 4)
    (hμ : ∀ p : Fin 4096, 1024 * (qi + 1) ≤ p.val → μ p = ⊥)
    (hM : ∃ m : ℝ, Finset.univ.sup μ = (m : EReal)) :
    let M : EReal := Finset.univ.sup μ
    let L : EReal := ∑ p, Ideal.exp (μ p - M)
    let M' : EReal := (Finset.range (qi + 1)).sup fun i => Finset.univ.sup fun j : Fin 1024 => μ (blk i j)
    let L' : EReal := ∑ i ∈ Finset.range (qi + 1), ∑ j : Fin 1024, Ideal.exp (μ (blk i j) - M')
    ∑ p, Ideal.div (Ideal.exp (μ p - M)) L * val p
      = ∑ i ∈ Finset.range (qi + 1), ∑ j : Fin 1024,
          Ideal.div (Ideal.exp (μ (blk i j) - M')) L' * val (blk i j) := by
  intro M L M' L'
  have hMM : M' = M := (sup_blocks μ qi hμ).symm
  have hLL : L' = L := by
    show ∑ i ∈ Finset.range (qi + 1), ∑ j : Fin 1024, Ideal.exp (μ (blk i j) - M') = L
    rw [hMM]
    exact (sum_exp_blocks μ qi hqi hμ M).symm
  rw [hMM, hLL]
  exact sum_div_blocks μ val qi hqi hμ M L (rowSum_ne_zero μ hM)

/-! ### The specification, block by block -/

/-- position j of block 0 is position j -/
theorem blk_zero (j : Fin 1024) : blk 0 j = ⟨j.val, by omega⟩ := by
  apply Fin.ext
  rw [blk_val 0 (by norm_num) j]
  show 1024 * 0 + j.val = j.val
  omega

/-- logits that are real or −∞, one of them real: the maximum is a real number -/
theorem sup_real (μ : Fin 4096 → EReal) (hc : ∀ p, μ p = ⊥ ∨ ∃ r : ℝ, μ p = (r : EReal))
    (h0 : ∃ p, ∃ r : ℝ, μ p = (r : EReal)) : ∃ m : ℝ, Finset.univ.sup μ = (m : EReal) := by
  have hbot : Finset.univ.sup μ ≠ ⊥ := by
    obtain ⟨p, r, hr⟩ := h0
    intro h
    have h1 : μ p ≤ Finset.univ.sup μ := Finset.le_sup (Finset.mem_univ p)
    rw [h, hr] at h1
    exact absurd h1 (not_le.mpr (EReal.bot_lt_coe r))
  have htop : Finset.univ.sup μ < ⊤ := by
    rw [Finset.sup_lt_iff bot_lt_top]
    intro p _
    rcases hc p with h | ⟨r, h⟩
    · rw [h]; exact bot_lt_top
    · rw [h]; exact EReal.coe_lt_top r
  exact ⟨(Finset.univ.sup μ).toReal, (EReal.coe_toReal htop.ne hbot).symm⟩

section Spec
open Cert.AttnSpec

variable (x : SX.Idx → EReal) (wq wk wv : SW.Idx → EReal)

/-- a key position in a block after the query's block is after the query: masked -/
theorem masked_later_block (b : Fin 4) (t p : Fin 4096) (hp : 1024 * (t.val / 1024 + 1) ≤ p.val) :
    masked x wq wk b t p = ⊥ :=
  masked_of_gt x wq wk b t p (by omega)

/-- on real inputs the row maximum of the masked logits is a real number: the query sees itself -/
theorem rowMax_real (hx : ∀ i, ∃ r : ℝ, x i = (r : EReal)) (hq : ∀ i, ∃ r : ℝ, wq i = (r : EReal))
    (hk : ∀ i, ∃ r : ℝ, wk i = (r : EReal)) (b : Fin 4) (t : Fin 4096) :
    ∃ m : ℝ, Finset.univ.sup (masked x wq wk b t) = (m : EReal) :=
  sup_real _ (fun p => masked_cases x wq wk hx hq hk b t p) ⟨t, masked_self_real x wq wk hx hq hk b t⟩

/-- block 0 holds a real masked logit for every query -/
theorem masked_blk0_real (hx : ∀ i, ∃ r : ℝ, x i = (r : EReal)) (hq : ∀ i, ∃ r : ℝ, wq i = (r : EReal))
    (hk : ∀ i, ∃ r : ℝ, wk i = (r : EReal)) (b : Fin 4) (t : Fin 4096) :
    ∃ j : Fin 1024, ∃ r : ℝ, masked x wq wk b t (blk 0 j) = (r : EReal) := by
  obtain ⟨j, r, hr⟩ := masked_block0_real x wq wk hx hq hk b t
  exact ⟨j, r, by rw [blk_zero]; exact hr⟩

/-- Causal attention on real inputs, read over the key blocks 0..t/1024 of the query position t: the
    softmax weights are taken against the maximum and the normaliser of those blocks alone. -/
theorem attn_eq_blocks (hx : ∀ i, ∃ r : ℝ, x i = (r : EReal)) (hq : ∀ i, ∃ r : ℝ, wq i = (r : EReal))
    (hk : ∀ i, ∃ r : ℝ, wk i = (r : EReal)) (b : Fin 4) (t : Fin 4096) (d : Fin 128) :
    let M' : EReal := (Finset.range (t.val / 1024 + 1)).sup fun i =>
      Finset.univ.sup fun j : Fin 1024 => masked x wq wk b t (blk i j)
    let L' : EReal := ∑ i ∈ Finset.range (t.val / 1024 + 1), ∑ j : Fin 1024,
      Ideal.exp (masked x wq wk b t (blk i j) - M')
    attn x wq wk wv b t d
      = ∑ i ∈ Finset.range (t.val / 1024 + 1), ∑ j : Fin 1024,
          Ideal.div (Ideal.exp (masked x wq wk b t (blk i j) - M')) L' * proj x wv b (blk i j) d := by
  have hqi : t.val / 1024 < 4 := by have := t.isLt; omega
  exact attn_blocks (masked x wq wk b t) (fun p => proj x wv b p d) (t.val / 1024) hqi
    (masked_later_block x wq wk b t) (rowMax_real x wq wk hx hq hk b t)

end Spec

end

end Cert.CausalBlocks
-- ==== Proof.KernelValue.lean ====
/-
  The attention kernel's output entry is the specification's.

  Fix a batch b, a query position t = 1024·qi + r and a feature d. Row r of the carried state, run through the
  qi + 1 tiles of query block qi, is the online-softmax recurrence over qi + 1 blocks of 1024 keys. Its logits are
  the scaled inner products of query row t with the keys of block i, masked on the diagonal block — which is the
  specification's masked logit at key position 1024·i + j, because every key of a block below the diagonal comes
  before t and key j of the diagonal block comes no later than t exactly when j ≤ r. Its values are the value
  projections at those key positions. The recurrence's quotient is the softmax-weighted sum over the blocks
  0..qi, and that is the specification's sum over all 4096 key positions, the later ones being masked.
-/
import proofs.«155321_j4011499454905_2_alg».proof.Proof.AttnRows
import proofs.«155321_j4011499454905_2_alg».proof.Proof.OnlineSoftmaxCongr
import proofs.«155321_j4011499454905_2_alg».proof.Proof.CausalBlocks
import proofs.«155321_j4011499454905_2_alg».proof.Proof.Reg1Data

noncomputable section

open scoped BigOperators

namespace Cert.KernelIdeal.HandValue

open Idealize.ShloMosaic Idealize.ShloMosaic.ValueIdx Idealize.ShloMosaic.TcCoe Idealize.SL.Sem
  Cert.KernelIdeal Cert.KernelIdeal.Gen Cert.KernelIdeal.Hand Cert.OnlineSoftmax
open Cert.AttnSpec (SX SW proj logit masked rowMax weight rowSum attn)
open Cert.CausalBlocks (blk blk_val)

section
variable (X : SX.Idx → EReal) (Wq Wk Wv : SW.Idx → EReal)

/-! ## A tile's logit is the specification's -/

/-- Query rows from the query projection at position tq, key rows from the key projection at position tk: the
    tile's scaled inner product is the logit of the two positions. -/
theorem sc_eq_logit (q k : Vec Ideal S1x1024x128 .bf16) (b : Fin 4) (tq tk : Fin 4096) (r j : Fin 1024)
    (hq : ∀ e : Fin 128, q (ix3 (0 : Fin 1) r e) = proj X Wq b tq e)
    (hk : ∀ e : Fin 128, k (ix3 (0 : Fin 1) j e) = proj X Wk b tk e) :
    sc q k r j = logit X Wq Wk b tq tk := by
  rw [Cert.AttnSpec.logit_eq_scaled]
  unfold sc
  refine congrArg (· * Ideal.ofBits .f32 0x3D000000#32) ?_
  refine Finset.sum_congr rfl fun e _ => ?_
  rw [hq e, hk e]

variable (b : Fin 4) (t : Fin 4096) (qi : ℕ) (r : Fin 1024) (ht : t.val = 1024 * qi + r.val)

include ht in
/-- The logit of row r against key j of the i-th tile of its query block, masked on the diagonal tile, is the
    specification's masked logit of position t against key position 1024·i + j. -/
theorem tile_logit (q k : Vec Ideal S1x1024x128 .bf16) (i : ℕ) (hi : i ≤ qi) (j : Fin 1024)
    (hq : ∀ e : Fin 128, q (ix3 (0 : Fin 1) r e) = proj X Wq b t e)
    (hk : ∀ e : Fin 128, k (ix3 (0 : Fin 1) j e) = proj X Wk b (blk i j) e) :
    (if i < qi then sc q k r j else if j.val ≤ r.val then sc q k r j else ⊥)
      = masked X Wq Wk b t (blk i j) := by
  have hsc := sc_eq_logit X Wq Wk q k b t (blk i j) r j hq hk
  have htl := t.isLt
  have hb := blk_val i (by omega) j
  have hjl := j.isLt
  have hrl := r.isLt
  by_cases h : i < qi
  · rw [if_pos h, hsc, Cert.AttnSpec.masked_of_le X Wq Wk b t (blk i j) (by omega)]
  · rw [if_neg h]
    by_cases hj : j.val ≤ r.val
    · rw [if_pos hj, hsc, Cert.AttnSpec.masked_of_le X Wq Wk b t (blk i j) (by omega)]
    · rw [if_neg hj, Cert.AttnSpec.masked_of_gt X Wq Wk b t (blk i j) (by omega)]

include ht in
/-- Row r's recurrence over the tiles of its query block is the recurrence over the specification's masked
    logits and value projections, block by block. -/
theorem row_run_eq (Q K V : ℕ → Vec Ideal S1x1024x128 .bf16)
    (hQ : ∀ i, i ≤ qi → ∀ e : Fin 128, Q i (ix3 (0 : Fin 1) r e) = proj X Wq b t e)
    (hK : ∀ i, i ≤ qi → ∀ (j : Fin 1024) (e : Fin 128), K i (ix3 (0 : Fin 1) j e) = proj X Wk b (blk i j) e)
    (hV : ∀ i, i ≤ qi → ∀ (j : Fin 1024) (e : Fin 128), V i (ix3 (0 : Fin 1) j e) = proj X Wv b (blk i j) e) :
    run (fun (i : ℕ) (j : Fin 1024) => if i < qi then sc (Q i) (K i) r j
            else if j.val ≤ r.val then sc (Q i) (K i) r j else ⊥)
        (fun (i : ℕ) (j : Fin 1024) (d : Fin 128) => V i (ix3 (0 : Fin 1) j d)) (qi + 1)
      = run (fun (i : ℕ) (j : Fin 1024) => masked X Wq Wk b t (blk i j))
          (fun (i : ℕ) (j : Fin 1024) (d : Fin 128) => proj X Wv b (blk i j) d) (qi + 1) :=
  run_congr _ _ _ _ (qi + 1)
    (fun i hi => funext fun j => tile_logit X Wq Wk b t qi r ht (Q i) (K i) i (by omega) j
      (hQ i (by omega)) (hK i (by omega) j))
    (fun i hi => funext fun j => funext fun d => hV i (by omega) j d)

/-! ## The recurrence's quotient is the specification -/

variable (hx : ∀ i, ∃ ρ : ℝ, X i = (ρ : EReal)) (hq : ∀ i, ∃ ρ : ℝ, Wq i = (ρ : EReal))
  (hk : ∀ i, ∃ ρ : ℝ, Wk i = (ρ : EReal)) (hv : ∀ i, ∃ ρ : ℝ, Wv i = (ρ : EReal)) (d : Fin 128)

include hx hq hk hv in
/-- On real inputs the recurrence over the specification's blocks 0..t/1024, divided out, is the
    specification's entry: the recurrence's law, then the passage from the blocks to all 4096 positions. -/
theorem spec_run_quot :
    Ideal.div
        ((run (fun (i : ℕ) (j : Fin 1024) => masked X Wq Wk b t (blk i j))
          (fun (i : ℕ) (j : Fin 1024) (d : Fin 128) => proj X Wv b (blk i j) d) (t.val / 1024 + 1)).acc d)
        ((run (fun (i : ℕ) (j : Fin 1024) => masked X Wq Wk b t (blk i j))
          (fun (i : ℕ) (j : Fin 1024) (d : Fin 128) => proj X Wv b (blk i j) d) (t.val / 1024 + 1)).l)
      = attn X Wq Wk Wv b t d := by
  refine Eq.trans ?_ (Cert.CausalBlocks.attn_eq_blocks X Wq Wk Wv hx hq hk b t d).symm
  exact run_quot (fun (i : ℕ) (j : Fin 1024) => masked X Wq Wk b t (blk i j))
    (fun (i : ℕ) (j : Fin 1024) (d : Fin 128) => proj X Wv b (blk i j) d) (t.val / 1024)
    (fun i _ j => Cert.AttnSpec.masked_cases X Wq Wk hx hq hk b t (blk i j))
    (Cert.CausalBlocks.masked_blk0_real X Wq Wk hx hq hk b t)
    (fun i _ j d => Cert.AttnSpec.proj_real X hx Wv hv b (blk i j) d) d

include ht hx hq hk hv in
/-- The carried state after the qi + 1 tiles of query block qi, whatever it was before them: its output block at
    row r, feature d is the specification's entry at position t = 1024·qi + r. -/
theorem out_eq_attn (W0 W1 : ℕ → BitVec 32) (Q K V : ℕ → Vec Ideal S1x1024x128 .bf16) (n₀ : ℕ)
    (hW0 : ∀ i, i ≤ qi → W0 (n₀ + i) = BitVec.ofNat 32 qi)
    (hW1 : ∀ i, i ≤ qi → W1 (n₀ + i) = BitVec.ofNat 32 i)
    (hQ : ∀ i, i ≤ qi → ∀ e : Fin 128, Q (n₀ + i) (ix3 (0 : Fin 1) r e) = proj X Wq b t e)
    (hK : ∀ i, i ≤ qi → ∀ (j : Fin 1024) (e : Fin 128), K (n₀ + i) (ix3 (0 : Fin 1) j e) = proj X Wk b (blk i j) e)
    (hV : ∀ i, i ≤ qi → ∀ (j : Fin 1024) (e : Fin 128), V (n₀ + i) (ix3 (0 : Fin 1) j e) = proj X Wv b (blk i j) e) :
    (Scr.out (scrAt (F := Ideal) W0 W1 Q K V (n₀ + qi + 1)) (ix3 (0 : Fin 1) r d) : EReal)
      = attn X Wq Wk Wv b t d := by
  have htl := t.isLt
  have hrl := r.isLt
  have hqi : qi < 4 := by omega
  have hqe : qi = t.val / 1024 := by omega
  have h := rowSt_scrAt_block_end W0 W1 Q K V n₀ qi hqi hW0 hW1 r
  have hacc := congrArg (fun st : St (Fin 128) => st.acc d) h
  have hl := congrArg (fun st : St (Fin 128) => st.l) h
  rw [out_apply]
  refine Eq.trans (congrArg₂ Ideal.div hacc hl) ?_
  have e := row_run_eq X Wq Wk Wv b t qi r ht (fun i => Q (n₀ + i)) (fun i => K (n₀ + i)) (fun i => V (n₀ + i)) hQ hK hV
  refine Eq.trans (congrArg (fun st : St (Fin 128) => Ideal.div (st.acc d) st.l) e) ?_
  subst hqe
  exact spec_run_quot X Wq Wk Wv b t hx hq hk hv d

end

/-! ## The kernel's output array -/

section
variable (V2 : (c : Dev nD) → (b : Ref sig .tc) → Buf (Elt Ideal) ((c : Thread nD τ).loc b))
  (a1 : (pcfg1 (F := Ideal)).Adm) (c : Dev nD)
  (X : SX.Idx → EReal) (Wq Wk Wv : SW.Idx → EReal)
  (hx : ∀ i, ∃ ρ : ℝ, X i = (ρ : EReal)) (hq : ∀ i, ∃ ρ : ℝ, Wq i = (ρ : EReal))
  (hk : ∀ i, ∃ ρ : ℝ, Wk i = (ρ : EReal)) (hv : ∀ i, ∃ ρ : ℝ, Wv i = (ρ : EReal))
  (b : Fin 4) (t : Fin 4096) (d : Fin 128)

include hx hq hk hv in
/-- The output array after the attention region, at (b, t, d), is the specification's entry, given: the entry is
    what the diagonal tile of t's query block wrote back; the table words and the three input blocks along the
    tiles of that query block; and the three input arrays being the projections. -/
theorem kernel_value (n₀ : ℕ)
    (hOut : (dat1 V2 a1 c).arrAt 3 (cfg1 a1).N (ix3 b t d)
      = Scr.out (st1 V2 a1 c (n₀ + t.val / 1024 + 1))
          (ix3 (0 : Fin 1) (⟨t.val % 1024, Nat.mod_lt _ (by norm_num)⟩ : Fin 1024) d))
    (hW0 : ∀ i, i ≤ t.val / 1024 → tw0N a1 (n₀ + i) = BitVec.ofNat 32 (t.val / 1024))
    (hW1 : ∀ i, i ≤ t.val / 1024 → tw1N a1 (n₀ + i) = BitVec.ofNat 32 i)
    (hQblk : ∀ i, i ≤ t.val / 1024 → ∀ e : Fin 128,
      qN V2 a1 c (n₀ + i) (ix3 (0 : Fin 1) (⟨t.val % 1024, Nat.mod_lt _ (by norm_num)⟩ : Fin 1024) e)
        = V2 c main_v2_0 (ix3 b t e))
    (hKblk : ∀ i, i ≤ t.val / 1024 → ∀ (j : Fin 1024) (e : Fin 128),
      kN V2 a1 c (n₀ + i) (ix3 (0 : Fin 1) j e) = V2 c main_v2_1 (ix3 b (blk i j) e))
    (hVblk : ∀ i, i ≤ t.val / 1024 → ∀ (j : Fin 1024) (e : Fin 128),
      vN V2 a1 c (n₀ + i) (ix3 (0 : Fin 1) j e) = V2 c main_v2_2 (ix3 b (blk i j) e))
    (hQ : ∀ (b : Fin 4) (t : Fin 4096) (e : Fin 128), V2 c main_v2_0 (ix3 b t e) = proj X Wq b t e)
    (hK : ∀ (b : Fin 4) (t : Fin 4096) (e : Fin 128), V2 c main_v2_1 (ix3 b t e) = proj X Wk b t e)
    (hV : ∀ (b : Fin 4) (t : Fin 4096) (e : Fin 128), V2 c main_v2_2 (ix3 b t e) = proj X Wv b t e) :
    (dat1 V2 a1 c).arrAt 3 (cfg1 a1).N (ix3 b t d) = attn X Wq Wk Wv b t d := by
  rw [hOut]
  exact out_eq_attn X Wq Wk Wv b t (t.val / 1024) ⟨t.val % 1024, Nat.mod_lt _ (by norm_num)⟩
    (Nat.div_add_mod t.val 1024).symm hx hq hk hv d
    (tw0N a1) (tw1N a1) (qN V2 a1 c) (kN V2 a1 c) (vN V2 a1 c) n₀ hW0 hW1
    (fun i hi e => (hQblk i hi e).trans (hQ b t e))
    (fun i hi j e => (hKblk i hi j e).trans (hK b (blk i j) e))
    (fun i hi j e => (hVblk i hi j e).trans (hV b (blk i j) e))

end

end Cert.KernelIdeal.HandValue

end
-- ==== Proof.PreFinite.lean ====
/-
  From the precondition to finiteness of the four inputs. The precondition says that a conjunction of four
  "every entry has absolute value below plus infinity" tests is true. Each test is a reduction by "and" over a
  whole array, so it holds entrywise; and an extended real whose absolute value is below plus infinity is
  neither infinity, hence a real number.
-/
import proofs.«155321_j4011499454905_2_alg».proof.Defs
import proofs.«155321_j4011499454905_2_alg».proof.Proof.Gen.Pre_finite_inputs
import Idealize.ShloMosaic.Lib.ReduceAll
import Idealize.ShloMosaic.Lib.ValueIdx
import Idealize.ShloMosaic.Lib.IdealHost

noncomputable section

namespace Cert.PreFinite

open Idealize.ShloMosaic Idealize.SL.Sem
open Cert.Pre_finite_inputs

/-- A shape of rank zero has one index. -/
instance : Subsingleton S_.Idx := ⟨fun a b => funext fun d => d.elim0⟩

/-- The bit pattern the tests compare against denotes plus infinity. -/
theorem inf_bits : Ideal.ofBits .f32 0x7F800000#32 = (⊤ : EReal) := by
  simp [Ideal.ofBits, Ideal.ieee]

/-- An extended real whose absolute value is strictly below plus infinity is a real number. -/
theorem real_of_abs_lt (x : EReal) (h : Ideal.cmp .olt (max x (-x)) (Ideal.ofBits .f32 0x7F800000#32) = 1#1) :
    ∃ r : ℝ, x = (r : EReal) := by
  rw [inf_bits] at h
  have hlt : max x (-x) < ⊤ := by
    by_contra hn
    simp [Ideal.cmp, hn] at h
  induction x using EReal.rec with
  | bot => simp at hlt
  | coe r => exact ⟨r, rfl⟩
  | top => simp at hlt

/-- One test: if the reduction by "and" of "absolute value below plus infinity" over an array is true, every
    entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf (F := Ideal) x) (broadcastInDim s ![] hb (constant (F := Ideal) S_ .f32 0x7F800000#32)))
        (constantI S_ 1 1#1) hr hu ValueIdx.ix0 = 1#1) (i : s.Idx) : ∃ r : ℝ, x i = (r : EReal) := by
  have h := Host.reduce_andi_all _ _ hr hu ValueIdx.ix0 e i
  exact real_of_abs_lt (x i) h

theorem finite_of_pre {m : (ℓ : Loc Cert.KernelIdeal.nD Cert.KernelIdeal.τ Cert.KernelIdeal.sig) → Buf (Elt Ideal) ℓ}
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_real _ _ _ _ h0', all_real _ _ _ _ h1, all_real _ _ _ _ h2, all_real _ _ _ _ h3⟩

end Cert.PreFinite

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.ProjPayload.lean ====
/-
  The arithmetic of the projection body at one entry, floats read exactly as extended reals.

  The body multiplies its block of 1024 input rows (1024 wide) by the 1024 × 384 matrix of weights into a zero
  accumulator, and stores columns 0–127, 128–255 and 256–383 of that product as the query, key and value blocks.
  Narrowing to the shorter float format is the identity on extended reals, the accumulator contributes 0 + ·, and a
  cast that drops or adds a leading axis of extent one, or cuts a band of columns, only renames the index. So entry
  (p, d) of each stored block is the sum over e of  x(p, e) · w(e, d + o)  with o = 0, 128, 256: an equation between
  finite sums of products, true at the infinities as well.
-/
import proofs.«155321_j4011499454905_2_alg».proof.Proof.Gen.KernelIdeal.Skeleton
import proofs.«155321_j4011499454905_2_alg».proof.Proof.LibPlainMatmul
import Idealize.ShloMosaic.Lib.Pipeline.Value
import Idealize.ShloMosaic.Lib.ValueIdx

noncomputable section

open scoped BigOperators

namespace Cert.KernelIdeal.HandValue

open Idealize.ShloMosaic Idealize.ShloMosaic.ValueIdx
open Cert.KernelIdeal Cert.KernelIdeal.Gen

/-- The block product at (p, q): row p of the input block against column q of the weights. -/
theorem blockProduct_apply (x0 : Vec Ideal S1x1024x1024 .f32) (x1 : Vec Ideal S1024x384 .bf16) (p : Fin 1024) (q : Fin 384) :
    (k0_pay1 (F := Ideal) x0 x1 (ix2 p q) : EReal) = ∑ e : Fin 1024, x0 (ix3 (0 : Fin 1) p e) * x1 (ix2 e q) := by
  unfold k0_pay1
  refine (PlainMatmul.matmul_plain_zero_apply (m := 1024) (k := 1024) (n := 384) none _ _ p q).trans ?_
  refine Finset.sum_congr rfl fun e _ => ?_
  rw [shapeCast_self]
  refine congrArg (· * x1 (ix2 e q)) ?_
  show shapeCast S1024x1024 x0 _ (ix2 p e) = x0 (ix3 (0 : Fin 1) p e)
  refine (shapeCast_dropUnit_apply ![1024, 1024] x0 _ (ix2 p e)).trans ?_
  congr 1
  funext a
  match a with
  | ⟨0, _⟩ => rfl
  | ⟨1, _⟩ => rfl
  | ⟨2, _⟩ => rfl

/-- A band of 128 columns cut out of a 1024 × 384 array at column offset o, narrowed, and given a leading axis of
    extent one, read at (0, p, d): the array at (p, o + d). -/
theorem colBand_apply (y : FVec Ideal S1024x384 .f32) (o : Nat) (h : S1024x384.Slices ![0, o] S1024x128)
    (p : Fin 1024) (d : Fin 128) (q : Fin 384) (hq : q.val = o + d.val) :
    (shapeCast S1x1024x128 (truncf .bf16 (extractStridedSlice S1024x128 ![0, o] y h) Facts₀.bitsLt_bf16_f32)
        Facts₀.shapeCasts_S1024x128_S1x1024x128 (ix3 (0 : Fin 1) p d) : EReal) = y (ix2 p q) := by
  refine (shapeCast_addUnit_apply ![1024, 128] _ Facts₀.shapeCasts_S1024x128_S1x1024x128 (ix3 (0 : Fin 1) p d)).trans ?_
  refine (truncf_apply (extractStridedSlice S1024x128 ![0, o] y h) Facts₀.bitsLt_bf16_f32 _).trans ?_
  refine extractStridedSlice_apply ![0, o] y h _ (ix2 p q) fun a => ?_
  match a with
  | ⟨0, _⟩ => show p.val = 0 + p.val; omega
  | ⟨1, _⟩ => show q.val = o + d.val; exact hq

/-- The three stored blocks as the bands of the block product at column offsets 0, 128 and 256. -/
theorem qBlock_def (x0 : Vec Ideal S1x1024x1024 .f32) (x1 : Vec Ideal S1024x384 .bf16) :
    k0_pay2 (F := Ideal) x0 x1 = shapeCast S1x1024x128 (truncf .bf16 (extractStridedSlice S1024x128 ![0, 0]
      (k0_pay1 (F := Ideal) x0 x1) Facts₀.slices_S1024x384_o0_0_S1024x128) Facts₀.bitsLt_bf16_f32)
      Facts₀.shapeCasts_S1024x128_S1x1024x128 := rfl
theorem kBlock_def (x0 : Vec Ideal S1x1024x1024 .f32) (x1 : Vec Ideal S1024x384 .bf16) :
    k0_pay3 (F := Ideal) x0 x1 = shapeCast S1x1024x128 (truncf .bf16 (extractStridedSlice S1024x128 ![0, 128]
      (k0_pay1 (F := Ideal) x0 x1) Facts₀.slices_S1024x384_o0_128_S1024x128) Facts₀.bitsLt_bf16_f32)
      Facts₀.shapeCasts_S1024x128_S1x1024x128 := rfl
theorem vBlock_def (x0 : Vec Ideal S1x1024x1024 .f32) (x1 : Vec Ideal S1024x384 .bf16) :
    k0_pay4 (F := Ideal) x0 x1 = shapeCast S1x1024x128 (truncf .bf16 (extractStridedSlice S1024x128 ![0, 256]
      (k0_pay1 (F := Ideal) x0 x1) Facts₀.slices_S1024x384_o0_256_S1024x128) Facts₀.bitsLt_bf16_f32)
      Facts₀.shapeCasts_S1024x128_S1x1024x128 := rfl

/-- The stored query block at (p, d): row p of the input block against column d of the weights. -/
theorem qBlock_apply (x0 : Vec Ideal S1x1024x1024 .f32) (x1 : Vec Ideal S1024x384 .bf16) (p : Fin 1024) (d : Fin 128) :
    (k0_pay2 (F := Ideal) x0 x1 (ix3 (0 : Fin 1) p d) : EReal)
      = ∑ e : Fin 1024, x0 (ix3 (0 : Fin 1) p e) * x1 (ix2 e (⟨d.val, by omega⟩ : Fin 384)) :=
  (congrFun (qBlock_def x0 x1) _).trans <|
    (colBand_apply (k0_pay1 (F := Ideal) x0 x1) 0 _ p d ⟨d.val, by omega⟩ (by show d.val = 0 + d.val; omega)).trans
      (blockProduct_apply x0 x1 p _)

/-- The stored key block at (p, d): row p of the input block against column d + 128 of the weights. -/
theorem kBlock_apply (x0 : Vec Ideal S1x1024x1024 .f32) (x1 : Vec Ideal S1024x384 .bf16) (p : Fin 1024) (d : Fin 128) :
    (k0_pay3 (F := Ideal) x0 x1 (ix3 (0 : Fin 1) p d) : EReal)
      = ∑ e : Fin 1024, x0 (ix3 (0 : Fin 1) p e) * x1 (ix2 e (⟨d.val + 128, by omega⟩ : Fin 384)) :=
  (congrFun (kBlock_def x0 x1) _).trans <|
    (colBand_apply (k0_pay1 (F := Ideal) x0 x1) 128 _ p d ⟨d.val + 128, by omega⟩ (by show d.val + 128 = 128 + d.val; omega)).trans
      (blockProduct_apply x0 x1 p _)

/-- The stored value block at (p, d): row p of the input block against column d + 256 of the weights. -/
theorem vBlock_apply (x0 : Vec Ideal S1x1024x1024 .f32) (x1 : Vec Ideal S1024x384 .bf16) (p : Fin 1024) (d : Fin 128) :
    (k0_pay4 (F := Ideal) x0 x1 (ix3 (0 : Fin 1) p d) : EReal)
      = ∑ e : Fin 1024, x0 (ix3 (0 : Fin 1) p e) * x1 (ix2 e (⟨d.val + 256, by omega⟩ : Fin 384)) :=
  (congrFun (vBlock_def x0 x1) _).trans <|
    (colBand_apply (k0_pay1 (F := Ideal) x0 x1) 256 _ p d ⟨d.val + 256, by omega⟩ (by show d.val + 256 = 256 + d.val; omega)).trans
      (blockProduct_apply x0 x1 p _)

end Cert.KernelIdeal.HandValue

end
-- ==== Proof.ValueReg0.lean ====
/-
  What the projection region leaves in its three output arrays, entry by entry.

  The region visits 16 grid points, point 4·b + i for batch b and row block i. At each point it reads rows
  1024·i … 1024·i + 1023 of batch b of the input and the whole 1024 × 384 matrix of weights, and writes block (b, i)
  of each of the three outputs: columns 0–127, 128–255, 256–383 of the block product. Row p of the block is row
  1024·i + p of the batch, so entry (p, d) of the block written at that point is entry (b, 1024·i + p, d) of ONE function
  of the whole arrays — row (b, t) of the input against column d + o of the weights, o = 0, 128, 256. The 16 blocks tile
  each 4 × 4096 × 128 output (the point that covers row t of batch b is 4·b + t / 1024), and every point writes its
  block back, so each output array ends holding that function everywhere.
-/
import proofs.«155321_j4011499454905_2_alg».proof.Proof.Reg0Data
import proofs.«155321_j4011499454905_2_alg».proof.Proof.ProjPayload
import Idealize.ShloMosaic.Lib.Pipeline.Value
import Idealize.ShloMosaic.Lib.ValueIdx

noncomputable section

open scoped BigOperators

namespace Cert.KernelIdeal.HandValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The input and the joined weights as the region finds them, as functions of their indices. -/
abbrev xIn (c : Dev nD) : S4x4096x1024.Idx → EReal := V c main_arg0
abbrev wIn (c : Dev nD) : S1024x384.Idx → EReal := V c main_v1

theorem zeros3 : (![0, 0, 0] : Fin 3 → Nat) = fun _ => 0 := funext fun a => by fin_cases a <;> rfl
theorem zeros2 : (![0, 0] : Fin 2 → Nat) = fun _ => 0 := funext fun a => by fin_cases a <;> rfl

/-- Row (b, t) of the input against column q of the weights. -/
def rowEntry (X : S4x4096x1024.Idx → EReal) (W : S1024x384.Idx → EReal) (b : Fin 4) (t : Fin 4096) (q : Fin 384) : EReal :=
  ∑ e : Fin 1024, X (ix3 b t e) * W (ix2 e q)

theorem rowEntry_def (X : S4x4096x1024.Idx → EReal) (W : S1024x384.Idx → EReal) (b : Fin 4) (t : Fin 4096) (q : Fin 384) :
    rowEntry X W b t q = ∑ e : Fin 1024, X (ix3 b t e) * W (ix2 e q) := rfl

/-- The same as a function of an output index: row (i 0, i 1) against column (i 2) + o. -/
def rowCol (X : S4x4096x1024.Idx → EReal) (W : S1024x384.Idx → EReal) (o : Nat) (ho : o + 128 ≤ 384) :
    S4x4096x128.Idx → EReal := fun i =>
  rowEntry X W (⟨(i 0).val, (i 0).isLt⟩ : Fin 4) (⟨(i 1).val, (i 1).isLt⟩ : Fin 4096)
    (⟨(i 2).val + o, by have h : (i 2).val < 128 := (i 2).isLt; omega⟩ : Fin 384)

/-- The index maps over the grid: the input's block moves with each output's block on the batch and row axes, the
    weights' block is the whole matrix, and an output's block index is (batch, row block, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-- The weights' block at any point is the whole matrix. -/
theorem wblk_apply (c : Dev nD) (t : Fin cfg0.N) (e : Fin 1024) (q : Fin 384) :
    (iblk0 V c 1 t : Vec Ideal S1024x384 .bf16) (ix2 e q) = (V c main_v1 : S1024x384.Idx → EReal) (ix2 e q) := by
  obtain ⟨-, -, -, w0, w1, -⟩ := idx_facts t
  show (V c main_v1 : S1024x384.Idx → EReal) (((cfg0.win 1).blk t).view.emb (ix2 e q)) = _
  refine congrArg (V c main_v1 : S1024x384.Idx → EReal) ?_
  funext a; apply Fin.ext
  match a with
  | ⟨0, _⟩ => show win0_1.index t (0 : Fin 2) * 1024 + 1 * e.val = e.val; omega
  | ⟨1, _⟩ => show win0_1.index t (1 : Fin 2) * 384 + 1 * q.val = q.val; omega

/-- Row p of the input's block at point t is row 1024·(t mod 4) + p of batch t / 4. -/
theorem xblk_apply (c : Dev nD) (t : Fin cfg0.N) (p : Fin 1024) (e : Fin 1024) (b : Fin 4) (r : Fin 4096)
    (hb : b.val = t.val / 4) (hr : r.val = t.val % 4 * 1024 + p.val) :
    (iblk0 V c 0 t : Vec Ideal S1x1024x1024 .f32) (ix3 (0 : Fin 1) p e) = (V c main_arg0 : S4x4096x1024.Idx → EReal) (ix3 b r e) := by
  obtain ⟨x0, x1, x2, -⟩ := idx_facts t
  show (V c main_arg0 : S4x4096x1024.Idx → EReal) (((cfg0.win 0).blk t).view.emb (ix3 (0 : Fin 1) p e)) = _
  refine congrArg (V c main_arg0 : S4x4096x1024.Idx → EReal) ?_
  funext a; apply Fin.ext
  match a with
  | ⟨0, _⟩ => show win0_0.index t (0 : Fin 3) * 1 + 1 * 0 = b.val; omega
  | ⟨1, _⟩ => show win0_0.index t (1 : Fin 3) * 1024 + 1 * p.val = r.val; omega
  | ⟨2, _⟩ => show win0_0.index t (2 : Fin 3) * 1024 + 1 * e.val = e.val; omega

/-! ## The query array (window 2, column offset 0) -/

/-- Every block of the query array is some point's. -/
theorem idx_onto2 : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- What point t writes back to the query array is block t of the whole-array function. -/
theorem flushed2_eq (c : Dev nD) (t : Fin cfg0.N) :
    (dat0 (F := Ideal) V c).flushed 2 t
      = ((cfg0.win 2).blk t).view.read (Elt Ideal) (rowCol (V c main_arg0) (V c main_v1) 0 (by omega)) := by
  show (cfg0.win 2).cut (grid0.coords t) ((dat0 (F := Ideal) V c).after 2 t) = _
  rw [after0_2]
  unfold out0_2
  rw [View.canon_unit_zero zeros3]
  simp only [View.ld_unit_zero (S := S1x1024x1024) zeros3, View.ld_unit_zero (S := S1024x384) zeros2]
  obtain ⟨-, -, -, -, -, o0, o1, o2, -⟩ := idx_facts t
  funext j
  have hj0 : (j 0).val < 1 := (j 0).isLt
  have hj1 : (j 1).val < 1024 := (j 1).isLt
  have hj2 : (j 2).val < 128 := (j 2).isLt
  show k0_pay2 (F := Ideal) (iblk0 V c 0 t) (iblk0 V c 1 t) j
    = rowCol (V c main_arg0) (V c main_v1) 0 (by omega) (((cfg0.win 2).blk t).view.emb j)
  have e0 : ((((cfg0.win 2).blk t).view.emb j) 0).val = t.val / 4 := by
    show win0_2.index t (0 : Fin 3) * 1 + 1 * (j 0).val = _; omega
  have e1 : ((((cfg0.win 2).blk t).view.emb j) 1).val = t.val % 4 * 1024 + (j 1).val := by
    show win0_2.index t (1 : Fin 3) * 1024 + 1 * (j 1).val = _; omega
  have e2 : ((((cfg0.win 2).blk t).view.emb j) 2).val = (j 2).val := by
    show win0_2.index t (2 : Fin 3) * 128 + 1 * (j 2).val = _; omega
  have hjx : j = ix3 (0 : Fin 1) (⟨(j 1).val, hj1⟩ : Fin 1024) (⟨(j 2).val, hj2⟩ : Fin 128) := by
    funext a; apply Fin.ext
    match a with
    | ⟨0, _⟩ => show (j 0).val = 0; omega
    | ⟨1, _⟩ => rfl
    | ⟨2, _⟩ => rfl
  refine ((congrArg (k0_pay2 (F := Ideal) (iblk0 V c 0 t) (iblk0 V c 1 t)) hjx).trans (qBlock_apply _ _ _ _)).trans ?_
  unfold rowCol rowEntry
  refine Finset.sum_congr rfl fun e _ => ?_
  refine congrArg₂ (· * ·) ?_ ?_
  · exact xblk_apply V c t ⟨(j 1).val, hj1⟩ e _ _ e0 e1
  · refine (wblk_apply V c t e _).trans ?_
    refine congrArg (V c main_v1 : S1024x384.Idx → EReal) ?_
    funext a; apply Fin.ext
    match a with
    | ⟨0, _⟩ => rfl
    | ⟨1, _⟩ => show (j 2).val = ((((cfg0.win 2).blk t).view.emb j) 2).val + 0; rw [e2]; rfl

/-- An index of the query array is in point t's block iff each coordinate is in the block's range. -/
theorem mem_blk2 (t : Fin cfg0.N) (i : S4x4096x128.Idx) :
    i ∈ ((cfg0.win 2).blk t).view.set ↔ ∀ a : Fin 3, win0_2.index t a * S1x1024x128.size a ≤ (i a).val ∧ (i a).val < win0_2.index t a * S1x1024x128.size a + S1x1024x128.size a := by
  show i ∈ ((View.whole main_v2_0).slice (win0_2.rect t)).set ↔ _
  rw [View.set_slice_whole, Rect.mem_set_unit]
  exact Iff.rfl

/-- The 16 blocks tile the query array. -/
theorem covered2 (i : S4x4096x128.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 128 := (i 2).isLt
  obtain ⟨t, ht⟩ := idx_onto2 ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 128 ≤ (i 2).val ∧ (i 2).val < win0_2.index t (2 : Fin 3) * 128 + 128; omega

/-- The query array when the region ends. -/
theorem final2 (c : Dev nD) :
    (dat0 (F := Ideal) V c).arrAt 2 cfg0.N = rowCol (V c main_arg0) (V c main_v1) 0 (by omega) :=
  (dat0 (F := Ideal) V c).arrAt_eq_of_cover 2 (rowCol (V c main_arg0) (V c main_v1) 0 (by omega))
    (fun t _ => flushed2_eq V c t) covered2

/-- Entry (b, t, d) of the query array: row (b, t) of the input against column d of the weights. -/
theorem proj_q (c : Dev nD) (b : Fin 4) (t : Fin 4096) (d : Fin 128) :
    @Eq EReal ((dat0 (F := Ideal) V c).arrAt 2 cfg0.N (ix3 b t d))
      (∑ e : Fin 1024, xIn V c (ix3 b t e) * wIn V c (ix2 e (⟨d.val, by omega⟩ : Fin 384))) :=
  (congrFun (final2 V c) (ix3 b t d)).trans rfl

/-! ## The key array (window 3, column offset 128) -/

/-- Every block of the key array is some point's. -/
theorem idx_onto3 : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- What point t writes back to the key array is block t of the whole-array function. -/
theorem flushed3_eq (c : Dev nD) (t : Fin cfg0.N) :
    (dat0 (F := Ideal) V c).flushed 3 t
      = ((cfg0.win 3).blk t).view.read (Elt Ideal) (rowCol (V c main_arg0) (V c main_v1) 128 (by omega)) := by
  show (cfg0.win 3).cut (grid0.coords t) ((dat0 (F := Ideal) V c).after 3 t) = _
  rw [after0_3]
  unfold out0_3
  rw [View.canon_unit_zero zeros3]
  simp only [View.ld_unit_zero (S := S1x1024x1024) zeros3, View.ld_unit_zero (S := S1024x384) zeros2]
  obtain ⟨-, -, -, -, -, -, -, -, o0, o1, o2, -⟩ := idx_facts t
  funext j
  have hj0 : (j 0).val < 1 := (j 0).isLt
  have hj1 : (j 1).val < 1024 := (j 1).isLt
  have hj2 : (j 2).val < 128 := (j 2).isLt
  show k0_pay3 (F := Ideal) (iblk0 V c 0 t) (iblk0 V c 1 t) j
    = rowCol (V c main_arg0) (V c main_v1) 128 (by omega) (((cfg0.win 3).blk t).view.emb j)
  have e0 : ((((cfg0.win 3).blk t).view.emb j) 0).val = t.val / 4 := by
    show win0_3.index t (0 : Fin 3) * 1 + 1 * (j 0).val = _; omega
  have e1 : ((((cfg0.win 3).blk t).view.emb j) 1).val = t.val % 4 * 1024 + (j 1).val := by
    show win0_3.index t (1 : Fin 3) * 1024 + 1 * (j 1).val = _; omega
  have e2 : ((((cfg0.win 3).blk t).view.emb j) 2).val = (j 2).val := by
    show win0_3.index t (2 : Fin 3) * 128 + 1 * (j 2).val = _; omega
  have hjx : j = ix3 (0 : Fin 1) (⟨(j 1).val, hj1⟩ : Fin 1024) (⟨(j 2).val, hj2⟩ : Fin 128) := by
    funext a; apply Fin.ext
    match a with
    | ⟨0, _⟩ => show (j 0).val = 0; omega
    | ⟨1, _⟩ => rfl
    | ⟨2, _⟩ => rfl
  refine ((congrArg (k0_pay3 (F := Ideal) (iblk0 V c 0 t) (iblk0 V c 1 t)) hjx).trans (kBlock_apply _ _ _ _)).trans ?_
  unfold rowCol rowEntry
  refine Finset.sum_congr rfl fun e _ => ?_
  refine congrArg₂ (· * ·) ?_ ?_
  · exact xblk_apply V c t ⟨(j 1).val, hj1⟩ e _ _ e0 e1
  · refine (wblk_apply V c t e _).trans ?_
    refine congrArg (V c main_v1 : S1024x384.Idx → EReal) ?_
    funext a; apply Fin.ext
    match a with
    | ⟨0, _⟩ => rfl
    | ⟨1, _⟩ => show (j 2).val + 128 = ((((cfg0.win 3).blk t).view.emb j) 2).val + 128; rw [e2]

/-- An index of the key array is in point t's block iff each coordinate is in the block's range. -/
theorem mem_blk3 (t : Fin cfg0.N) (i : S4x4096x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v2_1).slice (win0_3.rect t)).set ↔ _
  rw [View.set_slice_whole, Rect.mem_set_unit]
  exact Iff.rfl

/-- The 16 blocks tile the key array. -/
theorem covered3 (i : S4x4096x128.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 128 := (i 2).isLt
  obtain ⟨t, ht⟩ := idx_onto3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- The key array when the region ends. -/
theorem final3 (c : Dev nD) :
    (dat0 (F := Ideal) V c).arrAt 3 cfg0.N = rowCol (V c main_arg0) (V c main_v1) 128 (by omega) :=
  (dat0 (F := Ideal) V c).arrAt_eq_of_cover 3 (rowCol (V c main_arg0) (V c main_v1) 128 (by omega))
    (fun t _ => flushed3_eq V c t) covered3

/-- Entry (b, t, d) of the key array: row (b, t) of the input against column d + 128 of the weights. -/
theorem proj_k (c : Dev nD) (b : Fin 4) (t : Fin 4096) (d : Fin 128) :
    @Eq EReal ((dat0 (F := Ideal) V c).arrAt 3 cfg0.N (ix3 b t d))
      (∑ e : Fin 1024, xIn V c (ix3 b t e) * wIn V c (ix2 e (⟨d.val + 128, by omega⟩ : Fin 384))) :=
  (congrFun (final3 V c) (ix3 b t d)).trans rfl

/-! ## The value array (window 4, column offset 256) -/

/-- Every block of the value array is some point's. -/
theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- What point t writes back to the value array is block t of the whole-array function. -/
theorem flushed4_eq (c : Dev nD) (t : Fin cfg0.N) :
    (dat0 (F := Ideal) V c).flushed 4 t
      = ((cfg0.win 4).blk t).view.read (Elt Ideal) (rowCol (V c main_arg0) (V c main_v1) 256 (by omega)) := by
  show (cfg0.win 4).cut (grid0.coords t) ((dat0 (F := Ideal) V c).after 4 t) = _
  rw [after0_4]
  unfold out0_4
  rw [View.canon_unit_zero zeros3]
  simp only [View.ld_unit_zero (S := S1x1024x1024) zeros3, View.ld_unit_zero (S := S1024x384) zeros2]
  obtain ⟨-, -, -, -, -, -, -, -, -, -, -, o0, o1, o2⟩ := idx_facts t
  funext j
  have hj0 : (j 0).val < 1 := (j 0).isLt
  have hj1 : (j 1).val < 1024 := (j 1).isLt
  have hj2 : (j 2).val < 128 := (j 2).isLt
  show k0_pay4 (F := Ideal) (iblk0 V c 0 t) (iblk0 V c 1 t) j
    = rowCol (V c main_arg0) (V c main_v1) 256 (by omega) (((cfg0.win 4).blk t).view.emb j)
  have e0 : ((((cfg0.win 4).blk t).view.emb j) 0).val = t.val / 4 := by
    show win0_4.index t (0 : Fin 3) * 1 + 1 * (j 0).val = _; omega
  have e1 : ((((cfg0.win 4).blk t).view.emb j) 1).val = t.val % 4 * 1024 + (j 1).val := by
    show win0_4.index t (1 : Fin 3) * 1024 + 1 * (j 1).val = _; omega
  have e2 : ((((cfg0.win 4).blk t).view.emb j) 2).val = (j 2).val := by
    show win0_4.index t (2 : Fin 3) * 128 + 1 * (j 2).val = _; omega
  have hjx : j = ix3 (0 : Fin 1) (⟨(j 1).val, hj1⟩ : Fin 1024) (⟨(j 2).val, hj2⟩ : Fin 128) := by
    funext a; apply Fin.ext
    match a with
    | ⟨0, _⟩ => show (j 0).val = 0; omega
    | ⟨1, _⟩ => rfl
    | ⟨2, _⟩ => rfl
  refine ((congrArg (k0_pay4 (F := Ideal) (iblk0 V c 0 t) (iblk0 V c 1 t)) hjx).trans (vBlock_apply _ _ _ _)).trans ?_
  unfold rowCol rowEntry
  refine Finset.sum_congr rfl fun e _ => ?_
  refine congrArg₂ (· * ·) ?_ ?_
  · exact xblk_apply V c t ⟨(j 1).val, hj1⟩ e _ _ e0 e1
  · refine (wblk_apply V c t e _).trans ?_
    refine congrArg (V c main_v1 : S1024x384.Idx → EReal) ?_
    funext a; apply Fin.ext
    match a with
    | ⟨0, _⟩ => rfl
    | ⟨1, _⟩ => show (j 2).val + 256 = ((((cfg0.win 4).blk t).view.emb j) 2).val + 256; rw [e2]

/-- An index of the value array is in point t's block iff each coordinate is in the block's range. -/
theorem mem_blk4 (t : Fin cfg0.N) (i : S4x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v2_2).slice (win0_4.rect t)).set ↔ _
  rw [View.set_slice_whole, Rect.mem_set_unit]
  exact Iff.rfl

/-- The 16 blocks tile the value array. -/
theorem covered4 (i : S4x4096x128.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 128 := (i 2).isLt
  obtain ⟨t, ht⟩ := idx_onto4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The value array when the region ends. -/
theorem final4 (c : Dev nD) :
    (dat0 (F := Ideal) V c).arrAt 4 cfg0.N = rowCol (V c main_arg0) (V c main_v1) 256 (by omega) :=
  (dat0 (F := Ideal) V c).arrAt_eq_of_cover 4 (rowCol (V c main_arg0) (V c main_v1) 256 (by omega))
    (fun t _ => flushed4_eq V c t) covered4

/-- Entry (b, t, d) of the value array: row (b, t) of the input against column d + 256 of the weights. -/
theorem proj_v (c : Dev nD) (b : Fin 4) (t : Fin 4096) (d : Fin 128) :
    @Eq EReal ((dat0 (F := Ideal) V c).arrAt 4 cfg0.N (ix3 b t d))
      (∑ e : Fin 1024, xIn V c (ix3 b t e) * wIn V c (ix2 e (⟨d.val + 256, by omega⟩ : Fin 384))) :=
  (congrFun (final4 V c) (ix3 b t d)).trans rfl

end Cert.KernelIdeal.HandValue

end
-- ==== Proof.HostPrefix.lean ====
/-
  The arrays the projection region is entered with, read off the host operations before it.

  Before the first kernel region the program writes two literal tables of ten words, joins the three 1024 × 128
  projection matrices side by side into one 1024 × 384 matrix (columns 0–127 the query matrix, 128–255 the key
  matrix, 256–383 the value matrix), and narrows that matrix to the shorter float format — the identity on
  extended reals. No host operation writes an argument. So the region finds the input as launched, the two tables at
  their literals, and at column d, d + 128, d + 256 of the joined matrix the entry of the query, key, value matrix
  at column d.
-/
import proofs.«155321_j4011499454905_2_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.HandValue

open Idealize.ShloMosaic Idealize.ShloMosaic.TcCoe Idealize.ShloMosaic.ValueIdx
open Idealize.SL.Sem
open Cert.KernelIdeal Cert.KernelIdeal.Gen

/-- Three 1024 × 128 arrays joined along the columns, read in each one's band of columns. -/
theorem join3_apply {α : Type} (u0 u1 u2 : S1024x128.Idx → α)
    (h : Shape.Concatenates [S1024x128, S1024x128, S1024x128] S1024x384 1) (e : Fin 1024) (d : Fin 128) :
    concatenate S1024x384 1 [⟨S1024x128, u0⟩, ⟨S1024x128, u1⟩, ⟨S1024x128, u2⟩] h (ix2 e (⟨d.val, by omega⟩ : Fin 384)) = u0 (ix2 e d)
    ∧ concatenate S1024x384 1 [⟨S1024x128, u0⟩, ⟨S1024x128, u1⟩, ⟨S1024x128, u2⟩] h (ix2 e (⟨d.val + 128, by omega⟩ : Fin 384)) = u1 (ix2 e d)
    ∧ concatenate S1024x384 1 [⟨S1024x128, u0⟩, ⟨S1024x128, u1⟩, ⟨S1024x128, u2⟩] h (ix2 e (⟨d.val + 256, by omega⟩ : Fin 384)) = u2 (ix2 e d) := by
  refine ⟨?_, ?_, ?_⟩
  · refine concatenate_apply_piece (t := S1024x384) (1 : Fin 2) ([⟨S1024x128, u0⟩, ⟨S1024x128, u1⟩, ⟨S1024x128, u2⟩] : List ((s : Shape) × (s.Idx → α))) h _ 0 (by show (0 : ℕ) < 3; decide) S1024x128 u0 rfl rfl 0 rfl (ix2 e d) (fun b hb => ?_) ?_
    · match b with
      | ⟨0, _⟩ => rfl
      | ⟨1, _⟩ => exact absurd rfl hb
    · show 0 + d.val = d.val; omega
  · refine concatenate_apply_piece (t := S1024x384) (1 : Fin 2) ([⟨S1024x128, u0⟩, ⟨S1024x128, u1⟩, ⟨S1024x128, u2⟩] : List ((s : Shape) × (s.Idx → α))) h _ 1 (by show (1 : ℕ) < 3; decide) S1024x128 u1 rfl rfl 128 rfl (ix2 e d) (fun b hb => ?_) ?_
    · match b with
      | ⟨0, _⟩ => rfl
      | ⟨1, _⟩ => exact absurd rfl hb
    · show 128 + d.val = d.val + 128; omega
  · refine concatenate_apply_piece (t := S1024x384) (1 : Fin 2) ([⟨S1024x128, u0⟩, ⟨S1024x128, u1⟩, ⟨S1024x128, u2⟩] : List ((s : Shape) × (s.Idx → α))) h _ 2 (by show (2 : ℕ) < 3; decide) S1024x128 u2 rfl rfl 256 rfl (ix2 e d) (fun b hb => ?_) ?_
    · match b with
      | ⟨0, _⟩ => rfl
      | ⟨1, _⟩ => exact absurd rfl hb
    · show 256 + d.val = d.val + 256; omega

/-- Narrowing the float format changes no entry of an array of extended reals. -/
theorem narrow_apply {s : Shape} (a : FVec Ideal s .f32) (i : s.Idx) (r : EReal) (h : a i = r) :
    (truncf .bf16 a Facts₀.bitsLt_bf16_f32 : FVec Ideal s .bf16) i = r := h

section AnyFloats

variable {F : FTy → Type} [FloatOps F] [Named F]
variable (m : (ℓ : Loc nD τ sig) → Buf (Elt F) ℓ)

/-- No host operation writes an argument. -/
theorem V1_arg0 (c : Dev nD) : Gen.V1 m c main_arg0 = m ((c : Thread nD τ).loc main_arg0) :=
  (Gen.V1_of m c main_arg0 (by decide)).trans rfl
theorem V1_arg1 (c : Dev nD) : Gen.V1 m c main_arg1 = m ((c : Thread nD τ).loc main_arg1) :=
  (Gen.V1_of m c main_arg1 (by decide)).trans rfl
theorem V1_arg2 (c : Dev nD) : Gen.V1 m c main_arg2 = m ((c : Thread nD τ).loc main_arg2) :=
  (Gen.V1_of m c main_arg2 (by decide)).trans rfl
theorem V1_arg3 (c : Dev nD) : Gen.V1 m c main_arg3 = m ((c : Thread nD τ).loc main_arg3) :=
  (Gen.V1_of m c main_arg3 (by decide)).trans rfl

/-- The two tables hold their literals. -/
theorem V1_tab (c : Dev nD) :
    (Gen.V1 m c main_c : S10.Idx → BitVec 32) = (fun i => lit0 (S10.rowMajor i))
    ∧ (Gen.V1 m c main_c_0 : S10.Idx → BitVec 32) = (fun i => lit1 (S10.rowMajor i)) := by
  constructor
  · show StableHlo.after hostOps0 (V0 m c) (Proc.devRef .tc main_c) = _
    after_results
    rfl
  · show StableHlo.after hostOps0 (V0 m c) (Proc.devRef .tc main_c_0) = _
    after_results
    rfl

/-- The joined, narrowed matrix as the operations' term over the launch contents. -/
theorem V1_w_term (c : Dev nD) :
    (Gen.V1 m c main_v1 : Vec F S1024x384 .bf16)
      = truncf .bf16 (concatenate S1024x384 1
          [⟨S1024x128, (m ((c : Thread nD τ).loc main_arg1) : Vec F S1024x128 .f32)⟩,
           ⟨S1024x128, (m ((c : Thread nD τ).loc main_arg2) : Vec F S1024x128 .f32)⟩,
           ⟨S1024x128, (m ((c : Thread nD τ).loc main_arg3) : Vec F S1024x128 .f32)⟩]
          Facts₀.concatenates_S1024x128_S1024x128_S1024x128_S1024x384_d1) Facts₀.bitsLt_bf16_f32 := by
  show StableHlo.after hostOps0 (V0 m c) (Proc.devRef .tc main_v1) = _
  after_results
  simp only [Matrix.cons_val_zero, Matrix.cons_val_one, Matrix.cons_val_two, Matrix.head_cons, Matrix.tail_cons]
  repeat (rw [StableHlo.nullary_result_ne]; rotate_left; decide)
  rfl

end AnyFloats

section ExactFloats

variable (m : (ℓ : Loc nD τ sig) → Buf (Elt Ideal) ℓ)

/-- Column d, d + 128, d + 256 of the joined, narrowed matrix is column d of the query, key, value matrix. -/
theorem V1_w (c : Dev nD) (e : Fin 1024) (d : Fin 128) :
    ((Gen.V1 (F := Ideal) m c main_v1 : Vec Ideal S1024x384 .bf16) (ix2 e (⟨d.val, by omega⟩ : Fin 384)) : EReal)
        = (m ((c : Thread nD τ).loc main_arg1) : Vec Ideal S1024x128 .f32) (ix2 e d)
    ∧ ((Gen.V1 (F := Ideal) m c main_v1 : Vec Ideal S1024x384 .bf16) (ix2 e (⟨d.val + 128, by omega⟩ : Fin 384)) : EReal)
        = (m ((c : Thread nD τ).loc main_arg2) : Vec Ideal S1024x128 .f32) (ix2 e d)
    ∧ ((Gen.V1 (F := Ideal) m c main_v1 : Vec Ideal S1024x384 .bf16) (ix2 e (⟨d.val + 256, by omega⟩ : Fin 384)) : EReal)
        = (m ((c : Thread nD τ).loc main_arg3) : Vec Ideal S1024x128 .f32) (ix2 e d) := by
  obtain ⟨j0, j1, j2⟩ := join3_apply (m ((c : Thread nD τ).loc main_arg1) : Vec Ideal S1024x128 .f32)
    (m ((c : Thread nD τ).loc main_arg2) : Vec Ideal S1024x128 .f32) (m ((c : Thread nD τ).loc main_arg3) : Vec Ideal S1024x128 .f32)
    Facts₀.concatenates_S1024x128_S1024x128_S1024x128_S1024x384_d1 e d
  rw [V1_w_term]
  exact ⟨narrow_apply _ _ _ j0, narrow_apply _ _ _ j1, narrow_apply _ _ _ j2⟩

end ExactFloats

end Cert.KernelIdeal.HandValue

end
-- ==== Proof.ProjFinal.lean ====
/-
  The projection region's three output arrays in terms of the launch contents: the specification's projections.

  The region is entered with the input as launched and with the three projection matrices joined side by side.
  Entry (b, t, d) of the query, key, value array is row (b, t) of the input against column d, d + 128, d + 256 of the
  joined matrix, and that column is column d of the query, key, value matrix. So each array holds the projection of
  the input by its own matrix, term by term the same finite sum of products.
-/
import proofs.«155321_j4011499454905_2_alg».proof.Proof.ValueReg0
import proofs.«155321_j4011499454905_2_alg».proof.Proof.HostPrefix
import proofs.«155321_j4011499454905_2_alg».proof.Proof.AttnSpec

noncomputable section

open scoped BigOperators

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand

variable (m : (ℓ : Loc nD τ sig) → Buf (Elt Ideal) ℓ)

/-- The query array after the region is the input projected by the query matrix. -/
theorem q_final (c : Dev nD) (b : Fin 4) (t : Fin 4096) (d : Fin 128) :
    @Eq EReal ((dat0 (F := Ideal) (fun c b => Gen.V1 m c b) c).arrAt 2 cfg0.N (ix3 b t d))
      (Cert.AttnSpec.proj (m ((c : Thread nD τ).loc main_arg0)) (m ((c : Thread nD τ).loc main_arg1)) b t d) := by
  refine (proj_q (fun c b => Gen.V1 m c b) c b t d).trans ?_
  unfold Cert.AttnSpec.proj
  refine Finset.sum_congr rfl fun e _ => ?_
  refine congrArg₂ (· * ·) ?_ ?_
  · exact congrFun (V1_arg0 m c) (ix3 b t e)
  · exact (V1_w m c e d).1

/-- The key array after the region is the input projected by the key matrix. -/
theorem k_final (c : Dev nD) (b : Fin 4) (t : Fin 4096) (d : Fin 128) :
    @Eq EReal ((dat0 (F := Ideal) (fun c b => Gen.V1 m c b) c).arrAt 3 cfg0.N (ix3 b t d))
      (Cert.AttnSpec.proj (m ((c : Thread nD τ).loc main_arg0)) (m ((c : Thread nD τ).loc main_arg2)) b t d) := by
  refine (proj_k (fun c b => Gen.V1 m c b) c b t d).trans ?_
  unfold Cert.AttnSpec.proj
  refine Finset.sum_congr rfl fun e _ => ?_
  refine congrArg₂ (· * ·) ?_ ?_
  · exact congrFun (V1_arg0 m c) (ix3 b t e)
  · exact (V1_w m c e d).2.1

/-- The value array after the region is the input projected by the value matrix. -/
theorem v_final (c : Dev nD) (b : Fin 4) (t : Fin 4096) (d : Fin 128) :
    @Eq EReal ((dat0 (F := Ideal) (fun c b => Gen.V1 m c b) c).arrAt 4 cfg0.N (ix3 b t d))
      (Cert.AttnSpec.proj (m ((c : Thread nD τ).loc main_arg0)) (m ((c : Thread nD τ).loc main_arg3)) b t d) := by
  refine (proj_v (fun c b => Gen.V1 m c b) c b t d).trans ?_
  unfold Cert.AttnSpec.proj
  refine Finset.sum_congr rfl fun e _ => ?_
  refine congrArg₂ (· * ·) ?_ ?_
  · exact congrFun (V1_arg0 m c) (ix3 b t e)
  · exact (V1_w m c e d).2.2

end Cert.KernelIdeal.HandValue

end
-- ==== Proof.ValueReg1Sched.lean ====
/-
  The attention region's schedule, with the two prefetched tables a variable known only through the words the
  grid points read: the query-block table reads 0,1,1,2,2,2,3,3,3,3 and the key-block table 0,0,1,0,1,2,0,1,2,3
  along the ten tiles of a batch. From that alone: a point's two coordinates (batch = position / 10, tile =
  position mod 10), the block index of each of the four windows at a point in closed form, and the points at
  which the output window is written back — exactly the tiles 0, 2, 5, 9 of every batch, the diagonal tiles,
  where the query-block word changes at the next point or the grid ends.
-/
import proofs.«155321_j4011499454905_2_alg».proof.Proof.Reg1Data
import proofs.«155321_j4011499454905_2_alg».proof.Proof.TableWords
import Idealize.ShloMosaic.Lib.Pipeline.Value
import Idealize.ShloMosaic.Lib.ValueIdx

noncomputable section

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

variable {F : FTy → Type} [FloatOps F] [Named F]

/-! ## The two tables as functions of the tile -/

/-- The query block of tile `j`, as a number and as the 32-bit word the table holds. -/
def qiN : ℕ → ℕ
  | 0 => 0 | 1 => 1 | 2 => 1 | 3 => 2 | 4 => 2 | 5 => 2 | 6 => 3 | 7 => 3 | 8 => 3 | 9 => 3 | _ => 0
/-- The key block of tile `j`. -/
def kiN : ℕ → ℕ
  | 0 => 0 | 1 => 0 | 2 => 1 | 3 => 0 | 4 => 1 | 5 => 2 | 6 => 0 | 7 => 1 | 8 => 2 | 9 => 3 | _ => 0

theorem qiW_toNat : ∀ j : ℕ, (qiW j).toNat = qiN j
  | 0 => rfl | 1 => rfl | 2 => rfl | 3 => rfl | 4 => rfl | 5 => rfl | 6 => rfl | 7 => rfl | 8 => rfl | 9 => rfl | _ + 10 => rfl
theorem kiW_toNat : ∀ j : ℕ, (kiW j).toNat = kiN j
  | 0 => rfl | 1 => rfl | 2 => rfl | 3 => rfl | 4 => rfl | 5 => rfl | 6 => rfl | 7 => rfl | 8 => rfl | 9 => rfl | _ + 10 => rfl

theorem qiN_lt : ∀ j : ℕ, qiN j < 4
  | 0 => by decide | 1 => by decide | 2 => by decide | 3 => by decide | 4 => by decide | 5 => by decide | 6 => by decide | 7 => by decide | 8 => by decide | 9 => by decide | _ + 10 => show (0 : ℕ) < 4 by decide
theorem kiN_lt : ∀ j : ℕ, kiN j < 4
  | 0 => by decide | 1 => by decide | 2 => by decide | 3 => by decide | 4 => by decide | 5 => by decide | 6 => by decide | 7 => by decide | 8 => by decide | 9 => by decide | _ + 10 => show (0 : ℕ) < 4 by decide

/-- The diagonal tile of query block `q`: the tile whose key block is `q` too. -/
def diagTile (q : ℕ) : ℕ := q * (q + 1) / 2 + q

theorem diagTile_lt {q : ℕ} (h : q < 4) : diagTile q < 10 := by
  unfold diagTile
  have : q = 0 ∨ q = 1 ∨ q = 2 ∨ q = 3 := by omega
  rcases this with rfl | rfl | rfl | rfl <;> decide

theorem qiN_diagTile {q : ℕ} (h : q < 4) : qiN (diagTile q) = q := by
  have : q = 0 ∨ q = 1 ∨ q = 2 ∨ q = 3 := by omega
  rcases this with rfl | rfl | rfl | rfl <;> rfl

theorem kiN_diagTile {q : ℕ} (h : q < 4) : kiN (diagTile q) = q := by
  have : q = 0 ∨ q = 1 ∨ q = 2 ∨ q = 3 := by omega
  rcases this with rfl | rfl | rfl | rfl <;> rfl

/-- The diagonal tiles are 0, 2, 5, 9. -/
theorem diagTile_mem {q : ℕ} (h : q < 4) : diagTile q = 0 ∨ diagTile q = 2 ∨ diagTile q = 5 ∨ diagTile q = 9 := by
  have : q = 0 ∨ q = 1 ∨ q = 2 ∨ q = 3 := by omega
  rcases this with rfl | rfl | rfl | rfl <;> decide

/-- At a diagonal tile the tile is the diagonal tile of its own query block. -/
theorem diagTile_qiN {j : ℕ} (h : j = 0 ∨ j = 2 ∨ j = 5 ∨ j = 9) : diagTile (qiN j) = j := by
  rcases h with rfl | rfl | rfl | rfl <;> rfl

variable (a1 : (pcfg1 (F := F)).Adm)

/-! ## The grid's points -/

theorem N1 : (cfg1 a1).N = 40 := N_1

theorem lt40 (t : Fin (cfg1 a1).N) : t.val < 40 := lt_of_lt_of_eq t.isLt N_1

/-- Batch and tile of a point. -/
theorem coord0 (t : Fin (cfg1 a1).N) : (grid1.coords t 0).val = t.val / 10 := by
  have h := lt40 a1 t
  show t.val / grid1.stride 0 % 4 = t.val / 10
  rw [show grid1.stride 0 = 10 from by decide]
  omega
theorem coord1 (t : Fin (cfg1 a1).N) : (grid1.coords t 1).val = t.val % 10 := by
  show t.val / grid1.stride 1 % 10 = t.val % 10
  rw [show grid1.stride 1 = 1 from by decide, Nat.div_one]

/-! ## The block index of each window at a point

The index maps read the batch coordinate and the table word at the tile; under the hypothesis on the words they
are closed forms of the position. -/

/-- The hypothesis on the tables: what each grid point reads of them. -/
abbrev TabWords : Prop :=
  ∀ t : Fin (cfg1 a1).N, tw0 a1 t = qiW (t.val % 10) ∧ tw1 a1 t = kiW (t.val % 10)

theorem ofNat_coord0_toNat (t : Fin (cfg1 a1).N) : (BitVec.ofNat 32 (grid1.coords t 0).val).toNat = t.val / 10 := by
  have h := lt40 a1 t
  rw [BitVec.toNat_ofNat, coord0 a1 t]
  omega

/-- Window 3 (the output) and window 0 (the query rows): block (batch, query block of the tile, 0). -/
theorem index3 (htab : TabWords a1) (t : Fin (cfg1 a1).N) : (((cfg1 a1).win 3).index t : Fin 3 → ℕ) = ![t.val / 10, qiN (t.val % 10), 0] := by
  have e : (((cfg1 a1).win 3).index t : Fin 3 → ℕ) = ![(BitVec.ofNat 32 (grid1.coords t 0).val).toNat, (tw0 a1 t).toNat, 0] := rfl
  rw [e, (htab t).1, qiW_toNat, ofNat_coord0_toNat]
theorem index0 (htab : TabWords a1) (t : Fin (cfg1 a1).N) : (((cfg1 a1).win 0).index t : Fin 3 → ℕ) = ![t.val / 10, qiN (t.val % 10), 0] := by
  have e : (((cfg1 a1).win 0).index t : Fin 3 → ℕ) = ![(BitVec.ofNat 32 (grid1.coords t 0).val).toNat, (tw0 a1 t).toNat, 0] := rfl
  rw [e, (htab t).1, qiW_toNat, ofNat_coord0_toNat]
/-- Windows 1 and 2 (the key and value rows): block (batch, key block of the tile, 0). -/
theorem index1 (htab : TabWords a1) (t : Fin (cfg1 a1).N) : (((cfg1 a1).win 1).index t : Fin 3 → ℕ) = ![t.val / 10, kiN (t.val % 10), 0] := by
  have e : (((cfg1 a1).win 1).index t : Fin 3 → ℕ) = ![(BitVec.ofNat 32 (grid1.coords t 0).val).toNat, (tw1 a1 t).toNat, 0] := rfl
  rw [e, (htab t).2, kiW_toNat, ofNat_coord0_toNat]
theorem index2 (htab : TabWords a1) (t : Fin (cfg1 a1).N) : (((cfg1 a1).win 2).index t : Fin 3 → ℕ) = ![t.val / 10, kiN (t.val % 10), 0] := by
  have e : (((cfg1 a1).win 2).index t : Fin 3 → ℕ) = ![(BitVec.ofNat 32 (grid1.coords t 0).val).toNat, (tw1 a1 t).toNat, 0] := rfl
  rw [e, (htab t).2, kiW_toNat, ofNat_coord0_toNat]

/-! ## Where the output is written back -/

/-- Two block indices of the closed form agree exactly when batch and query block agree. -/
theorem idx_eq_iff (a b a' b' : ℕ) : (![a, b, 0] : Fin 3 → ℕ) = ![a', b', 0] ↔ a = a' ∧ b = b' :=
  ⟨fun h => ⟨congrFun h 0, congrFun h 1⟩, fun h => by rw [h.1, h.2]⟩

/-- The arithmetic of the schedule: the grid ends, or batch or query block change at the next position, exactly
    at the tiles 0, 2, 5, 9. -/
theorem sched_arith : ∀ n : ℕ, n < 40 →
    ((n + 1 = 40 ∨ (n + 1 < 40 ∧ ¬((n + 1) / 10 = n / 10 ∧ qiN ((n + 1) % 10) = qiN (n % 10))))
      ↔ (n % 10 = 0 ∨ n % 10 = 2 ∨ n % 10 = 5 ∨ n % 10 = 9)) := by
  decide

/-- The output window is written back exactly at the diagonal tiles. -/
theorem flush3_iff (htab : TabWords a1) (t : Fin (cfg1 a1).N) :
    ((cfg1 a1).win 3).flush t = true ↔ (t.val % 10 = 0 ∨ t.val % 10 = 2 ∨ t.val % 10 = 5 ∨ t.val % 10 = 9) := by
  rw [← sched_arith t.val (lt40 a1 t)]
  unfold Window.flush
  rw [show ((cfg1 a1).win 3).isOut = true from rfl, Bool.true_and, Bool.or_eq_true, decide_eq_true_eq, decide_eq_true_eq]
  have hN : (cfg1 a1).grid.N = 40 := N_1
  refine or_congr ⟨fun h => h.trans hN, fun h => h.trans hN.symm⟩
    ⟨fun ⟨h, hne⟩ => ⟨lt_of_lt_of_eq h hN, fun he => hne ?_⟩, fun ⟨h, hne⟩ => ⟨lt_of_lt_of_eq h hN.symm, fun he => hne ?_⟩⟩
  · exact ((index3 a1 htab _).trans ((idx_eq_iff _ _ _ _).mpr he)).trans (index3 a1 htab t).symm
  · exact (idx_eq_iff _ _ _ _).mp (((index3 a1 htab ⟨t.val + 1, lt_of_lt_of_eq h hN.symm⟩).symm.trans he).trans (index3 a1 htab t))

/-! ## The table words by position -/

theorem tw0N_eq (htab : TabWords a1) (n : ℕ) (h : n < 40) : tw0N a1 n = qiW (n % 10) := by
  have h' : n < (cfg1 a1).N := (N1 a1).symm ▸ h
  unfold tw0N; rw [dif_pos h']; exact (htab ⟨n, h'⟩).1
theorem tw1N_eq (htab : TabWords a1) (n : ℕ) (h : n < 40) : tw1N a1 n = kiW (n % 10) := by
  have h' : n < (cfg1 a1).N := (N1 a1).symm ▸ h
  unfold tw1N; rw [dif_pos h']; exact (htab ⟨n, h'⟩).2

end Cert.KernelIdeal.HandValue
end
-- ==== Proof.ValueReg1Array.lean ====
/-
  What the attention region's output array holds when the region ends. The output window is written back at
  the diagonal tiles only, and what a diagonal tile writes back is the weighted sum over the row sum of the
  carried state after that tile. Each index (b, t, d) of the array lies in the block of exactly the diagonal tile
  of query block t / 1024 in batch b, at position 10·b + q(q+1)/2 + q with q = t / 1024, at row t mod 1024. One
  function of the index collects this; every written-back block is that function's block, and the blocks of the
  diagonal tiles cover the array, so the array ends holding it.
-/
import proofs.«155321_j4011499454905_2_alg».proof.Proof.ValueReg1Sched

noncomputable section

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

variable {F : FTy → Type} [FloatOps F] [Named F]

variable (V : (c : Dev nD) → (b : Ref sig .tc) → Buf (Elt F) ((c : Thread nD τ).loc b))
variable (a1 : (pcfg1 (F := F)).Adm)

/-- The position of the diagonal tile of query block `q` in batch `b`. -/
def diagPt (b q : ℕ) : ℕ := 10 * b + q * (q + 1) / 2 + q

theorem diagPt_eq (b q : ℕ) : diagPt b q = 10 * b + diagTile q := by unfold diagPt diagTile; omega

/-- What the output array ends holding: at row `t` of batch `b`, row `t mod 1024` of the weighted sum over the
    row sum in the state after the diagonal tile of query block `t / 1024` of that batch. -/
def outG (c : Dev nD) : Buf (Elt F) ((c : Thread nD τ).loc main_v3) := fun (i : S4x4096x128.Idx) =>
  Scr.out (st1 V a1 c (diagPt (i 0).val ((i 1).val / 1024) + 1))
    (ix3 (0 : Fin 1) (⟨(i 1).val % 1024, Nat.mod_lt _ (by decide)⟩ : Fin 1024) (i 2))

/-- That function at an index given by its coordinates. -/
theorem outG_apply (c : Dev nD) (i : S4x4096x128.Idx) (b q r d : ℕ) (hr : r < 1024) (hd : d < 128)
    (h0 : (i 0).val = b) (h1 : (i 1).val = 1024 * q + r) (h2 : (i 2).val = d) :
    outG V a1 c i = Scr.out (st1 V a1 c (diagPt b q + 1)) (ix3 (0 : Fin 1) (⟨r, hr⟩ : Fin 1024) (⟨d, hd⟩ : Fin 128)) := by
  have hq : (i 1).val / 1024 = q := by omega
  have e1 : (⟨(i 1).val % 1024, Nat.mod_lt _ (by decide)⟩ : Fin 1024) = ⟨r, hr⟩ := Fin.ext (by show (i 1).val % 1024 = r; omega)
  have e2 : (i 2 : Fin 128) = ⟨d, hd⟩ := Fin.ext h2
  unfold outG
  show Scr.out (st1 V a1 c (diagPt (i 0).val ((i 1).val / 1024) + 1)) (ix3 (0 : Fin 1) (⟨(i 1).val % 1024, Nat.mod_lt _ (by decide)⟩ : Fin 1024) (i 2 : Fin 128)) = _
  rw [e1, e2, h0, hq]
  rfl

set_option maxHeartbeats 100000 in
/-- What a diagonal tile writes back is that function read through the tile's block of the array. -/
theorem flushed3_reg1_eq (htab : TabWords a1) (c : Dev nD) (t : Fin (cfg1 a1).N) (hf : ((cfg1 a1).win 3).flush t = true) :
    (dat1 V a1 c).flushed 3 t = (((cfg1 a1).win 3).blk t).view.read (Elt F) (outG V a1 c) := by
  have hm := (flush3_iff a1 htab t).mp hf
  have ht := lt40 a1 t
  show ((cfg1 a1).win 3).cut ((cfg1 a1).grid.coords t) ((dat1 V a1 c).after 3 t) = _
  rw [after1_3]
  funext y
  have hi := index3 a1 htab t
  have hi0 : ((cfg1 a1).win 3).index t ⟨0, Nat.zero_lt_succ 2⟩ = t.val / 10 := congrFun hi ⟨0, Nat.zero_lt_succ 2⟩
  have hi1 : ((cfg1 a1).win 3).index t ⟨1, Nat.succ_lt_succ (Nat.zero_lt_succ 1)⟩ = qiN (t.val % 10) := congrFun hi ⟨1, Nat.succ_lt_succ (Nat.zero_lt_succ 1)⟩
  have hi2 : ((cfg1 a1).win 3).index t ⟨2, Nat.lt_succ_self 2⟩ = 0 := congrFun hi ⟨2, Nat.lt_succ_self 2⟩
  have hy0 : (y ⟨0, Nat.zero_lt_succ 2⟩).val < 1 := (y ⟨0, Nat.zero_lt_succ 2⟩).isLt
  have hy1 : (y ⟨1, Nat.succ_lt_succ (Nat.zero_lt_succ 1)⟩).val < 1024 := (y ⟨1, Nat.succ_lt_succ (Nat.zero_lt_succ 1)⟩).isLt
  have hy2 : (y ⟨2, Nat.lt_succ_self 2⟩).val < 128 := (y ⟨2, Nat.lt_succ_self 2⟩).isLt
  show Scr.out (st1 V a1 c (t.val + 1)) _ = outG V a1 c ((((cfg1 a1).win 3).blk t).view.emb y)
  rw [outG_apply V a1 c ((((cfg1 a1).win 3).blk t).view.emb y) (t.val / 10) (qiN (t.val % 10)) (y ⟨1, Nat.succ_lt_succ (Nat.zero_lt_succ 1)⟩).val (y ⟨2, Nat.lt_succ_self 2⟩).val hy1 hy2
    (by show ((cfg1 a1).win 3).index t ⟨0, Nat.zero_lt_succ 2⟩ * 1 + 1 * (y ⟨0, Nat.zero_lt_succ 2⟩).val = t.val / 10
        rw [hi0]; omega)
    (by show ((cfg1 a1).win 3).index t ⟨1, Nat.succ_lt_succ (Nat.zero_lt_succ 1)⟩ * 1024 + 1 * (y ⟨1, Nat.succ_lt_succ (Nat.zero_lt_succ 1)⟩).val = 1024 * qiN (t.val % 10) + (y ⟨1, Nat.succ_lt_succ (Nat.zero_lt_succ 1)⟩).val
        rw [hi1]; omega)
    (by show ((cfg1 a1).win 3).index t ⟨2, Nat.lt_succ_self 2⟩ * 128 + 1 * (y ⟨2, Nat.lt_succ_self 2⟩).val = (y ⟨2, Nat.lt_succ_self 2⟩).val
        rw [hi2]; omega)]
  have hd : diagPt (t.val / 10) (qiN (t.val % 10)) = t.val := by
    rw [diagPt_eq, diagTile_qiN hm]; omega
  rw [hd]
  refine congrArg (Scr.out (st1 V a1 c (t.val + 1))) ?_
  funext a
  apply Fin.ext
  match a with
  | ⟨0, _⟩ => show (y ⟨0, Nat.zero_lt_succ 2⟩).val = 0; omega
  | ⟨1, _⟩ => rfl
  | ⟨2, _⟩ => rfl

set_option maxHeartbeats 100000 in
/-- Every index of the output array lies in the block of the diagonal tile of its batch and query block. -/
theorem cover3 (htab : TabWords a1) (i : S4x4096x128.Idx) :
    ∃ t : Fin (cfg1 a1).N, ((cfg1 a1).win 3).flush t = true ∧ i ∈ (((cfg1 a1).win 3).blk t).view.set := by
  have h0 : (i ⟨0, Nat.zero_lt_succ 2⟩).val < 4 := (i ⟨0, Nat.zero_lt_succ 2⟩).isLt
  have h1 : (i ⟨1, Nat.succ_lt_succ (Nat.zero_lt_succ 1)⟩).val < 4096 := (i ⟨1, Nat.succ_lt_succ (Nat.zero_lt_succ 1)⟩).isLt
  have h2 : (i ⟨2, Nat.lt_succ_self 2⟩).val < 128 := (i ⟨2, Nat.lt_succ_self 2⟩).isLt
  have hq : (i ⟨1, Nat.succ_lt_succ (Nat.zero_lt_succ 1)⟩).val / 1024 < 4 := by omega
  have hdt := diagTile_lt hq
  have hlt : 10 * (i ⟨0, Nat.zero_lt_succ 2⟩).val + diagTile ((i ⟨1, Nat.succ_lt_succ (Nat.zero_lt_succ 1)⟩).val / 1024) < 40 := by omega
  obtain ⟨t, htv⟩ : ∃ t : Fin (cfg1 a1).N, t.val = 10 * (i ⟨0, Nat.zero_lt_succ 2⟩).val + diagTile ((i ⟨1, Nat.succ_lt_succ (Nat.zero_lt_succ 1)⟩).val / 1024) :=
    ⟨⟨_, lt_of_lt_of_eq hlt (N1 a1).symm⟩, rfl⟩
  have hmod : t.val % 10 = diagTile ((i ⟨1, Nat.succ_lt_succ (Nat.zero_lt_succ 1)⟩).val / 1024) := by omega
  have hdiv : t.val / 10 = (i ⟨0, Nat.zero_lt_succ 2⟩).val := by omega
  refine ⟨t, (flush3_iff a1 htab t).mpr (by rw [hmod]; exact diagTile_mem hq), ?_⟩
  have hi := index3 a1 htab t
  have hi0 : ((cfg1 a1).win 3).index t ⟨0, Nat.zero_lt_succ 2⟩ = t.val / 10 := congrFun hi ⟨0, Nat.zero_lt_succ 2⟩
  have hi1 : ((cfg1 a1).win 3).index t ⟨1, Nat.succ_lt_succ (Nat.zero_lt_succ 1)⟩ = qiN (t.val % 10) := congrFun hi ⟨1, Nat.succ_lt_succ (Nat.zero_lt_succ 1)⟩
  have hi2 : ((cfg1 a1).win 3).index t ⟨2, Nat.lt_succ_self 2⟩ = 0 := congrFun hi ⟨2, Nat.lt_succ_self 2⟩
  have hqd : qiN (t.val % 10) = (i ⟨1, Nat.succ_lt_succ (Nat.zero_lt_succ 1)⟩).val / 1024 := by rw [hmod]; exact qiN_diagTile hq
  have key : ∀ r : Rect main_v3.ty.shape, i ∈ r.set → i ∈ ((View.whole main_v3).slice r).set :=
    fun r h => by rw [View.set_slice_whole]; exact h
  refine key (((cfg1 a1).win 3).rect t) (Rect.mem_set_unit.mpr ?_)
  intro a
  match a with
  | ⟨0, _⟩ =>
    show ((cfg1 a1).win 3).index t ⟨0, Nat.zero_lt_succ 2⟩ * 1 ≤ (i ⟨0, Nat.zero_lt_succ 2⟩).val ∧ (i ⟨0, Nat.zero_lt_succ 2⟩).val < ((cfg1 a1).win 3).index t ⟨0, Nat.zero_lt_succ 2⟩ * 1 + 1
    rw [hi0]; omega
  | ⟨1, _⟩ =>
    show ((cfg1 a1).win 3).index t ⟨1, Nat.succ_lt_succ (Nat.zero_lt_succ 1)⟩ * 1024 ≤ (i ⟨1, Nat.succ_lt_succ (Nat.zero_lt_succ 1)⟩).val ∧ (i ⟨1, Nat.succ_lt_succ (Nat.zero_lt_succ 1)⟩).val < ((cfg1 a1).win 3).index t ⟨1, Nat.succ_lt_succ (Nat.zero_lt_succ 1)⟩ * 1024 + 1024
    rw [hi1, hqd]; omega
  | ⟨2, _⟩ =>
    show ((cfg1 a1).win 3).index t ⟨2, Nat.lt_succ_self 2⟩ * 128 ≤ (i ⟨2, Nat.lt_succ_self 2⟩).val ∧ (i ⟨2, Nat.lt_succ_self 2⟩).val < ((cfg1 a1).win 3).index t ⟨2, Nat.lt_succ_self 2⟩ * 128 + 128
    rw [hi2]; omega

/-- THE OUTPUT ARRAY when the region ends. -/
theorem arr3_eq (htab : TabWords a1) (c : Dev nD) : (dat1 V a1 c).arrAt 3 (cfg1 a1).N = outG V a1 c :=
  (dat1 V a1 c).arrAt_eq_of_cover 3 (outG V a1 c) (flushed3_reg1_eq V a1 htab c) (cover3 a1 htab)

end Cert.KernelIdeal.HandValue
end
-- ==== Proof.ValueReg1Reads.lean ====
/-
  The three input blocks of the attention region at a grid position, as reads of the arrays the region is
  entered with: an element of a window's block sits in its array at block index × block size + its own
  coordinate, and the block index is (batch, table word of the tile, 0). So row y of the query block at
  position n is row 1024·(query block of tile n mod 10) + y of batch n / 10 of the first array; the key and
  value blocks likewise with the key block of the tile, in the second and third arrays.
-/
import proofs.«155321_j4011499454905_2_alg».proof.Proof.ValueReg1Sched

noncomputable section

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand

variable {F : FTy → Type} [FloatOps F] [Named F]

variable (V : (c : Dev nD) → (b : Ref sig .tc) → Buf (Elt F) ((c : Thread nD τ).loc b))
variable (a1 : (pcfg1 (F := F)).Adm)

/-- Inside the grid the block by position is the window's block at the point. -/
theorem qN_lt (c : Dev nD) (n : ℕ) (h : n < (cfg1 a1).N) : qN V a1 c n = iblk1 V a1 c 0 ⟨n, h⟩ := dif_pos h
theorem kN_lt (c : Dev nD) (n : ℕ) (h : n < (cfg1 a1).N) : kN V a1 c n = iblk1 V a1 c 1 ⟨n, h⟩ := dif_pos h
theorem vN_lt (c : Dev nD) (n : ℕ) (h : n < (cfg1 a1).N) : vN V a1 c n = iblk1 V a1 c 2 ⟨n, h⟩ := dif_pos h

set_option maxHeartbeats 100000 in
/-- The query block at position `n`: rows 1024·(query block of the tile) + y of batch `n / 10` of the first array. -/
theorem qN_apply (htab : TabWords a1) (c : Dev nD) (n : ℕ) (h : n < 40) (y : Fin 1024) (e : Fin 128) :
    qN V a1 c n (ix3 (0 : Fin 1) y e)
      = V c main_v2_0 (ix3 (⟨n / 10, by omega⟩ : Fin 4) (⟨1024 * qiN (n % 10) + y.val, by have := qiN_lt (n % 10); omega⟩ : Fin 4096) e) := by
  have h' : n < (cfg1 a1).N := lt_of_lt_of_eq h (N1 a1).symm
  rw [qN_lt V a1 c n h']
  unfold iblk1
  show V c main_v2_0 _ = V c main_v2_0 _
  refine congrArg (V c main_v2_0) ?_
  funext a
  apply Fin.ext
  have hi := index0 a1 htab ⟨n, h'⟩
  have hi0 : ((cfg1 a1).win 0).index ⟨n, h'⟩ ⟨0, Nat.zero_lt_succ 2⟩ = n / 10 := congrFun hi ⟨0, Nat.zero_lt_succ 2⟩
  have hi1 : ((cfg1 a1).win 0).index ⟨n, h'⟩ ⟨1, Nat.succ_lt_succ (Nat.zero_lt_succ 1)⟩ = qiN (n % 10) :=
    congrFun hi ⟨1, Nat.succ_lt_succ (Nat.zero_lt_succ 1)⟩
  have hi2 : ((cfg1 a1).win 0).index ⟨n, h'⟩ ⟨2, Nat.lt_succ_self 2⟩ = 0 := congrFun hi ⟨2, Nat.lt_succ_self 2⟩
  match a with
  | ⟨0, _⟩ =>
    show ((cfg1 a1).win 0).index ⟨n, h'⟩ ⟨0, Nat.zero_lt_succ 2⟩ * 1 + 1 * 0 = n / 10
    rw [hi0]; omega
  | ⟨1, _⟩ =>
    show ((cfg1 a1).win 0).index ⟨n, h'⟩ ⟨1, Nat.succ_lt_succ (Nat.zero_lt_succ 1)⟩ * 1024 + 1 * y.val = 1024 * qiN (n % 10) + y.val
    rw [hi1]; omega
  | ⟨2, _⟩ =>
    show ((cfg1 a1).win 0).index ⟨n, h'⟩ ⟨2, Nat.lt_succ_self 2⟩ * 128 + 1 * e.val = e.val
    rw [hi2]; omega

set_option maxHeartbeats 100000 in
/-- The key block at position `n`: rows 1024·(key block of the tile) + y of batch `n / 10` of the second array. -/
theorem kN_apply (htab : TabWords a1) (c : Dev nD) (n : ℕ) (h : n < 40) (y : Fin 1024) (e : Fin 128) :
    kN V a1 c n (ix3 (0 : Fin 1) y e)
      = V c main_v2_1 (ix3 (⟨n / 10, by omega⟩ : Fin 4) (⟨1024 * kiN (n % 10) + y.val, by have := kiN_lt (n % 10); omega⟩ : Fin 4096) e) := by
  have h' : n < (cfg1 a1).N := lt_of_lt_of_eq h (N1 a1).symm
  rw [kN_lt V a1 c n h']
  unfold iblk1
  show V c main_v2_1 _ = V c main_v2_1 _
  refine congrArg (V c main_v2_1) ?_
  funext a
  apply Fin.ext
  have hi := index1 a1 htab ⟨n, h'⟩
  have hi0 : ((cfg1 a1).win 1).index ⟨n, h'⟩ ⟨0, Nat.zero_lt_succ 2⟩ = n / 10 := congrFun hi ⟨0, Nat.zero_lt_succ 2⟩
  have hi1 : ((cfg1 a1).win 1).index ⟨n, h'⟩ ⟨1, Nat.succ_lt_succ (Nat.zero_lt_succ 1)⟩ = kiN (n % 10) :=
    congrFun hi ⟨1, Nat.succ_lt_succ (Nat.zero_lt_succ 1)⟩
  have hi2 : ((cfg1 a1).win 1).index ⟨n, h'⟩ ⟨2, Nat.lt_succ_self 2⟩ = 0 := congrFun hi ⟨2, Nat.lt_succ_self 2⟩
  match a with
  | ⟨0, _⟩ =>
    show ((cfg1 a1).win 1).index ⟨n, h'⟩ ⟨0, Nat.zero_lt_succ 2⟩ * 1 + 1 * 0 = n / 10
    rw [hi0]; omega
  | ⟨1, _⟩ =>
    show ((cfg1 a1).win 1).index ⟨n, h'⟩ ⟨1, Nat.succ_lt_succ (Nat.zero_lt_succ 1)⟩ * 1024 + 1 * y.val = 1024 * kiN (n % 10) + y.val
    rw [hi1]; omega
  | ⟨2, _⟩ =>
    show ((cfg1 a1).win 1).index ⟨n, h'⟩ ⟨2, Nat.lt_succ_self 2⟩ * 128 + 1 * e.val = e.val
    rw [hi2]; omega

set_option maxHeartbeats 100000 in
/-- The value block at position `n`: rows 1024·(key block of the tile) + y of batch `n / 10` of the third array. -/
theorem vN_apply (htab : TabWords a1) (c : Dev nD) (n : ℕ) (h : n < 40) (y : Fin 1024) (e : Fin 128) :
    vN V a1 c n (ix3 (0 : Fin 1) y e)
      = V c main_v2_2 (ix3 (⟨n / 10, by omega⟩ : Fin 4) (⟨1024 * kiN (n % 10) + y.val, by have := kiN_lt (n % 10); omega⟩ : Fin 4096) e) := by
  have h' : n < (cfg1 a1).N := lt_of_lt_of_eq h (N1 a1).symm
  rw [vN_lt V a1 c n h']
  unfold iblk1
  show V c main_v2_2 _ = V c main_v2_2 _
  refine congrArg (V c main_v2_2) ?_
  funext a
  apply Fin.ext
  have hi := index2 a1 htab ⟨n, h'⟩
  have hi0 : ((cfg1 a1).win 2).index ⟨n, h'⟩ ⟨0, Nat.zero_lt_succ 2⟩ = n / 10 := congrFun hi ⟨0, Nat.zero_lt_succ 2⟩
  have hi1 : ((cfg1 a1).win 2).index ⟨n, h'⟩ ⟨1, Nat.succ_lt_succ (Nat.zero_lt_succ 1)⟩ = kiN (n % 10) :=
    congrFun hi ⟨1, Nat.succ_lt_succ (Nat.zero_lt_succ 1)⟩
  have hi2 : ((cfg1 a1).win 2).index ⟨n, h'⟩ ⟨2, Nat.lt_succ_self 2⟩ = 0 := congrFun hi ⟨2, Nat.lt_succ_self 2⟩
  match a with
  | ⟨0, _⟩ =>
    show ((cfg1 a1).win 2).index ⟨n, h'⟩ ⟨0, Nat.zero_lt_succ 2⟩ * 1 + 1 * 0 = n / 10
    rw [hi0]; omega
  | ⟨1, _⟩ =>
    show ((cfg1 a1).win 2).index ⟨n, h'⟩ ⟨1, Nat.succ_lt_succ (Nat.zero_lt_succ 1)⟩ * 1024 + 1 * y.val = 1024 * kiN (n % 10) + y.val
    rw [hi1]; omega
  | ⟨2, _⟩ =>
    show ((cfg1 a1).win 2).index ⟨n, h'⟩ ⟨2, Nat.lt_succ_self 2⟩ * 128 + 1 * e.val = e.val
    rw [hi2]; omega

end Cert.KernelIdeal.HandValue
end
-- ==== Proof.ValueReg1Blocks.lean ====
/-
  The attention region read at one output entry (b, t, d), t in query block t / 1024 at row t mod 1024. The tiles
  of that query block in batch b sit at the positions n₀, n₀ + 1, …, n₀ + t / 1024 with
  n₀ = 10·b + (t / 1024)·(t / 1024 + 1) / 2; tile n₀ + i has query block t / 1024 and key block i, and the last of
  them is the diagonal tile, the one that writes the output block back. So: the output array's entry is the
  weighted sum over the row sum in the state after position n₀ + t / 1024; along those positions the two table
  words are t / 1024 and i; the query block's row t mod 1024 is row t of the query array; and row j of the key
  and value blocks is row 1024·i + j of the key and value arrays.
-/
import proofs.«155321_j4011499454905_2_alg».proof.Proof.ValueReg1Array
import proofs.«155321_j4011499454905_2_alg».proof.Proof.ValueReg1Reads
import proofs.«155321_j4011499454905_2_alg».proof.Proof.CausalBlocks

noncomputable section

namespace Cert.KernelIdeal.HandValue

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen Cert.KernelIdeal.Hand
open Cert.CausalBlocks (blk blk_val)

variable {F : FTy → Type} [FloatOps F] [Named F]

/-! ## The tiles of one query block -/

/-- Tile (q(q+1)/2 + i), i ≤ q < 4, is one of the ten, has query block q and key block i. -/
theorem tri_lt : ∀ q : ℕ, q < 4 → ∀ i : ℕ, i ≤ q → q * (q + 1) / 2 + i < 10 := by decide
theorem qiN_tri : ∀ q : ℕ, q < 4 → ∀ i : ℕ, i ≤ q → qiN (q * (q + 1) / 2 + i) = q := by decide
theorem kiN_tri : ∀ q : ℕ, q < 4 → ∀ i : ℕ, i ≤ q → kiN (q * (q + 1) / 2 + i) = i := by decide
theorem qiW_tri : ∀ q : ℕ, q < 4 → ∀ i : ℕ, i ≤ q → qiW (q * (q + 1) / 2 + i) = BitVec.ofNat 32 q := by decide
theorem kiW_tri : ∀ q : ℕ, q < 4 → ∀ i : ℕ, i ≤ q → kiW (q * (q + 1) / 2 + i) = BitVec.ofNat 32 i := by decide

variable (V : (c : Dev nD) → (b : Ref sig .tc) → Buf (Elt F) ((c : Thread nD τ).loc b))
variable (a1 : (pcfg1 (F := F)).Adm)

/-- Position n₀ + i, i ≤ t / 1024: inside the grid, in batch b, at tile (t/1024)(t/1024+1)/2 + i. -/
theorem row_pos (b : Fin 4) (t : Fin 4096) (i : ℕ) (hi : i ≤ t.val / 1024) :
    (10 * b.val + t.val / 1024 * (t.val / 1024 + 1) / 2) + i < 40 ∧ ((10 * b.val + t.val / 1024 * (t.val / 1024 + 1) / 2) + i) / 10 = b.val
      ∧ ((10 * b.val + t.val / 1024 * (t.val / 1024 + 1) / 2) + i) % 10 = t.val / 1024 * (t.val / 1024 + 1) / 2 + i := by
  have hb := b.isLt
  have ht := t.isLt
  have hq : t.val / 1024 < 4 := by omega
  have h := tri_lt _ hq i hi
  generalize t.val / 1024 * (t.val / 1024 + 1) / 2 = T at h ⊢
  omega

/-- THE OUTPUT ENTRY: what the diagonal tile of t's query block wrote back. -/
theorem reg1_out (htab : TabWords a1) (c : Dev nD) (b : Fin 4) (t : Fin 4096) (d : Fin 128) :
    (dat1 V a1 c).arrAt 3 (cfg1 a1).N (ix3 b t d)
      = Scr.out (st1 V a1 c ((10 * b.val + t.val / 1024 * (t.val / 1024 + 1) / 2) + t.val / 1024 + 1)) (ix3 (0 : Fin 1) (⟨t.val % 1024, Nat.mod_lt _ (by norm_num)⟩ : Fin 1024) d) := by
  rw [arr3_eq V a1 htab c]
  exact outG_apply V a1 c (ix3 b t d) b.val (t.val / 1024) (t.val % 1024) d.val (Nat.mod_lt _ (by norm_num)) d.isLt rfl
    (Nat.div_add_mod t.val 1024).symm rfl

/-- The query-block word along the tiles of t's query block. -/
theorem reg1_w0 (htab : TabWords a1) (b : Fin 4) (t : Fin 4096) (i : ℕ) (hi : i ≤ t.val / 1024) :
    tw0N a1 ((10 * b.val + t.val / 1024 * (t.val / 1024 + 1) / 2) + i) = BitVec.ofNat 32 (t.val / 1024) := by
  have hq : t.val / 1024 < 4 := by have := t.isLt; omega
  obtain ⟨h40, -, hmod⟩ := row_pos b t i hi
  rw [tw0N_eq a1 htab _ h40, hmod]
  exact qiW_tri _ hq i hi

/-- The key-block word along them. -/
theorem reg1_w1 (htab : TabWords a1) (b : Fin 4) (t : Fin 4096) (i : ℕ) (hi : i ≤ t.val / 1024) :
    tw1N a1 ((10 * b.val + t.val / 1024 * (t.val / 1024 + 1) / 2) + i) = BitVec.ofNat 32 i := by
  have hq : t.val / 1024 < 4 := by have := t.isLt; omega
  obtain ⟨h40, -, hmod⟩ := row_pos b t i hi
  rw [tw1N_eq a1 htab _ h40, hmod]
  exact kiW_tri _ hq i hi

/-- Row t mod 1024 of the query block along them is row t of the query array. -/
theorem reg1_q (htab : TabWords a1) (c : Dev nD) (b : Fin 4) (t : Fin 4096) (i : ℕ) (hi : i ≤ t.val / 1024) (e : Fin 128) :
    qN V a1 c ((10 * b.val + t.val / 1024 * (t.val / 1024 + 1) / 2) + i) (ix3 (0 : Fin 1) (⟨t.val % 1024, Nat.mod_lt _ (by norm_num)⟩ : Fin 1024) e) = V c main_v2_0 (ix3 b t e) := by
  have hq : t.val / 1024 < 4 := by have := t.isLt; omega
  obtain ⟨h40, hdiv, hmod⟩ := row_pos b t i hi
  refine (qN_apply V a1 htab c _ h40 _ e).trans ?_
  have eb : (⟨((10 * b.val + t.val / 1024 * (t.val / 1024 + 1) / 2) + i) / 10, by omega⟩ : Fin 4) = b := Fin.ext hdiv
  have et : (⟨1024 * qiN (((10 * b.val + t.val / 1024 * (t.val / 1024 + 1) / 2) + i) % 10) + ((⟨t.val % 1024, Nat.mod_lt _ (by norm_num)⟩ : Fin 1024) : Fin 1024).val,
      by have := qiN_lt (((10 * b.val + t.val / 1024 * (t.val / 1024 + 1) / 2) + i) % 10); have := Nat.mod_lt t.val (show 0 < 1024 by norm_num); show _ + t.val % 1024 < 4096; omega⟩ : Fin 4096) = t :=
    Fin.ext (by
      show 1024 * qiN (((10 * b.val + t.val / 1024 * (t.val / 1024 + 1) / 2) + i) % 10) + t.val % 1024 = t.val
      rw [hmod, qiN_tri _ hq i hi]; omega)
  rw [eb, et]

/-- Row j of the key block at the tile with key block i is row 1024·i + j of the key array. -/
theorem reg1_k (htab : TabWords a1) (c : Dev nD) (b : Fin 4) (t : Fin 4096) (i : ℕ) (hi : i ≤ t.val / 1024) (j : Fin 1024) (e : Fin 128) :
    kN V a1 c ((10 * b.val + t.val / 1024 * (t.val / 1024 + 1) / 2) + i) (ix3 (0 : Fin 1) j e) = V c main_v2_1 (ix3 b (blk i j) e) := by
  have hq : t.val / 1024 < 4 := by have := t.isLt; omega
  obtain ⟨h40, hdiv, hmod⟩ := row_pos b t i hi
  refine (kN_apply V a1 htab c _ h40 j e).trans ?_
  have eb : (⟨((10 * b.val + t.val / 1024 * (t.val / 1024 + 1) / 2) + i) / 10, by omega⟩ : Fin 4) = b := Fin.ext hdiv
  have et : (⟨1024 * kiN (((10 * b.val + t.val / 1024 * (t.val / 1024 + 1) / 2) + i) % 10) + j.val,
      by have := kiN_lt (((10 * b.val + t.val / 1024 * (t.val / 1024 + 1) / 2) + i) % 10); have := j.isLt; omega⟩ : Fin 4096) = blk i j :=
    Fin.ext (by
      show 1024 * kiN (((10 * b.val + t.val / 1024 * (t.val / 1024 + 1) / 2) + i) % 10) + j.val = (blk i j).val
      rw [hmod, kiN_tri _ hq i hi, blk_val i (by omega) j])
  rw [eb, et]

/-- Row j of the value block likewise, in the value array. -/
theorem reg1_v (htab : TabWords a1) (c : Dev nD) (b : Fin 4) (t : Fin 4096) (i : ℕ) (hi : i ≤ t.val / 1024) (j : Fin 1024) (e : Fin 128) :
    vN V a1 c ((10 * b.val + t.val / 1024 * (t.val / 1024 + 1) / 2) + i) (ix3 (0 : Fin 1) j e) = V c main_v2_2 (ix3 b (blk i j) e) := by
  have hq : t.val / 1024 < 4 := by have := t.isLt; omega
  obtain ⟨h40, hdiv, hmod⟩ := row_pos b t i hi
  refine (vN_apply V a1 htab c _ h40 j e).trans ?_
  have eb : (⟨((10 * b.val + t.val / 1024 * (t.val / 1024 + 1) / 2) + i) / 10, by omega⟩ : Fin 4) = b := Fin.ext hdiv
  have et : (⟨1024 * kiN (((10 * b.val + t.val / 1024 * (t.val / 1024 + 1) / 2) + i) % 10) + j.val,
      by have := kiN_lt (((10 * b.val + t.val / 1024 * (t.val / 1024 + 1) / 2) + i) % 10); have := j.isLt; omega⟩ : Fin 4096) = blk i j :=
    Fin.ext (by
      show 1024 * kiN (((10 * b.val + t.val / 1024 * (t.val / 1024 + 1) / 2) + i) % 10) + j.val = (blk i j).val
      rw [hmod, kiN_tri _ hq i hi, blk_val i (by omega) j])
  rw [eb, et]

end Cert.KernelIdeal.HandValue
end
-- ==== Proof.KernelFinal.lean ====
/-
  The attention kernel's output array, entry by entry, is the specification of the four argument arrays.

  The precondition makes every argument entry a real number. The projection region leaves the three projections
  of the input rows in the arrays the attention region reads. The attention region's output entry at query
  position t of batch b is what the diagonal tile of t's query block wrote back: the carried state after the
  tiles of that block, whose table words, query, key and value blocks are those of the schedule. So the entry is
  the specification's.
-/
import proofs.«155321_j4011499454905_2_alg».proof.Proof.KernelValue
import proofs.«155321_j4011499454905_2_alg».proof.Proof.FrameRun
import proofs.«155321_j4011499454905_2_alg».proof.Proof.TableAdm
import proofs.«155321_j4011499454905_2_alg».proof.Proof.PreFinite
import proofs.«155321_j4011499454905_2_alg».proof.Proof.ProjFinal
import proofs.«155321_j4011499454905_2_alg».proof.Proof.ValueReg1Blocks

noncomputable section

namespace Cert.KernelIdeal.HandValue

open Idealize.ShloMosaic Idealize.ShloMosaic.ValueIdx Idealize.ShloMosaic.TcCoe Idealize.SL.Sem
  Cert.KernelIdeal Cert.KernelIdeal.Gen Cert.KernelIdeal.Hand
open Cert.AttnSpec (proj attn)

variable (m : (ℓ : Loc nD τ sig) → Buf (Elt Ideal) ℓ)

/-- The query, key and value arrays the attention region is entered with are the three projections. -/
theorem entered_q (c : Dev nD) (b : Fin 4) (t : Fin 4096) (e : Fin 128) :
    E2 m c main_v2_0 (ix3 b t e)
      = proj (m ((c.tc : Thread nD τ).loc main_arg0)) (m ((c.tc : Thread nD τ).loc main_arg1)) b t e :=
  (congrFun (W2_arr m c 2) (ix3 b t e)).trans (q_final m c b t e)

theorem entered_k (c : Dev nD) (b : Fin 4) (t : Fin 4096) (e : Fin 128) :
    E2 m c main_v2_1 (ix3 b t e)
      = proj (m ((c.tc : Thread nD τ).loc main_arg0)) (m ((c.tc : Thread nD τ).loc main_arg2)) b t e :=
  (congrFun (W2_arr m c 3) (ix3 b t e)).trans (k_final m c b t e)

theorem entered_v (c : Dev nD) (b : Fin 4) (t : Fin 4096) (e : Fin 128) :
    E2 m c main_v2_2 (ix3 b t e)
      = proj (m ((c.tc : Thread nD τ).loc main_arg0)) (m ((c.tc : Thread nD τ).loc main_arg3)) b t e :=
  (congrFun (W2_arr m c 4) (ix3 b t e)).trans (v_final m c b t e)

/-- Under the precondition the output array after the attention region is causal attention of the argument
    arrays, entry by entry. -/
theorem kernel_final (hpre : Cert.Pre_KernelIdeal m) (c : Dev nD) (b : Fin 4) (t : Fin 4096) (d : Fin 128) :
    (dat1 (E2 m) a1C c).arrAt 3 (cfg1 (a1C (F := Ideal))).N (ix3 b t d)
      = attn (m ((c.tc : Thread nD τ).loc main_arg0)) (m ((c.tc : Thread nD τ).loc main_arg1))
          (m ((c.tc : Thread nD τ).loc main_arg2)) (m ((c.tc : Thread nD τ).loc main_arg3)) b t d := by
  obtain ⟨hx, hq, hk, hv⟩ := Cert.PreFinite.finite_of_pre hpre c
  exact kernel_value (E2 m) a1C c _ _ _ _ hx hq hk hv b t d
    (10 * b.val + t.val / 1024 * (t.val / 1024 + 1) / 2)
    (reg1_out (E2 m) a1C htab_a1C c b t d) (reg1_w0 a1C htab_a1C b t) (reg1_w1 a1C htab_a1C b t)
    (reg1_q (E2 m) a1C htab_a1C c b t) (reg1_k (E2 m) a1C htab_a1C c b t) (reg1_v (E2 m) a1C htab_a1C c b t)
    (entered_q m c) (entered_k m c) (entered_v m c)

end Cert.KernelIdeal.HandValue

end
-- ==== Proof.lean ====
/-
  The certificate's five claims for the causal attention kernel against its softmax reference.
  Frames: both printed kernel programs run through the same chain of items — host prefix, projection region,
  attention region — whose run names every surviving buffer's final contents; the arguments are among the
  buffers no item writes. The reference is a straight line of host operations.
  Preserves: the two places where the kernel's large negative constant was read as −∞.
  Algebraic: on finite inputs the kernel's result array is the specification's causal attention entry by
  entry (the running maximum / sum / weighted-sum recurrence over key blocks equals the softmax over the whole
  causal row), and so is the reference's; both runs end at that one array.
-/
import proofs.«155321_j4011499454905_2_alg».proof.Defs
import proofs.«155321_j4011499454905_2_alg».proof.Proof.Gen.Kernel
import proofs.«155321_j4011499454905_2_alg».proof.Proof.Gen.KernelIdeal
import proofs.«155321_j4011499454905_2_alg».proof.Proof.Gen.ReferenceIdeal
import proofs.«155321_j4011499454905_2_alg».proof.Proof.Gen.Pre_finite_inputs
import proofs.«155321_j4011499454905_2_alg».proof.Proof.KernelRun
import proofs.«155321_j4011499454905_2_alg».proof.Proof.KernelRunBits
import proofs.«155321_j4011499454905_2_alg».proof.Proof.RefValue
import proofs.«155321_j4011499454905_2_alg».proof.Proof.KernelFinal
import Idealize.ShloMosaic.PureOps.IdealRules
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run_result (F := Bits) m ρ)

theorem frame_ki : Cert.frame_KernelIdeal := fun m ρ _ =>
  (θ_run (Cert.KernelIdeal.defs (F := Ideal)) _ _).mono (fun _ h c => (h c).2) (Cert.KernelIdeal.Hand.run_result (F := Ideal) m ρ)

theorem frame_ri : Cert.frame_ReferenceIdeal := fun m ρ _ =>
  (θ_run (Cert.ReferenceIdeal.defs (F := Ideal)) _ _).mono (fun _ h c => (h c).2) (Cert.ReferenceIdeal.RefValue.run_spec m ρ)

/-- The named lower bound denotes −∞ at the ideal instance, at both of its sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both runs end at the specification's array. -/
theorem algebraic : Cert.algebraic_KernelIdeal_ReferenceIdeal := by
  intro m ρ m' ρ' hpre hagree
  refine ⟨fun c => (Cert.KernelIdeal.Hand.datA (F := Ideal) m c).arrAt 3 _, Cert.KernelIdeal.Hand.run_result (F := Ideal) m ρ, ?_⟩
  refine (θ_run (Cert.ReferenceIdeal.defs (F := Ideal)) _ _).mono (fun _ h c => ⟨(h c).1.trans ?_, (h c).2⟩)
    (Cert.ReferenceIdeal.RefValue.run_spec m' ρ')
  rw [(hagree c).1, (hagree c).2.1, (hagree c).2.2.1, (hagree c).2.2.2]
  funext i
  rw [ValueIdx.eq_ix3 i]
  exact (Cert.ReferenceIdeal.RefValue.result_eq _ _ _ _ (i 0) (i 1) (i 2)).trans
    (Cert.KernelIdeal.HandValue.kernel_final m hpre c (i 0) (i 1) (i 2)).symm

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
